-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x8x8x8x4096 : Shape := ⟨6, ![1, 16, 8, 8, 8, 4096]⟩
abbrev S_ : Shape := ⟨0, ![]⟩

class Facts : Prop where
  bcast_S_S1x16x8x8x8x4096 : S_.BroadcastsInDim S1x16x8x8x8x4096 (![] : Fin 0 → Fin S1x16x8x8x8x4096.rank)
  reducesTo_S1x16x8x8x8x4096_S_d0_1_2_3_4_5 : S1x16x8x8x8x4096.ReducesTo [0, 1, 2, 3, 4, 5] S_
  h_S_ : 0 < S_.numel

variable [Facts]

def fn {F : FTy → Type} [FloatOps F] (main_arg0 : FVec F S1x16x8x8x8x4096 .f32) : IVec S_ 1 :=
  let main_v0 : FVec F S1x16x8x8x8x4096 .f32 := Host.absf main_arg0
  let main_cst : FVec F S_ .f32 := constant S_ .f32 0x7F800000#32
  let main_v1 : FVec F S1x16x8x8x8x4096 .f32 := broadcastInDim S1x16x8x8x8x4096 ![] bcast_S_S1x16x8x8x8x4096 main_cst
  let main_v2 : IVec S1x16x8x8x8x4096 1 := cmpf .olt main_v0 main_v1
  let main_c : IVec S_ 1 := constantI S_ 1 1#1
  let main_v3 : IVec S_ 1 := (fun x v => Host.reduce IntOp.andi x v reducesTo_S1x16x8x8x8x4096_S_d0_1_2_3_4_5 h_S_) main_v2 main_c
  main_v3
-- ==== Kernel.lean ====
abbrev S1x16x8x8x8x4096 : Shape := ⟨6, ![1, 16, 8, 8, 8, 4096]⟩
abbrev S1x16x8x8x8x16x16x16 : Shape := ⟨8, ![1, 16, 8, 8, 8, 16, 16, 16]⟩
abbrev S1x16x16x8x16x8x16x8 : Shape := ⟨8, ![1, 16, 16, 8, 16, 8, 16, 8]⟩
abbrev S1x16x128x128x128 : Shape := ⟨5, ![1, 16, 128, 128, 128]⟩
abbrev S16x128x128x128 : Shape := ⟨4, ![16, 128, 128, 128]⟩
abbrev S16x68x128x128 : Shape := ⟨4, ![16, 68, 128, 128]⟩
abbrev S2x8x128x128 : Shape := ⟨4, ![2, 8, 128, 128]⟩
abbrev S2x68x128x128 : Shape := ⟨4, ![2, 68, 128, 128]⟩
abbrev S16x128x68x128 : Shape := ⟨4, ![16, 128, 68, 128]⟩
abbrev S16x68x68x128 : Shape := ⟨4, ![16, 68, 68, 128]⟩
abbrev S4x8x68x128 : Shape := ⟨4, ![4, 8, 68, 128]⟩
abbrev S4x68x68x128 : Shape := ⟨4, ![4, 68, 68, 128]⟩
abbrev S16x128x68x68 : Shape := ⟨4, ![16, 128, 68, 68]⟩
abbrev S16x68x68x68 : Shape := ⟨4, ![16, 68, 68, 68]⟩
abbrev S4x8x68x68 : Shape := ⟨4, ![4, 8, 68, 68]⟩
abbrev S4x68x68x68 : Shape := ⟨4, ![4, 68, 68, 68]⟩
abbrev S1x16x68x68x68 : Shape := ⟨5, ![1, 16, 68, 68, 68]⟩

abbrev nBuf : Space → Nat
  | .hbm => 12
  | .vmem => 15
  | .smem => 0
  | _ => 0

abbrev bufTy : (tb : Table) → Fin (tcTables nBuf tb) → BufTy
  | .hbm, ⟨0, _⟩ => ⟨S1x16x8x8x8x4096, .f32⟩
  | .hbm, ⟨1, _⟩ => ⟨S1x16x8x8x8x16x16x16, .f32⟩
  | .hbm, ⟨2, _⟩ => ⟨S1x16x16x8x16x8x16x8, .f32⟩
  | .hbm, ⟨3, _⟩ => ⟨S1x16x128x128x128, .f32⟩
  | .hbm, ⟨4, _⟩ => ⟨S16x128x128x128, .f32⟩
  | .hbm, ⟨5, _⟩ => ⟨S16x68x128x128, .f32⟩
  | .hbm, ⟨6, _⟩ => ⟨S16x128x68x128, .f32⟩
  | .hbm, ⟨7, _⟩ => ⟨S16x68x68x128, .f32⟩
  | .hbm, ⟨8, _⟩ => ⟨S16x128x68x68, .f32⟩
  | .hbm, ⟨9, _⟩ => ⟨S16x68x68x68, .f32⟩
  | .hbm, ⟨10, _⟩ => ⟨S16x68x68x68, .f32⟩
  | .hbm, ⟨11, _⟩ => ⟨S1x16x68x68x68, .f32⟩
  | .local _ .vmem, ⟨0, _⟩ => ⟨S2x8x128x128, .f32⟩
  | .local _ .vmem, ⟨1, _⟩ => ⟨S2x8x128x128, .f32⟩
  | .local _ .vmem, ⟨2, _⟩ => ⟨S2x68x128x128, .f32⟩
  | .local _ .vmem, ⟨3, _⟩ => ⟨S2x68x128x128, .f32⟩
  | .local _ .vmem, ⟨4, _⟩ => ⟨S2x68x128x128, .f32⟩
  | .local _ .vmem, ⟨5, _⟩ => ⟨S4x8x68x128, .f32⟩
  | .local _ .vmem, ⟨6, _⟩ => ⟨S4x8x68x128, .f32⟩
  | .local _ .vmem, ⟨7, _⟩ => ⟨S4x68x68x128, .f32⟩
  | .local _ .vmem, ⟨8, _⟩ => ⟨S4x68x68x128, .f32⟩
  | .local _ .vmem, ⟨9, _⟩ => ⟨S4x68x68x128, .f32⟩
  | .local _ .vmem, ⟨10, _⟩ => ⟨S4x8x68x68, .f32⟩
  | .local _ .vmem, ⟨11, _⟩ => ⟨S4x8x68x68, .f32⟩
  | .local _ .vmem, ⟨12, _⟩ => ⟨S4x68x68x68, .f32⟩
  | .local _ .vmem, ⟨13, _⟩ => ⟨S4x68x68x68, .f32⟩
  | .local _ .vmem, ⟨14, _⟩ => ⟨S4x68x68x68, .f32⟩
  | _, _ => ⟨S1x16x8x8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c4_i32 : BitVec 32 := 4#32
  let v3 : BitVec 32 := Scalar.muli arg1 c4_i32
  v3
def k0_off1 (i : grid0.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x68x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

def k1_mult1 (i : grid1.Coords) : BitVec 32 :=
  let arg1 : BitVec 32 := BitVec.ofNat 32 (i 1).val
  let c4_i32 : BitVec 32 := 4#32
  let v3 : BitVec 32 := Scalar.muli arg1 c4_i32
  v3
def k1_off1 (i : grid1.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x8x68x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x68x68x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 16], ![false, false]⟩

def k2_mult1 (i : grid2.Coords) : BitVec 32 :=
  let arg1 : BitVec 32 := BitVec.ofNat 32 (i 1).val
  let c4_i32 : BitVec 32 := 4#32
  let v3 : BitVec 32 := Scalar.muli arg1 c4_i32
  v3
def k2_off1 (i : grid2.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S4x8x68x68 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4x68x68x68 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

class Facts₀ : Prop where
  shapeCasts_S1x16x8x8x8x4096_S1x16x8x8x8x16x16x16 : S1x16x8x8x8x4096.ShapeCasts S1x16x8x8x8x16x16x16
  transposes_S1x16x8x8x8x16x16x16_S1x16x16x8x16x8x16x8_0_1_5_2_6_3_7_4 : S1x16x8x8x8x16x16x16.Transposes [0, 1, 5, 2, 6, 3, 7, 4] S1x16x16x8x16x8x16x8
  shapeCasts_S1x16x16x8x16x8x16x8_S1x16x128x128x128 : S1x16x16x8x16x8x16x8.ShapeCasts S1x16x128x128x128
  shapeCasts_S1x16x128x128x128_S16x128x128x128 : S1x16x128x128x128.ShapeCasts S16x128x128x128
  inb_S2x68x128x128_S2x68x128x128_0_0_0_0 : ∀ a, (![0, 0, 0, 0] : Fin 4 → Nat) a + S2x68x128x128.size a ≤ S2x68x128x128.size a
  h_S2x68x128x128 : 0 < S2x68x128x128.numel
  shapeCasts_S2x68x128x128_S2x68x128x128 : S2x68x128x128.ShapeCasts S2x68x128x128
  h_S2x8x128x128 : 0 < S2x8x128x128.numel
  inb_S2x8x128x128_S2x8x128x128_0_0_0_0 : ∀ a, (![0, 0, 0, 0] : Fin 4 → Nat) a + S2x8x128x128.size a ≤ S2x8x128x128.size a
  shapeCasts_S2x8x128x128_S2x8x128x128 : S2x8x128x128.ShapeCasts S2x8x128x128
  transposes_S16x68x128x128_S16x128x68x128_0_2_1_3 : S16x68x128x128.Transposes [0, 2, 1, 3] S16x128x68x128
  inb_S4x68x68x128_S4x68x68x128_0_0_0_0 : ∀ a, (![0, 0, 0, 0] : Fin 4 → Nat) a + S4x68x68x128.size a ≤ S4x68x68x128.size a
  h_S4x68x68x128 : 0 < S4x68x68x128.numel
  shapeCasts_S4x68x68x128_S4x68x68x128 : S4x68x68x128.ShapeCasts S4x68x68x128
  h_S4x8x68x128 : 0 < S4x8x68x128.numel
  inb_S4x8x68x128_S4x8x68x128_0_0_0_0 : ∀ a, (![0, 0, 0, 0] : Fin 4 → Nat) a + S4x8x68x128.size a ≤ S4x8x68x128.size a
  shapeCasts_S4x8x68x128_S4x8x68x128 : S4x8x68x128.ShapeCasts S4x8x68x128
  transposes_S16x68x68x128_S16x128x68x68_0_3_2_1 : S16x68x68x128.Transposes [0, 3, 2, 1] S16x128x68x68
  inb_S4x68x68x68_S4x68x68x68_0_0_0_0 : ∀ a, (![0, 0, 0, 0] : Fin 4 → Nat) a + S4x68x68x68.size a ≤ S4x68x68x68.size a
  h_S4x68x68x68 : 0 < S4x68x68x68.numel
  shapeCasts_S4x68x68x68_S4x68x68x68 : S4x68x68x68.ShapeCasts S4x68x68x68
  h_S4x8x68x68 : 0 < S4x8x68x68.numel
  inb_S4x8x68x68_S4x8x68x68_0_0_0_0 : ∀ a, (![0, 0, 0, 0] : Fin 4 → Nat) a + S4x8x68x68.size a ≤ S4x8x68x68.size a
  shapeCasts_S4x8x68x68_S4x8x68x68 : S4x8x68x68.ShapeCasts S4x8x68x68
  transposes_S16x68x68x68_S16x68x68x68_0_2_3_1 : S16x68x68x68.Transposes [0, 2, 3, 1] S16x68x68x68
  shapeCasts_S16x68x68x68_S1x16x68x68x68 : S16x68x68x68.ShapeCasts S1x16x68x68x68
  hrank0 : 0 < grid0.rank
  k0_mult1_dvd : ∀ i : grid0.Coords, 4 ∣ (k0_mult1 i).toNat
  k0_off1_inb : ∀ i : grid0.Coords, ∀ a, (k0_off1 i) a + S2x8x128x128.size a ≤ S2x68x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x128x128.size a ≤ S16x128x128x128.size a
  hwx0_0 : ∀ i : grid0.Coords, EltTy.bits .f32 = 32 ∨ (Rect.block (s := S16x128x128x128) S2x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x68x128x128.size a ≤ S16x68x128x128.size a
  hwx0_1 : ∀ i : grid0.Coords, EltTy.bits .f32 = 32 ∨ (Rect.block (s := S16x68x128x128) S2x68x128x128.size (cc0_transform_1 i) (hinb0_1 i)).WholeWords (EltTy.packing .f32)
  hrank1 : 0 < grid1.rank
  k1_mult1_dvd : ∀ i : grid1.Coords, 4 ∣ (k1_mult1 i).toNat
  k1_off1_inb : ∀ i : grid1.Coords, ∀ a, (k1_off1 i) a + S4x8x68x128.size a ≤ S4x68x68x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x8x68x128.size a ≤ S16x128x68x128.size a
  hwx1_0 : ∀ i : grid1.Coords, EltTy.bits .f32 = 32 ∨ (Rect.block (s := S16x128x68x128) S4x8x68x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x68x68x128.size a ≤ S16x68x68x128.size a
  hwx1_1 : ∀ i : grid1.Coords, EltTy.bits .f32 = 32 ∨ (Rect.block (s := S16x68x68x128) S4x68x68x128.size (cc1_transform_1 i) (hinb1_1 i)).WholeWords (EltTy.packing .f32)
  hrank2 : 0 < grid2.rank
  k2_mult1_dvd : ∀ i : grid2.Coords, 4 ∣ (k2_mult1 i).toNat
  k2_off1_inb : ∀ i : grid2.Coords, ∀ a, (k2_off1 i) a + S4x8x68x68.size a ≤ S4x68x68x68.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x8x68x68.size a ≤ S16x128x68x68.size a
  hwx2_0 : ∀ i : grid2.Coords, EltTy.bits .f32 = 32 ∨ (Rect.block (s := S16x128x68x68) S4x8x68x68.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x68x68x68.size a ≤ S16x68x68x68.size a
  hwx2_1 : ∀ i : grid2.Coords, EltTy.bits .f32 = 32 ∨ (Rect.block (s := S16x68x68x68) S4x68x68x68.size (cc2_transform_1 i) (hinb2_1 i)).WholeWords (EltTy.packing .f32)

variable [Facts₀]

abbrev win0_0 : Pipeline.Window sig grid0 :=
  Pipeline.Window.ofSpec (Memref.whole main_v3) S2x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x68x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v5) S4x8x68x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4x68x68x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v7) S4x8x68x68.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4x68x68x68.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S1x16x8x8x8x4096 : Shape := ⟨6, ![1, 16, 8, 8, 8, 4096]⟩
abbrev S1x16x8x8x8x16x16x16 : Shape := ⟨8, ![1, 16, 8, 8, 8, 16, 16, 16]⟩
abbrev S1x16x16x8x16x8x16x8 : Shape := ⟨8, ![1, 16, 16, 8, 16, 8, 16, 8]⟩
abbrev S1x16x128x128x128 : Shape := ⟨5, ![1, 16, 128, 128, 128]⟩
abbrev S16 : Shape := ⟨1, ![16]⟩
abbrev S16x1 : Shape := ⟨2, ![16, 1]⟩
abbrev S_ : Shape := ⟨0, ![]⟩
abbrev S8 : Shape := ⟨1, ![8]⟩
abbrev S1x8 : Shape := ⟨2, ![1, 8]⟩
abbrev S16x8 : Shape := ⟨2, ![16, 8]⟩
abbrev S128 : Shape := ⟨1, ![128]⟩
abbrev S1x16x68x68x68 : Shape := ⟨5, ![1, 16, 68, 68, 68]⟩
abbrev S128x1x1 : Shape := ⟨3, ![128, 1, 1]⟩
abbrev S1x128x1 : Shape := ⟨3, ![1, 128, 1]⟩
abbrev S1x1x128 : Shape := ⟨3, ![1, 1, 128]⟩
abbrev S128x128x128 : Shape := ⟨3, ![128, 128, 128]⟩
abbrev S128x128x128x1 : Shape := ⟨4, ![128, 128, 128, 1]⟩
abbrev S128x128x128x3 : Shape := ⟨4, ![128, 128, 128, 3]⟩

abbrev nBuf : Space → Nat
  | .hbm => 71
  | .vmem => 0
  | .smem => 0
  | _ => 0

abbrev bufTy : (tb : Table) → Fin (tcTables nBuf tb) → BufTy
  | .hbm, ⟨0, _⟩ => ⟨S1x16x8x8x8x4096, .f32⟩
  | .hbm, ⟨1, _⟩ => ⟨S1x16x8x8x8x16x16x16, .f32⟩
  | .hbm, ⟨2, _⟩ => ⟨S1x16x16x8x16x8x16x8, .f32⟩
  | .hbm, ⟨3, _⟩ => ⟨S1x16x128x128x128, .f32⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S8, .i32⟩
  | .hbm, ⟨10, _⟩ => ⟨S1x8, .i32⟩
  | .hbm, ⟨11, _⟩ => ⟨S16x8, .i32⟩
  | .hbm, ⟨12, _⟩ => ⟨S16x8, .i32⟩
  | .hbm, ⟨13, _⟩ => ⟨S16x8, .i32⟩
  | .hbm, ⟨14, _⟩ => ⟨S128, .i32⟩
  | .hbm, ⟨15, _⟩ => ⟨S16, .i32⟩
  | .hbm, ⟨16, _⟩ => ⟨S16x1, .i32⟩
  | .hbm, ⟨17, _⟩ => ⟨S_, .i32⟩
  | .hbm, ⟨18, _⟩ => ⟨S16x1, .i32⟩
  | .hbm, ⟨19, _⟩ => ⟨S16x1, .i32⟩
  | .hbm, ⟨20, _⟩ => ⟨S8, .i32⟩
  | .hbm, ⟨21, _⟩ => ⟨S1x8, .i32⟩
  | .hbm, ⟨22, _⟩ => ⟨S16x8, .i32⟩
  | .hbm, ⟨23, _⟩ => ⟨S16x8, .i32⟩
  | .hbm, ⟨24, _⟩ => ⟨S16x8, .i32⟩
  | .hbm, ⟨25, _⟩ => ⟨S128, .i32⟩
  | .hbm, ⟨26, _⟩ => ⟨S16, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i32⟩
  | .hbm, ⟨31, _⟩ => ⟨S8, .i32⟩
  | .hbm, ⟨32, _⟩ => ⟨S1x8, .i32⟩
  | .hbm, ⟨33, _⟩ => ⟨S16x8, .i32⟩
  | .hbm, ⟨34, _⟩ => ⟨S16x8, .i32⟩
  | .hbm, ⟨35, _⟩ => ⟨S16x8, .i32⟩
  | .hbm, ⟨36, _⟩ => ⟨S128, .i32⟩
  | .hbm, ⟨37, _⟩ => ⟨S_, .f32⟩
  | .hbm, ⟨38, _⟩ => ⟨S1x16x68x68x68, .f32⟩
  | .hbm, ⟨39, _⟩ => ⟨S128x1x1, .i32⟩
  | .hbm, ⟨40, _⟩ => ⟨S1x128x1, .i32⟩
  | .hbm, ⟨41, _⟩ => ⟨S1x1x128, .i32⟩
  | .hbm, ⟨42, _⟩ => ⟨S_, .i32⟩
  | .hbm, ⟨43, _⟩ => ⟨S128x1x1, .i32⟩
  | .hbm, ⟨44, _⟩ => ⟨S128x1x1, .i1⟩
  | .hbm, ⟨45, _⟩ => ⟨S_, .i32⟩
  | .hbm, ⟨46, _⟩ => ⟨S128x1x1, .i32⟩
  | .hbm, ⟨47, _⟩ => ⟨S128x1x1, .i32⟩
  | .hbm, ⟨48, _⟩ => ⟨S128x1x1, .i32⟩
  | .hbm, ⟨49, _⟩ => ⟨S_, .i32⟩
  | .hbm, ⟨50, _⟩ => ⟨S1x128x1, .i32⟩
  | .hbm, ⟨51, _⟩ => ⟨S1x128x1, .i1⟩
  | .hbm, ⟨52, _⟩ => ⟨S_, .i32⟩
  | .hbm, ⟨53, _⟩ => ⟨S1x128x1, .i32⟩
  | .hbm, ⟨54, _⟩ => ⟨S1x128x1, .i32⟩
  | .hbm, ⟨55, _⟩ => ⟨S1x128x1, .i32⟩
  | .hbm, ⟨56, _⟩ => ⟨S_, .i32⟩
  | .hbm, ⟨57, _⟩ => ⟨S1x1x128, .i32⟩
  | .hbm, ⟨58, _⟩ => ⟨S1x1x128, .i1⟩
  | .hbm, ⟨59, _⟩ => ⟨S_, .i32⟩
  | .hbm, ⟨60, _⟩ => ⟨S1x1x128, .i32⟩
  | .hbm, ⟨61, _⟩ => ⟨S1x1x128, .i32⟩
  | .hbm, ⟨62, _⟩ => ⟨S1x1x128, .i32⟩
  | .hbm, ⟨63, _⟩ => ⟨S128x128x128, .i32⟩
  | .hbm, ⟨64, _⟩ => ⟨S128x128x128, .i32⟩
  | .hbm, ⟨65, _⟩ => ⟨S128x128x128, .i32⟩
  | .hbm, ⟨66, _⟩ => ⟨S128x128x128x1, .i32⟩
  | .hbm, ⟨67, _⟩ => ⟨S128x128x128x1, .i32⟩
  | .hbm, ⟨68, _⟩ => ⟨S128x128x128x1, .i32⟩
  | .hbm, ⟨69, _⟩ => ⟨S128x128x128x3, .i32⟩
  | .hbm, ⟨70, _⟩ => ⟨S1x16x68x68x68, .f32⟩
  | _, _ => ⟨S1x16x8x8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c_2 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_c_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_6 : Ref sig .tc := ⟨.hbm, 56, rfl⟩
abbrev main_v47 : Ref sig .tc := ⟨.hbm, 57, rfl⟩
abbrev main_v48 : Ref sig .tc := ⟨.hbm, 58, rfl⟩
abbrev main_c_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]

class Facts₀ : Prop where
  shapeCasts_S1x16x8x8x8x4096_S1x16x8x8x8x16x16x16 : S1x16x8x8x8x4096.ShapeCasts S1x16x8x8x8x16x16x16
  transposes_S1x16x8x8x8x16x16x16_S1x16x16x8x16x8x16x8_0_1_5_2_6_3_7_4 : S1x16x8x8x8x16x16x16.Transposes [0, 1, 5, 2, 6, 3, 7, 4] S1x16x16x8x16x8x16x8
  shapeCasts_S1x16x16x8x16x8x16x8_S1x16x128x128x128 : S1x16x16x8x16x8x16x8.ShapeCasts S1x16x128x128x128
  bcast_S16_S16x1_0 : S16.BroadcastsInDim S16x1 (![0] : Fin 1 → Fin S16x1.rank)
  bcast_S_S16x1 : S_.BroadcastsInDim S16x1 (![] : Fin 0 → Fin S16x1.rank)
  bcast_S8_S1x8_1 : S8.BroadcastsInDim S1x8 (![1] : Fin 1 → Fin S1x8.rank)
  bcast_S16x1_S16x8_0_1 : S16x1.BroadcastsInDim S16x8 (![0, 1] : Fin 2 → Fin S16x8.rank)
  bcast_S1x8_S16x8_0_1 : S1x8.BroadcastsInDim S16x8 (![0, 1] : Fin 2 → Fin S16x8.rank)
  shapeCasts_S16x8_S128 : S16x8.ShapeCasts S128
  bcast_S_S1x16x68x68x68 : S_.BroadcastsInDim S1x16x68x68x68 (![] : Fin 0 → Fin S1x16x68x68x68.rank)
  bcast_S128_S128x1x1_0 : S128.BroadcastsInDim S128x1x1 (![0] : Fin 1 → Fin S128x1x1.rank)
  bcast_S128_S1x128x1_1 : S128.BroadcastsInDim S1x128x1 (![1] : Fin 1 → Fin S1x128x1.rank)
  bcast_S128_S1x1x128_2 : S128.BroadcastsInDim S1x1x128 (![2] : Fin 1 → Fin S1x1x128.rank)
  bcast_S_S128x1x1 : S_.BroadcastsInDim S128x1x1 (![] : Fin 0 → Fin S128x1x1.rank)
  bcast_S_S1x128x1 : S_.BroadcastsInDim S1x128x1 (![] : Fin 0 → Fin S1x128x1.rank)
  bcast_S_S1x1x128 : S_.BroadcastsInDim S1x1x128 (![] : Fin 0 → Fin S1x1x128.rank)
  bcast_S128x1x1_S128x128x128_0_1_2 : S128x1x1.BroadcastsInDim S128x128x128 (![0, 1, 2] : Fin 3 → Fin S128x128x128.rank)
  bcast_S1x128x1_S128x128x128_0_1_2 : S1x128x1.BroadcastsInDim S128x128x128 (![0, 1, 2] : Fin 3 → Fin S128x128x128.rank)
  bcast_S1x1x128_S128x128x128_0_1_2 : S1x1x128.BroadcastsInDim S128x128x128 (![0, 1, 2] : Fin 3 → Fin S128x128x128.rank)
  bcast_S128x128x128_S128x128x128x1_0_1_2 : S128x128x128.BroadcastsInDim S128x128x128x1 (![0, 1, 2] : Fin 3 → Fin S128x128x128x1.rank)
  concatenates_S128x128x128x1_S128x128x128x1_S128x128x128x1_S128x128x128x3_d3 : Shape.Concatenates [S128x128x128x1, S128x128x128x1, S128x128x128x1] S128x128x128x3 3
  scatter_S1x16x68x68x68_S128x128x128x3_S1x16x128x128x128_01_234_234_3_wf : ScatterDims.WF S1x16x68x68x68 S128x128x128x3 S1x16x128x128x128 [0, 1] [2, 3, 4] [2, 3, 4] 3

variable [Facts₀]

def scatter_S1x16x68x68x68_S128x128x128x3_S1x16x128x128x128_01_234_234_3 : ScatterDims S1x16x68x68x68 S128x128x128x3 S1x16x128x128x128 where
  updateWindowDims := [0, 1]
  insertedWindowDims := [2, 3, 4]
  scatterDimsToOperandDims := [2, 3, 4]
  indexVectorDim := 3
  wf := scatter_S1x16x68x68x68_S128x128x128x3_S1x16x128x128x128_01_234_234_3_wf

class Facts : Prop extends Facts₀ where

variable [Facts]
-- ==== Proof.LibOverlay.lean ====
/-
  Reading back what stores leave in a buffer, as a function of what it held before.

  A store through a rectangle `r` replaces the buffer's values on `r` by the payload and keeps every other value:
  read back, the contents are `r.overlay` of the earlier contents with the payload (`read_writes_cons`, and
  `read_writes_one` for a single store over known contents). A store through the whole-shape rectangle at zero
  offsets leaves exactly its payload, whatever was there (`read_writes_cons_whole`), and an overlay through
  that rectangle is the payload (`overlay_unit_zero`). Generic in the view, the shape and the element type.
-/
import Idealize.ShloMosaic.Lib.Writes
import Idealize.ShloMosaic.Lib.Pipeline.Value

noncomputable section

namespace Cert.LibOverlay

open Idealize.ShloMosaic

variable {sig : RefSig} {κ : Kind} {sp : Space} {s : Shape} {e : EltTy} {Val : EltTy → Type}

/-- The rank-4 zero offsets, however they are spelt. -/
theorem zeros4 : (![0, 0, 0, 0] : Fin 4 → ℕ) = fun _ => 0 := by funext a; fin_cases a <;> rfl

/-- The last store's rectangle holds its payload; off it the earlier stores' result is kept. -/
theorem read_writes_cons (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.writes_cons, View.read_slice_write_of_not_mem r _ _ _ (by rw [Rect.map_emb_univ]; exact hy),
      Rect.overlay_of_not_mem _ _ _ hy]

/-- One store over known contents. -/
theorem read_writes_one (v : View sig κ sp s e) (f : v.ty.Contents Val) (r : Rect s) (w : r.shape.Idx → Val e) :
    v.read Val (v.writes Val f [⟨r, w⟩]) = r.overlay (v.read Val f) w :=
  read_writes_cons v f r w []

/-- An overlay through the whole-shape rectangle is the payload. -/
theorem overlay_unit_zero {off : Fin s.rank → Nat} (h : off = fun _ => 0) (inb : ∀ a, off a + s.size a ≤ s.size a)
    (X : s.Idx → Val e) (w : s.Idx → Val e) : (Rect.unit off s.size inb).overlay X w = w := by
  subst h; funext y
  have e := Rect.overlay_emb (Rect.whole s) X w y
  rw [Rect.emb_whole_apply] at e
  exact e

/-- A store through the whole-shape rectangle, last, leaves its payload. -/
theorem read_writes_cons_whole (v : View sig κ sp s e) (f : v.ty.Contents Val) {off : Fin s.rank → Nat}
    (h : off = fun _ => 0) (inb : ∀ a, off a + s.size a ≤ s.size a) (w : s.Idx → Val e) (L : List (View.Piece Val s e)) :
    v.read Val (v.writes Val f ((⟨Rect.unit off s.size inb, w⟩ : View.Piece Val s e) :: L)) = w := by
  rw [read_writes_cons, overlay_unit_zero h inb]

end Cert.LibOverlay

end
-- ==== Proof.BitsFold0Run.lean ====
/-
  Region 0 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step0 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.Kernel.Launch
import proofs.«130459_j45174466019398_2_alg».proof.Proof.Gen.Kernel.Skeleton
import proofs.«130459_j45174466019398_2_alg».proof.Proof.Gen.Kernel.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst0 (i : grid0.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst0_iff : ∀ t : Fin cfg0.N, isFirst0 (grid0.coords t) ↔ t.val % 16 = 0 :=
  (by decide +kernel : ∀ t : Fin grid0.N, isFirst0 (grid0.coords t) ↔ t.val % 16 = 0)

/-- "This is the last window of its channel block" (the body's second conditional). -/
abbrev isLast0 (i : grid0.Coords) : Prop := k0_cond2 i = 1#1
/-- The last window is at the points ≡ 15 (mod 16). -/
theorem isLast0_iff : ∀ t : Fin cfg0.N, isLast0 (grid0.coords t) ↔ t.val % 16 = 15 :=
  (by decide +kernel : ∀ t : Fin grid0.N, isLast0 (grid0.coords t) ↔ t.val % 16 = 15)

/-- The input window is live at every point. -/
theorem inLive0 : ∀ t : Fin cfg0.N, cfg0.idle 0 (grid0.coords t) = false := by decide +kernel
/-- Off the last window the output window is idle (the body stores nothing into it) -/
theorem outIdle0 : ∀ t : Fin cfg0.N, ¬isLast0 (grid0.coords t) → cfg0.idle 1 (grid0.coords t) = true := by decide +kernel
/-- and its block is not written back; -/
theorem outNoFlush0 : ∀ t : Fin cfg0.N, ¬isLast0 (grid0.coords t) → (cfg0.win 1).flush t = false := by decide +kernel
/-- at the last window it is live. -/
theorem outLive0 : ∀ t : Fin cfg0.N, isLast0 (grid0.coords t) → cfg0.idle 1 (grid0.coords t) = false := by decide +kernel

/-! ## The body's rectangles and the accumulation step -/

/-- The whole accumulator (and the whole output block). -/
abbrev rAll0 : Rect S2x68x128x128 := Rect.unit (s := S2x68x128x128) ![0, 0, 0, 0] S2x68x128x128.size inb_S2x68x128x128_S2x68x128x128_0_0_0_0
/-- The whole input block. -/
abbrev rIn0 : Rect S2x8x128x128 := Rect.unit (s := S2x8x128x128) ![0, 0, 0, 0] S2x8x128x128.size inb_S2x8x128x128_S2x8x128x128_0_0_0_0
/-- The rows of the accumulator that window `i` lands on: 8 rows from row 4·(window number). -/
abbrev rWin0 (i : grid0.Coords) : Rect S2x68x128x128 := Rect.unit (s := S2x68x128x128) (k0_off1 i) S2x8x128x128.size (k0_off1_inb i)

/-- One accumulation step: the rows of window `i` become their sum with the block, every other row is kept. -/
def step0 (i : grid0.Coords) (acc : Vec F S2x68x128x128 .f32) (x : Vec F S2x8x128x128 .f32) : Vec F S2x68x128x128 .f32 :=
  (rWin0 i).overlay acc (k0_pay2 (View.ld acc (rWin0 i)) (View.ld x rIn0))

/-! ## The body's triple, case by case -/

set_option maxHeartbeats 1000000 in
/-- A window that is neither first nor last: the accumulator steps, the output buffer is handed back untouched. -/
theorem runMid0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬isFirst0 i) (hc1 : ¬isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step0 i xs0 x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : isFirst0 i) (hc1 : ¬isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step0 i (k0_pay1 (F := F)) x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬isFirst0 i) (hc1 : isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step0 i xs0 x0) ∗ owns (c : Thread nD τ) arg4 fullShare (step0 i xs0 x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin0 i, k0_pay2 (View.readAt (Elt F) arg4.view (rWin0 i).toLoadRect (harg4.unread xs0)) (View.readAt (Elt F) arg2.view rIn0.toLoadRect (harg2.unread x0))⟩])
      = step0 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.Kernel.Fold

end
-- ==== Proof.BitsFold0Frame.lean ====
/-
  Region 0 (the overlap-add along one axis): the pipeline's proof data, at the contents `V` the region is entered with.

  `accAt0 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.BitsFold0Run

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block, fetched there or not, for any proof data whose
    input array is `V`'s and whose body leaves the block in place. -/
theorem inFound0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The staging memrefs the pipeline calls the body with at point `t`, and the scratch accumulator. -/
abbrev mIn0 (t : Fin cfg0.N) : Memref sig .tc .vmem S2x8x128x128 .f32 := win0_0.stage (cfg0.slots t 0)
abbrev hIn0 (t : Fin cfg0.N) : (mIn0 t).IsWhole := hstage0_0 ((cfg0.slots t 0).cast nbuf0_0)
abbrev mOut0 (t : Fin cfg0.N) : Memref sig .tc .vmem S2x68x128x128 .f32 := win0_1.stage (cfg0.slots t 1)
abbrev hOut0 (t : Fin cfg0.N) : (mOut0 t).IsWhole := hstage0_1 ((cfg0.slots t 1).cast nbuf0_1)
abbrev mAcc0 : Memref sig .tc .vmem S2x68x128x128 .f32 := Memref.whole cc0_scratch0

/-! ## The accumulator after each point -/

/-- What the scratch accumulator holds after point `n`. -/
def accAt0 (c : Dev nD) : (n : ℕ) → n < cfg0.N → Vec F S2x68x128x128 .f32
  | 0, hn => step0 (grid0.coords ⟨0, hn⟩) (k0_pay1 (F := F)) (blk0 V c 0 ⟨0, hn⟩)
  | n + 1, hn =>
    if (n + 1) % 16 = 0 then step0 (grid0.coords ⟨n + 1, hn⟩) (k0_pay1 (F := F)) (blk0 V c 0 ⟨n + 1, hn⟩)
    else step0 (grid0.coords ⟨n + 1, hn⟩) (accAt0 c n (Nat.lt_of_succ_lt hn)) (blk0 V c 0 ⟨n + 1, hn⟩)

/-- At the first window of a channel block: from zeros. -/
theorem accAt0_first (c : Dev nD) (t : Fin cfg0.N) (h : t.val % 16 = 0) :
    accAt0 V c t.val t.isLt = step0 (grid0.coords t) (k0_pay1 (F := F)) (blk0 V c 0 t) := by
  obtain ⟨n, hn⟩ := t
  cases n with
  | zero => rfl
  | succ n => exact if_pos h

/-- At a later window: from what the previous point left. -/
theorem accAt0_next (c : Dev nD) (t : Fin cfg0.N) (h : ¬t.val % 16 = 0) :
    accAt0 V c t.val t.isLt = step0 (grid0.coords t) (accAt0 V c (t.val - 1) (Nat.lt_of_le_of_lt (Nat.sub_le _ _) t.isLt)) (blk0 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA0_eq (c : Dev nD) :
    (Pipeline.ΦA spec0 c : sProp 𝕄)
      = iprop(iprop((∃ d, owns (c : Thread nD τ) mAcc0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [mAcc0, owns_whole]; try rfl

/-- The invariant before position `n`: before the first point what the launch hands over; afterwards the accumulator
    at what point `n - 1` left. -/
def inv0 (c : Dev nD) : (n : ℕ) → n ≤ cfg0.N → sProp 𝕄
  | 0, _ => Pipeline.ΦA spec0 c
  | n + 1, hn => iprop(iprop(owns (c : Thread nD τ) mAcc0 fullShare (accAt0 V c n hn)
      ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) mAcc0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) mAcc0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Pipeline 0's proof data on core `c`: the arrays as the region finds them; after the body the input's buffer at its
    block and the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => accAt0 V c t.val t.isLt
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_in (c : Dev nD) (t : Fin cfg0.N) : (dat0 V c).after 0 t = blk0 V c 0 t := by dsimp only [dat0]
theorem after0_out (c : Dev nD) (t : Fin cfg0.N) : (dat0 V c).after 1 t = accAt0 V c t.val t.isLt := by dsimp only [dat0]

theorem before0_in (c : Dev nD) (t : Fin cfg0.N) (d) : (dat0 V c).before 0 t d = blk0 V c 0 t :=
  inFound0 V (dat0 V c) (A_eq0 V c 0) (after0_in V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (mIn0 t) fullShare ((dat0 V c).before 0 t d))
    ∗ (∃ d, owns (c : Thread nD τ) (mOut0 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the window number: first, last or neither (a point cannot be both first and last). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (mIn0 t) fullShare ((dat0 V c).after 0 t) from by
    unfold Dat.leavesExact; rw [inLive0 t], after0_in]
  have hN : t.val < 128 := lt_of_lt_of_eq t.isLt (show cfg0.N = 128 from N_0)
  by_cases h0 : t.val % 16 = 0
  · have hc0 : isFirst0 (grid0.coords t) := (isFirst0_iff t).mpr h0
    have hc1 : ¬isLast0 (grid0.coords t) := fun h => by have := (isLast0_iff t).mp h; omega
    rw [Dat.leavesExact_idle (dat0 V c) 1 t (outIdle0 t hc1) (outNoFlush0 t hc1)]
    rw [accAt0_first V c t h0]
    by_cases hz : t.val = 0
    · rw [inv0_castSucc V c t, inv0_zero V c _ _ hz, phiA0_eq]
      iintro ⟨⟨⟨⟨%ds, HS⟩, HB⟩, Hg⟩, Ho, ⟨%d0, H0⟩, ⟨%d1, H1⟩⟩
      iapply (runFirst0 c (grid0.coords t) (mIn0 t) (hIn0 t) (mOut0 t) (hOut0 t) mAcc0 (Memref.isWhole_whole _) hc0 hc1 (blk0 V c 0 t) ds ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv0_castSucc V c t, inv0_pos V c _ _ hz]
      iintro ⟨⟨⟨HS, HB⟩, Hg⟩, Ho, ⟨%d0, H0⟩, ⟨%d1, H1⟩⟩
      iapply (runFirst0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst0 (grid0.coords t) := fun h => h0 ((isFirst0_iff t).mp h)
    have hz : t.val ≠ 0 := fun e => h0 (by rw [e])
    rw [accAt0_next V c t h0]
    rw [inv0_castSucc V c t, inv0_pos V c _ _ hz]
    by_cases h1 : t.val % 16 = 15
    · have hc1 : isLast0 (grid0.coords t) := (isLast0_iff t).mpr h1
      rw [show (dat0 V c).leavesExact 1 t = owns (c : Thread nD τ) (mOut0 t) fullShare ((dat0 V c).after 1 t) from by
        unfold Dat.leavesExact; rw [outLive0 t hc1], after0_out, accAt0_next V c t h0]
      iintro ⟨⟨⟨HS, HB⟩, Hg⟩, Ho, ⟨%d0, H0⟩, ⟨%d1, H1⟩⟩
      iapply (runLast0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast0 (grid0.coords t) := fun h => h1 ((isLast0_iff t).mp h)
      rw [Dat.leavesExact_idle (dat0 V c) 1 t (outIdle0 t hc1) (outNoFlush0 t hc1)]
      iintro ⟨⟨⟨HS, HB⟩, Hg⟩, Ho, ⟨%d0, H0⟩, ⟨%d1, H1⟩⟩
      iapply (runMid0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives it back: the accumulator's contents are forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), phiA0_eq]
  iintro ⟨⟨HS, HB⟩, Hg⟩
  isplitl [HS HB]
  · isplitl [HS]
    · iexists _; iexact HS
    iexact HB
  iexact Hg

end Cert.Kernel.Fold

end
-- ==== Proof.BitsFold1Run.lean ====
/-
  Region 1 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step1 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.Kernel.Launch
import proofs.«130459_j45174466019398_2_alg».proof.Proof.Gen.Kernel.Skeleton
import proofs.«130459_j45174466019398_2_alg».proof.Proof.Gen.Kernel.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst1 (i : grid1.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst1_iff : ∀ t : Fin cfg1.N, isFirst1 (grid1.coords t) ↔ t.val % 16 = 0 :=
  (by decide +kernel : ∀ t : Fin grid1.N, isFirst1 (grid1.coords t) ↔ t.val % 16 = 0)

/-- "This is the last window of its channel block" (the body's second conditional). -/
abbrev isLast1 (i : grid1.Coords) : Prop := k1_cond2 i = 1#1
/-- The last window is at the points ≡ 15 (mod 16). -/
theorem isLast1_iff : ∀ t : Fin cfg1.N, isLast1 (grid1.coords t) ↔ t.val % 16 = 15 :=
  (by decide +kernel : ∀ t : Fin grid1.N, isLast1 (grid1.coords t) ↔ t.val % 16 = 15)

/-- The input window is live at every point. -/
theorem inLive1 : ∀ t : Fin cfg1.N, cfg1.idle 0 (grid1.coords t) = false := by decide +kernel
/-- Off the last window the output window is idle (the body stores nothing into it) -/
theorem outIdle1 : ∀ t : Fin cfg1.N, ¬isLast1 (grid1.coords t) → cfg1.idle 1 (grid1.coords t) = true := by decide +kernel
/-- and its block is not written back; -/
theorem outNoFlush1 : ∀ t : Fin cfg1.N, ¬isLast1 (grid1.coords t) → (cfg1.win 1).flush t = false := by decide +kernel
/-- at the last window it is live. -/
theorem outLive1 : ∀ t : Fin cfg1.N, isLast1 (grid1.coords t) → cfg1.idle 1 (grid1.coords t) = false := by decide +kernel

/-! ## The body's rectangles and the accumulation step -/

/-- The whole accumulator (and the whole output block). -/
abbrev rAll1 : Rect S4x68x68x128 := Rect.unit (s := S4x68x68x128) ![0, 0, 0, 0] S4x68x68x128.size inb_S4x68x68x128_S4x68x68x128_0_0_0_0
/-- The whole input block. -/
abbrev rIn1 : Rect S4x8x68x128 := Rect.unit (s := S4x8x68x128) ![0, 0, 0, 0] S4x8x68x128.size inb_S4x8x68x128_S4x8x68x128_0_0_0_0
/-- The rows of the accumulator that window `i` lands on: 8 rows from row 4·(window number). -/
abbrev rWin1 (i : grid1.Coords) : Rect S4x68x68x128 := Rect.unit (s := S4x68x68x128) (k1_off1 i) S4x8x68x128.size (k1_off1_inb i)

/-- One accumulation step: the rows of window `i` become their sum with the block, every other row is kept. -/
def step1 (i : grid1.Coords) (acc : Vec F S4x68x68x128 .f32) (x : Vec F S4x8x68x128 .f32) : Vec F S4x68x68x128 .f32 :=
  (rWin1 i).overlay acc (k1_pay2 (View.ld acc (rWin1 i)) (View.ld x rIn1))

/-! ## The body's triple, case by case -/

set_option maxHeartbeats 1000000 in
/-- A window that is neither first nor last: the accumulator steps, the output buffer is handed back untouched. -/
theorem runMid1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬isFirst1 i) (hc1 : ¬isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step1 i xs0 x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : isFirst1 i) (hc1 : ¬isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step1 i (k1_pay1 (F := F)) x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬isFirst1 i) (hc1 : isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step1 i xs0 x0) ∗ owns (c : Thread nD τ) arg4 fullShare (step1 i xs0 x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin1 i, k1_pay2 (View.readAt (Elt F) arg4.view (rWin1 i).toLoadRect (harg4.unread xs0)) (View.readAt (Elt F) arg2.view rIn1.toLoadRect (harg2.unread x0))⟩])
      = step1 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.Kernel.Fold

end
-- ==== Proof.BitsFold1Frame.lean ====
/-
  Region 1 (the overlap-add along one axis): the pipeline's proof data, at the contents `V` the region is entered with.

  `accAt1 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.BitsFold1Run

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds the point's block, fetched there or not, for any proof data whose
    input array is `V`'s and whose body leaves the block in place. -/
theorem inFound1 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The staging memrefs the pipeline calls the body with at point `t`, and the scratch accumulator. -/
abbrev mIn1 (t : Fin cfg1.N) : Memref sig .tc .vmem S4x8x68x128 .f32 := win1_0.stage (cfg1.slots t 0)
abbrev hIn1 (t : Fin cfg1.N) : (mIn1 t).IsWhole := hstage1_0 ((cfg1.slots t 0).cast nbuf1_0)
abbrev mOut1 (t : Fin cfg1.N) : Memref sig .tc .vmem S4x68x68x128 .f32 := win1_1.stage (cfg1.slots t 1)
abbrev hOut1 (t : Fin cfg1.N) : (mOut1 t).IsWhole := hstage1_1 ((cfg1.slots t 1).cast nbuf1_1)
abbrev mAcc1 : Memref sig .tc .vmem S4x68x68x128 .f32 := Memref.whole cc1_scratch0

/-! ## The accumulator after each point -/

/-- What the scratch accumulator holds after point `n`. -/
def accAt1 (c : Dev nD) : (n : ℕ) → n < cfg1.N → Vec F S4x68x68x128 .f32
  | 0, hn => step1 (grid1.coords ⟨0, hn⟩) (k1_pay1 (F := F)) (blk1 V c 0 ⟨0, hn⟩)
  | n + 1, hn =>
    if (n + 1) % 16 = 0 then step1 (grid1.coords ⟨n + 1, hn⟩) (k1_pay1 (F := F)) (blk1 V c 0 ⟨n + 1, hn⟩)
    else step1 (grid1.coords ⟨n + 1, hn⟩) (accAt1 c n (Nat.lt_of_succ_lt hn)) (blk1 V c 0 ⟨n + 1, hn⟩)

/-- At the first window of a channel block: from zeros. -/
theorem accAt1_first (c : Dev nD) (t : Fin cfg1.N) (h : t.val % 16 = 0) :
    accAt1 V c t.val t.isLt = step1 (grid1.coords t) (k1_pay1 (F := F)) (blk1 V c 0 t) := by
  obtain ⟨n, hn⟩ := t
  cases n with
  | zero => rfl
  | succ n => exact if_pos h

/-- At a later window: from what the previous point left. -/
theorem accAt1_next (c : Dev nD) (t : Fin cfg1.N) (h : ¬t.val % 16 = 0) :
    accAt1 V c t.val t.isLt = step1 (grid1.coords t) (accAt1 V c (t.val - 1) (Nat.lt_of_le_of_lt (Nat.sub_le _ _) t.isLt)) (blk1 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA1_eq (c : Dev nD) :
    (Pipeline.ΦA spec1 c : sProp 𝕄)
      = iprop(iprop((∃ d, owns (c : Thread nD τ) mAcc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [mAcc1, owns_whole]; try rfl

/-- The invariant before position `n`: before the first point what the launch hands over; afterwards the accumulator
    at what point `n - 1` left. -/
def inv1 (c : Dev nD) : (n : ℕ) → n ≤ cfg1.N → sProp 𝕄
  | 0, _ => Pipeline.ΦA spec1 c
  | n + 1, hn => iprop(iprop(owns (c : Thread nD τ) mAcc1 fullShare (accAt1 V c n hn)
      ∗ Pipeline.scopedRestBut (Ix := Unit) (Name := ℕ) (U := UR sig nD τ) (Lvl := ℕ) (Val := Elt F) spec1 c [cc1_scratch0]) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(owns (c : Thread nD τ) mAcc1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl

theorem inv1_pos (c : Dev nD) (n : ℕ) (h : n ≤ cfg1.N) (hz : n ≠ 0) :
    inv1 V c n h = iprop(iprop(owns (c : Thread nD τ) mAcc1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- Pipeline 1's proof data on core `c`: the arrays as the region finds them; after the body the input's buffer at its
    block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => accAt1 V c t.val t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_in (c : Dev nD) (t : Fin cfg1.N) : (dat1 V c).after 0 t = blk1 V c 0 t := by dsimp only [dat1]
theorem after1_out (c : Dev nD) (t : Fin cfg1.N) : (dat1 V c).after 1 t = accAt1 V c t.val t.isLt := by dsimp only [dat1]

theorem before1_in (c : Dev nD) (t : Fin cfg1.N) (d) : (dat1 V c).before 0 t d = blk1 V c 0 t :=
  inFound1 V (dat1 V c) (A_eq1 V c 0) (after1_in V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (mIn1 t) fullShare ((dat1 V c).before 0 t d))
    ∗ (∃ d, owns (c : Thread nD τ) (mOut1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point, by the window number: first, last or neither (a point cannot be both first and last). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (mIn1 t) fullShare ((dat1 V c).after 0 t) from by
    unfold Dat.leavesExact; rw [inLive1 t], after1_in]
  have hN : t.val < 64 := lt_of_lt_of_eq t.isLt (show cfg1.N = 64 from N_1)
  by_cases h0 : t.val % 16 = 0
  · have hc0 : isFirst1 (grid1.coords t) := (isFirst1_iff t).mpr h0
    have hc1 : ¬isLast1 (grid1.coords t) := fun h => by have := (isLast1_iff t).mp h; omega
    rw [Dat.leavesExact_idle (dat1 V c) 1 t (outIdle1 t hc1) (outNoFlush1 t hc1)]
    rw [accAt1_first V c t h0]
    by_cases hz : t.val = 0
    · rw [inv1_castSucc V c t, inv1_zero V c _ _ hz, phiA1_eq]
      iintro ⟨⟨⟨⟨%ds, HS⟩, HB⟩, Hg⟩, Ho, ⟨%d0, H0⟩, ⟨%d1, H1⟩⟩
      iapply (runFirst1 c (grid1.coords t) (mIn1 t) (hIn1 t) (mOut1 t) (hOut1 t) mAcc1 (Memref.isWhole_whole _) hc0 hc1 (blk1 V c 0 t) ds ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv1_castSucc V c t, inv1_pos V c _ _ hz]
      iintro ⟨⟨⟨HS, HB⟩, Hg⟩, Ho, ⟨%d0, H0⟩, ⟨%d1, H1⟩⟩
      iapply (runFirst1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst1 (grid1.coords t) := fun h => h0 ((isFirst1_iff t).mp h)
    have hz : t.val ≠ 0 := fun e => h0 (by rw [e])
    rw [accAt1_next V c t h0]
    rw [inv1_castSucc V c t, inv1_pos V c _ _ hz]
    by_cases h1 : t.val % 16 = 15
    · have hc1 : isLast1 (grid1.coords t) := (isLast1_iff t).mpr h1
      rw [show (dat1 V c).leavesExact 1 t = owns (c : Thread nD τ) (mOut1 t) fullShare ((dat1 V c).after 1 t) from by
        unfold Dat.leavesExact; rw [outLive1 t hc1], after1_out, accAt1_next V c t h0]
      iintro ⟨⟨⟨HS, HB⟩, Hg⟩, Ho, ⟨%d0, H0⟩, ⟨%d1, H1⟩⟩
      iapply (runLast1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast1 (grid1.coords t) := fun h => h1 ((isLast1_iff t).mp h)
      rw [Dat.leavesExact_idle (dat1 V c) 1 t (outIdle1 t hc1) (outNoFlush1 t hc1)]
      iintro ⟨⟨⟨HS, HB⟩, Hg⟩, Ho, ⟨%d0, H0⟩, ⟨%d1, H1⟩⟩
      iapply (runMid1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives it back: the accumulator's contents are forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 64 := N_1; omega), phiA1_eq]
  iintro ⟨⟨HS, HB⟩, Hg⟩
  isplitl [HS HB]
  · isplitl [HS]
    · iexists _; iexact HS
    iexact HB
  iexact Hg

end Cert.Kernel.Fold

end
-- ==== Proof.BitsFold2Run.lean ====
/-
  Region 2 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step2 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.Kernel.Launch
import proofs.«130459_j45174466019398_2_alg».proof.Proof.Gen.Kernel.Skeleton
import proofs.«130459_j45174466019398_2_alg».proof.Proof.Gen.Kernel.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst2 (i : grid2.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst2_iff : ∀ t : Fin cfg2.N, isFirst2 (grid2.coords t) ↔ t.val % 16 = 0 :=
  (by decide +kernel : ∀ t : Fin grid2.N, isFirst2 (grid2.coords t) ↔ t.val % 16 = 0)

/-- "This is the last window of its channel block" (the body's second conditional). -/
abbrev isLast2 (i : grid2.Coords) : Prop := k2_cond2 i = 1#1
/-- The last window is at the points ≡ 15 (mod 16). -/
theorem isLast2_iff : ∀ t : Fin cfg2.N, isLast2 (grid2.coords t) ↔ t.val % 16 = 15 :=
  (by decide +kernel : ∀ t : Fin grid2.N, isLast2 (grid2.coords t) ↔ t.val % 16 = 15)

/-- The input window is live at every point. -/
theorem inLive2 : ∀ t : Fin cfg2.N, cfg2.idle 0 (grid2.coords t) = false := by decide +kernel
/-- Off the last window the output window is idle (the body stores nothing into it) -/
theorem outIdle2 : ∀ t : Fin cfg2.N, ¬isLast2 (grid2.coords t) → cfg2.idle 1 (grid2.coords t) = true := by decide +kernel
/-- and its block is not written back; -/
theorem outNoFlush2 : ∀ t : Fin cfg2.N, ¬isLast2 (grid2.coords t) → (cfg2.win 1).flush t = false := by decide +kernel
/-- at the last window it is live. -/
theorem outLive2 : ∀ t : Fin cfg2.N, isLast2 (grid2.coords t) → cfg2.idle 1 (grid2.coords t) = false := by decide +kernel

/-! ## The body's rectangles and the accumulation step -/

/-- The whole accumulator (and the whole output block). -/
abbrev rAll2 : Rect S4x68x68x68 := Rect.unit (s := S4x68x68x68) ![0, 0, 0, 0] S4x68x68x68.size inb_S4x68x68x68_S4x68x68x68_0_0_0_0
/-- The whole input block. -/
abbrev rIn2 : Rect S4x8x68x68 := Rect.unit (s := S4x8x68x68) ![0, 0, 0, 0] S4x8x68x68.size inb_S4x8x68x68_S4x8x68x68_0_0_0_0
/-- The rows of the accumulator that window `i` lands on: 8 rows from row 4·(window number). -/
abbrev rWin2 (i : grid2.Coords) : Rect S4x68x68x68 := Rect.unit (s := S4x68x68x68) (k2_off1 i) S4x8x68x68.size (k2_off1_inb i)

/-- One accumulation step: the rows of window `i` become their sum with the block, every other row is kept. -/
def step2 (i : grid2.Coords) (acc : Vec F S4x68x68x68 .f32) (x : Vec F S4x8x68x68 .f32) : Vec F S4x68x68x68 .f32 :=
  (rWin2 i).overlay acc (k2_pay2 (View.ld acc (rWin2 i)) (View.ld x rIn2))

/-! ## The body's triple, case by case -/

set_option maxHeartbeats 1000000 in
/-- A window that is neither first nor last: the accumulator steps, the output buffer is handed back untouched. -/
theorem runMid2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : ¬isFirst2 i) (hc1 : ¬isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step2 i xs0 x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : isFirst2 i) (hc1 : ¬isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step2 i (k2_pay1 (F := F)) x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : ¬isFirst2 i) (hc1 : isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step2 i xs0 x0) ∗ owns (c : Thread nD τ) arg4 fullShare (step2 i xs0 x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin2 i, k2_pay2 (View.readAt (Elt F) arg4.view (rWin2 i).toLoadRect (harg4.unread xs0)) (View.readAt (Elt F) arg2.view rIn2.toLoadRect (harg2.unread x0))⟩])
      = step2 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.Kernel.Fold

end
-- ==== Proof.BitsFold2Frame.lean ====
/-
  Region 2 (the overlap-add along one axis): the pipeline's proof data, at the contents `V` the region is entered with.

  `accAt2 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.BitsFold2Run

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds the point's block, fetched there or not, for any proof data whose
    input array is `V`'s and whose body leaves the block in place. -/
theorem inFound2 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The staging memrefs the pipeline calls the body with at point `t`, and the scratch accumulator. -/
abbrev mIn2 (t : Fin cfg2.N) : Memref sig .tc .vmem S4x8x68x68 .f32 := win2_0.stage (cfg2.slots t 0)
abbrev hIn2 (t : Fin cfg2.N) : (mIn2 t).IsWhole := hstage2_0 ((cfg2.slots t 0).cast nbuf2_0)
abbrev mOut2 (t : Fin cfg2.N) : Memref sig .tc .vmem S4x68x68x68 .f32 := win2_1.stage (cfg2.slots t 1)
abbrev hOut2 (t : Fin cfg2.N) : (mOut2 t).IsWhole := hstage2_1 ((cfg2.slots t 1).cast nbuf2_1)
abbrev mAcc2 : Memref sig .tc .vmem S4x68x68x68 .f32 := Memref.whole cc2_scratch0

/-! ## The accumulator after each point -/

/-- What the scratch accumulator holds after point `n`. -/
def accAt2 (c : Dev nD) : (n : ℕ) → n < cfg2.N → Vec F S4x68x68x68 .f32
  | 0, hn => step2 (grid2.coords ⟨0, hn⟩) (k2_pay1 (F := F)) (blk2 V c 0 ⟨0, hn⟩)
  | n + 1, hn =>
    if (n + 1) % 16 = 0 then step2 (grid2.coords ⟨n + 1, hn⟩) (k2_pay1 (F := F)) (blk2 V c 0 ⟨n + 1, hn⟩)
    else step2 (grid2.coords ⟨n + 1, hn⟩) (accAt2 c n (Nat.lt_of_succ_lt hn)) (blk2 V c 0 ⟨n + 1, hn⟩)

/-- At the first window of a channel block: from zeros. -/
theorem accAt2_first (c : Dev nD) (t : Fin cfg2.N) (h : t.val % 16 = 0) :
    accAt2 V c t.val t.isLt = step2 (grid2.coords t) (k2_pay1 (F := F)) (blk2 V c 0 t) := by
  obtain ⟨n, hn⟩ := t
  cases n with
  | zero => rfl
  | succ n => exact if_pos h

/-- At a later window: from what the previous point left. -/
theorem accAt2_next (c : Dev nD) (t : Fin cfg2.N) (h : ¬t.val % 16 = 0) :
    accAt2 V c t.val t.isLt = step2 (grid2.coords t) (accAt2 V c (t.val - 1) (Nat.lt_of_le_of_lt (Nat.sub_le _ _) t.isLt)) (blk2 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA2_eq (c : Dev nD) :
    (Pipeline.ΦA spec2 c : sProp 𝕄)
      = iprop(iprop((∃ d, owns (c : Thread nD τ) mAcc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [mAcc2, owns_whole]; try rfl

/-- The invariant before position `n`: before the first point what the launch hands over; afterwards the accumulator
    at what point `n - 1` left. -/
def inv2 (c : Dev nD) : (n : ℕ) → n ≤ cfg2.N → sProp 𝕄
  | 0, _ => Pipeline.ΦA spec2 c
  | n + 1, hn => iprop(iprop(owns (c : Thread nD τ) mAcc2 fullShare (accAt2 V c n hn)
      ∗ Pipeline.scopedRestBut (Ix := Unit) (Name := ℕ) (U := UR sig nD τ) (Lvl := ℕ) (Val := Elt F) spec2 c [cc2_scratch0]) ∗ (∃ r, prngReg c r))

theorem inv2_zero (c : Dev nD) (n : ℕ) (h : n ≤ cfg2.N) (hz : n = 0) : inv2 V c n h = Pipeline.ΦA spec2 c := by
  subst hz; rfl

theorem inv2_succ (c : Dev nD) (n : ℕ) (hn : n < cfg2.N) :
    inv2 V c (n + 1) hn = iprop(iprop(owns (c : Thread nD τ) mAcc2 fullShare (accAt2 V c n hn)
      ∗ Pipeline.scopedRestBut (Ix := Unit) (Name := ℕ) (U := UR sig nD τ) (Lvl := ℕ) (Val := Elt F) spec2 c [cc2_scratch0]) ∗ (∃ r, prngReg c r)) := rfl

theorem inv2_pos (c : Dev nD) (n : ℕ) (h : n ≤ cfg2.N) (hz : n ≠ 0) :
    inv2 V c n h = iprop(iprop(owns (c : Thread nD τ) mAcc2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- Pipeline 2's proof data on core `c`: the arrays as the region finds them; after the body the input's buffer at its
    block and the output's at the accumulator; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => accAt2 V c t.val t.isLt
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_in (c : Dev nD) (t : Fin cfg2.N) : (dat2 V c).after 0 t = blk2 V c 0 t := by dsimp only [dat2]
theorem after2_out (c : Dev nD) (t : Fin cfg2.N) : (dat2 V c).after 1 t = accAt2 V c t.val t.isLt := by dsimp only [dat2]

theorem before2_in (c : Dev nD) (t : Fin cfg2.N) (d) : (dat2 V c).before 0 t d = blk2 V c 0 t :=
  inFound2 V (dat2 V c) (A_eq2 V c 0) (after2_in V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (mIn2 t) fullShare ((dat2 V c).before 0 t d))
    ∗ (∃ d, owns (c : Thread nD τ) (mOut2 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4000000 in
/-- The body at any point, by the window number: first, last or neither (a point cannot be both first and last). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in]
  rw [show (dat2 V c).owesAt () t.succ = (dat2 V c).owesAt () t.castSucc from rfl]
  rw [show (dat2 V c).Φ t.succ = inv2 V c (t.val + 1) t.isLt from rfl, inv2_succ]
  rw [show (dat2 V c).leavesExact 0 t = owns (c : Thread nD τ) (mIn2 t) fullShare ((dat2 V c).after 0 t) from by
    unfold Dat.leavesExact; rw [inLive2 t], after2_in]
  have hN : t.val < 64 := lt_of_lt_of_eq t.isLt (show cfg2.N = 64 from N_2)
  by_cases h0 : t.val % 16 = 0
  · have hc0 : isFirst2 (grid2.coords t) := (isFirst2_iff t).mpr h0
    have hc1 : ¬isLast2 (grid2.coords t) := fun h => by have := (isLast2_iff t).mp h; omega
    rw [Dat.leavesExact_idle (dat2 V c) 1 t (outIdle2 t hc1) (outNoFlush2 t hc1)]
    rw [accAt2_first V c t h0]
    by_cases hz : t.val = 0
    · rw [inv2_castSucc V c t, inv2_zero V c _ _ hz, phiA2_eq]
      iintro ⟨⟨⟨⟨%ds, HS⟩, HB⟩, Hg⟩, Ho, ⟨%d0, H0⟩, ⟨%d1, H1⟩⟩
      iapply (runFirst2 c (grid2.coords t) (mIn2 t) (hIn2 t) (mOut2 t) (hOut2 t) mAcc2 (Memref.isWhole_whole _) hc0 hc1 (blk2 V c 0 t) ds ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv2_castSucc V c t, inv2_pos V c _ _ hz]
      iintro ⟨⟨⟨HS, HB⟩, Hg⟩, Ho, ⟨%d0, H0⟩, ⟨%d1, H1⟩⟩
      iapply (runFirst2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst2 (grid2.coords t) := fun h => h0 ((isFirst2_iff t).mp h)
    have hz : t.val ≠ 0 := fun e => h0 (by rw [e])
    rw [accAt2_next V c t h0]
    rw [inv2_castSucc V c t, inv2_pos V c _ _ hz]
    by_cases h1 : t.val % 16 = 15
    · have hc1 : isLast2 (grid2.coords t) := (isLast2_iff t).mpr h1
      rw [show (dat2 V c).leavesExact 1 t = owns (c : Thread nD τ) (mOut2 t) fullShare ((dat2 V c).after 1 t) from by
        unfold Dat.leavesExact; rw [outLive2 t hc1], after2_out, accAt2_next V c t h0]
      iintro ⟨⟨⟨HS, HB⟩, Hg⟩, Ho, ⟨%d0, H0⟩, ⟨%d1, H1⟩⟩
      iapply (runLast2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast2 (grid2.coords t) := fun h => h1 ((isLast2_iff t).mp h)
      rw [Dat.leavesExact_idle (dat2 V c) 1 t (outIdle2 t hc1) (outNoFlush2 t hc1)]
      iintro ⟨⟨⟨HS, HB⟩, Hg⟩, Ho, ⟨%d0, H0⟩, ⟨%d1, H1⟩⟩
      iapply (runMid2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem enter2 (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives it back: the accumulator's contents are forgotten. -/
theorem leave2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 64 := N_2; omega), phiA2_eq]
  iintro ⟨⟨HS, HB⟩, Hg⟩
  isplitl [HS HB]
  · isplitl [HS]
    · iexists _; iexact HS
    iexact HB
  iexact Hg

end Cert.Kernel.Fold

end
-- ==== Proof.BitsFoldProgram.lean ====
/-
  The whole program as a run: @main is host operations, region 0, host operations, region 1, host operations, region 2,
  host operations. `at0 … at7` are the contents of the core's unscoped buffers at the eight boundaries, a fold from the
  launch memory: a stretch of host operations applies them (`StableHlo.after`); a region leaves its two arrays at what
  its write-backs leave and every other buffer as entered. Each region is entered with the proof data of its overlap-add
  at the contents it finds. The run ends with every unscoped buffer at `at7`: the argument as launched (no host
  operation and no region writes it), and the result buffer at the last stretch's value.
-/
import proofs.«130459_j45174466019398_2_alg».proof.Proof.BitsFold0Frame
import proofs.«130459_j45174466019398_2_alg».proof.Proof.BitsFold1Frame
import proofs.«130459_j45174466019398_2_alg».proof.Proof.BitsFold2Frame
import proofs.«130459_j45174466019398_2_alg».proof.Proof.Gen.Kernel.Regions

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev at0 : Dev nD → Valuation τ sig (Elt F) := fun c b => m (c, b)
/-- After the first stretch (region 0's entry), and the same read at the TensorCore's references. -/
abbrev at1 : Dev nD → Valuation τ sig (Elt F) := fun c => StableHlo.after hostOps0 (at0 m c)
abbrev in0 : (c : Dev nD) → (b : Ref sig .tc) → Buf (Elt F) ((c : Thread nD τ).loc b) := fun c b => at1 m c b

/-- After region 0: its arrays at what the write-backs leave, every other buffer as entered. -/
def at2 (c : Dev nD) : Valuation τ sig (Elt F) :=
  Pipeline.withArrays spec0 c (at1 m c) fun w => (dat0 (in0 m) c).arrAt w cfg0.N
theorem at2_arr (c : Dev nD) (w : Fin cfg0.W) :
    at2 m c (Proc.devRef .tc (Pipeline.arrRef spec0 w)) = (dat0 (in0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
theorem exit0_arr (c : Dev nD) (w : Fin cfg0.W) : (dat0 (in0 m) c).arrAt w cfg0.N = at2 m c (Pipeline.arrRef spec0 w) :=
  (at2_arr m c w).symm
theorem exit0_rest (c : Dev nD) : ∀ b, b ∉ Finset.univ.image (Pipeline.arrRef spec0) → at2 m c b = in0 m c b :=
  fun b hb => at2_of_ne m c b fun w e => hb (Finset.mem_image.mpr ⟨w, Finset.mem_univ _, e⟩)

/-- After the second stretch (region 1's entry). -/
abbrev at3 : Dev nD → Valuation τ sig (Elt F) := fun c => StableHlo.after hostOps1 (at2 m c)
abbrev in1 : (c : Dev nD) → (b : Ref sig .tc) → Buf (Elt F) ((c : Thread nD τ).loc b) := fun c b => at3 m c b

/-- After region 1: its arrays at what the write-backs leave, every other buffer as entered. -/
def at4 (c : Dev nD) : Valuation τ sig (Elt F) :=
  Pipeline.withArrays spec1 c (at3 m c) fun w => (dat1 (in1 m) c).arrAt w cfg1.N
theorem at4_arr (c : Dev nD) (w : Fin cfg1.W) :
    at4 m c (Proc.devRef .tc (Pipeline.arrRef spec1 w)) = (dat1 (in1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
theorem exit1_arr (c : Dev nD) (w : Fin cfg1.W) : (dat1 (in1 m) c).arrAt w cfg1.N = at4 m c (Pipeline.arrRef spec1 w) :=
  (at4_arr m c w).symm
theorem exit1_rest (c : Dev nD) : ∀ b, b ∉ Finset.univ.image (Pipeline.arrRef spec1) → at4 m c b = in1 m c b :=
  fun b hb => at4_of_ne m c b fun w e => hb (Finset.mem_image.mpr ⟨w, Finset.mem_univ _, e⟩)

/-- After the third stretch (region 2's entry). -/
abbrev at5 : Dev nD → Valuation τ sig (Elt F) := fun c => StableHlo.after hostOps2 (at4 m c)
abbrev in2 : (c : Dev nD) → (b : Ref sig .tc) → Buf (Elt F) ((c : Thread nD τ).loc b) := fun c b => at5 m c b

/-- After region 2: its arrays at what the write-backs leave, every other buffer as entered. -/
def at6 (c : Dev nD) : Valuation τ sig (Elt F) :=
  Pipeline.withArrays spec2 c (at5 m c) fun w => (dat2 (in2 m) c).arrAt w cfg2.N
theorem at6_arr (c : Dev nD) (w : Fin cfg2.W) :
    at6 m c (Proc.devRef .tc (Pipeline.arrRef spec2 w)) = (dat2 (in2 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
theorem exit2_arr (c : Dev nD) (w : Fin cfg2.W) : (dat2 (in2 m) c).arrAt w cfg2.N = at6 m c (Pipeline.arrRef spec2 w) :=
  (at6_arr m c w).symm
theorem exit2_rest (c : Dev nD) : ∀ b, b ∉ Finset.univ.image (Pipeline.arrRef spec2) → at6 m c b = in2 m c b :=
  fun b hb => at6_of_ne m c b fun w e => hb (Finset.mem_image.mpr ⟨w, Finset.mem_univ _, e⟩)

/-- After the last stretch: the end. -/
abbrev at7 : Dev nD → Valuation τ sig (Elt F) := fun c => StableHlo.after hostOps3 (at6 m c)

/-! ## The argument ends as launched -/

theorem at7_main_arg0 (c : Dev nD) : at7 m c (Proc.devRef .tc main_arg0) = m ((c : Thread nD τ).loc main_arg0) :=
  calc at7 m c (Proc.devRef .tc main_arg0)
    _ = at6 m c (Proc.devRef .tc main_arg0) := StableHlo.after_of_writes_sub hostOps3 _ hostOps3_writes (r := main_arg0) (by decide)
    _ = at5 m c (Proc.devRef .tc main_arg0) := at6_of_ne m c main_arg0 (by decide)
    _ = at4 m c (Proc.devRef .tc main_arg0) := StableHlo.after_of_writes_sub hostOps2 _ hostOps2_writes (r := main_arg0) (by decide)
    _ = at3 m c (Proc.devRef .tc main_arg0) := at4_of_ne m c main_arg0 (by decide)
    _ = at2 m c (Proc.devRef .tc main_arg0) := StableHlo.after_of_writes_sub hostOps1 _ hostOps1_writes (r := main_arg0) (by decide)
    _ = at1 m c (Proc.devRef .tc main_arg0) := at2_of_ne m c main_arg0 (by decide)
    _ = at0 m c (Proc.devRef .tc main_arg0) := StableHlo.after_of_writes_sub hostOps0 _ hostOps0_writes (r := main_arg0) (by decide)
    _ = m ((c : Thread nD τ).loc main_arg0) := rfl

/-! ## The proof data family and the thread state -/

/-- No pipeline has a prefetched table. -/
abbrev tbl : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) tbl p) c
  | ⟨0, _⟩ => fun c => dat0 (in0 m) c
  | ⟨1, _⟩ => fun c => dat1 (in1 m) c
  | ⟨2, _⟩ => fun c => dat2 (in2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (at7 m c) ∗ ∃ r, prngReg c r)

/-! ## The regions as segments -/

-- a library lemma stated over the pinned configuration unifies with the printed one only when unification may unfold plain
-- definitions in a metavariable's type
set_option backward.isDefEq.respectTransparency.types false in
/-- Region 0 as a segment: entered with every unscoped buffer at `at1`, left with them at `at2`. Its two arrays are split
    out of the unscoped buffers and put back at the contents the write-backs leave; the scoped buffers and the generator
    register go into the region's invariant and come back; nothing is owed; the kernel has no semaphore of its own. -/
def reg0 : Pipeline.RegionSeg (pcfgs (F := F)) tbl (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) tbl (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (pdats m 0 c).Φ 0 := enter0 (in0 m) c
    iintro ⟨Hp, -, Hr⟩
    iapply h
    isplitl [Hr]; · iexact Hr
    iexact Hp
  hout c := by
    rw [Pipeline.ownSems0_none]
    have h : (pdats m 0 c).Φ (Fin.last cfg0.N)
        ⊢ (iprop(Pipeline.scopedRest (Ix := Unit) (Name := ℕ) (U := UR sig nD τ) (Lvl := ℕ) (Val := Elt F) spec0 c ∗ ∃ r, prngReg c r) : sProp 𝕄) :=
      leave0 (in0 m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) tbl (Ix := Unit) (Name := ℕ) (U := UR sig nD τ) (Lvl := ℕ)
      launch0.win launch0.arr_whole c (pdats m) ((pdats m 0 c).share_full fun _ => rfl)
      (in0 m c) (fun b => at2 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 as a segment: entered with every unscoped buffer at `at3`, left with them at `at4`. Its two arrays are split
    out of the unscoped buffers and put back at the contents the write-backs leave; the scoped buffers and the generator
    register go into the region's invariant and come back; nothing is owed; the kernel has no semaphore of its own. -/
def reg1 : Pipeline.RegionSeg (pcfgs (F := F)) tbl (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) tbl (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (pdats m 1 c).Φ 0 := enter1 (in1 m) c
    iintro ⟨Hp, -, Hr⟩
    iapply h
    isplitl [Hr]; · iexact Hr
    iexact Hp
  hout c := by
    rw [Pipeline.ownSems0_none]
    have h : (pdats m 1 c).Φ (Fin.last cfg1.N)
        ⊢ (iprop(Pipeline.scopedRest (Ix := Unit) (Name := ℕ) (U := UR sig nD τ) (Lvl := ℕ) (Val := Elt F) spec1 c ∗ ∃ r, prngReg c r) : sProp 𝕄) :=
      leave1 (in1 m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tbl (Ix := Unit) (Name := ℕ) (U := UR sig nD τ) (Lvl := ℕ)
      launch1.win launch1.arr_whole c (pdats m) ((pdats m 1 c).share_full fun _ => rfl)
      (in1 m c) (fun b => at4 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 as a segment: entered with every unscoped buffer at `at5`, left with them at `at6`. Its two arrays are split
    out of the unscoped buffers and put back at the contents the write-backs leave; the scoped buffers and the generator
    register go into the region's invariant and come back; nothing is owed; the kernel has no semaphore of its own. -/
def reg2 : Pipeline.RegionSeg (pcfgs (F := F)) tbl (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) tbl (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec2 c ∗ ∃ r, prngReg c r) : sProp 𝕄)
        ⊢ (pdats m 2 c).Φ 0 := enter2 (in2 m) c
    iintro ⟨Hp, -, Hr⟩
    iapply h
    isplitl [Hr]; · iexact Hr
    iexact Hp
  hout c := by
    rw [Pipeline.ownSems0_none]
    have h : (pdats m 2 c).Φ (Fin.last cfg2.N)
        ⊢ (iprop(Pipeline.scopedRest (Ix := Unit) (Name := ℕ) (U := UR sig nD τ) (Lvl := ℕ) (Val := Elt F) spec2 c ∗ ∃ r, prngReg c r) : sProp 𝕄) :=
      leave2 (in2 m) c
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) tbl (Ix := Unit) (Name := ℕ) (U := UR sig nD τ) (Lvl := ℕ)
      launch2.win launch2.arr_whole c (pdats m) ((pdats m 2 c).share_full fun _ => rfl)
      (in2 m c) (fun b => at6 m c b) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) tbl (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m),
    .host (hseg hostOps2 hostOps2_sub hostOps2_fresh (at4 m)),
    .region (reg2 m),
    .host (hseg hostOps3 hostOps3_sub hostOps3_fresh (at6 m)) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and every
    final memory holds each unscoped buffer at `at7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) tbl (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tend m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (at7 m c) ∗ R c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (at7_main_arg0 m c)) (run_all m ρ)

end Cert.Kernel.Fold

end
-- ==== Proof.Fold0Run.lean ====
/-
  Region 0 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step0 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.KernelIdeal.Launch
import proofs.«130459_j45174466019398_2_alg».proof.Proof.Gen.KernelIdeal.Skeleton
import proofs.«130459_j45174466019398_2_alg».proof.Proof.Gen.KernelIdeal.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst0 (i : grid0.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst0_iff : ∀ t : Fin cfg0.N, isFirst0 (grid0.coords t) ↔ t.val % 16 = 0 :=
  (by decide +kernel : ∀ t : Fin grid0.N, isFirst0 (grid0.coords t) ↔ t.val % 16 = 0)

/-- "This is the last window of its channel block" (the body's second conditional). -/
abbrev isLast0 (i : grid0.Coords) : Prop := k0_cond2 i = 1#1
/-- The last window is at the points ≡ 15 (mod 16). -/
theorem isLast0_iff : ∀ t : Fin cfg0.N, isLast0 (grid0.coords t) ↔ t.val % 16 = 15 :=
  (by decide +kernel : ∀ t : Fin grid0.N, isLast0 (grid0.coords t) ↔ t.val % 16 = 15)

/-- The input window is live at every point. -/
theorem inLive0 : ∀ t : Fin cfg0.N, cfg0.idle 0 (grid0.coords t) = false := by decide +kernel
/-- Off the last window the output window is idle (the body stores nothing into it) -/
theorem outIdle0 : ∀ t : Fin cfg0.N, ¬isLast0 (grid0.coords t) → cfg0.idle 1 (grid0.coords t) = true := by decide +kernel
/-- and its block is not written back; -/
theorem outNoFlush0 : ∀ t : Fin cfg0.N, ¬isLast0 (grid0.coords t) → (cfg0.win 1).flush t = false := by decide +kernel
/-- at the last window it is live. -/
theorem outLive0 : ∀ t : Fin cfg0.N, isLast0 (grid0.coords t) → cfg0.idle 1 (grid0.coords t) = false := by decide +kernel

/-! ## The body's rectangles and the accumulation step -/

/-- The whole accumulator (and the whole output block). -/
abbrev rAll0 : Rect S2x68x128x128 := Rect.unit (s := S2x68x128x128) ![0, 0, 0, 0] S2x68x128x128.size inb_S2x68x128x128_S2x68x128x128_0_0_0_0
/-- The whole input block. -/
abbrev rIn0 : Rect S2x8x128x128 := Rect.unit (s := S2x8x128x128) ![0, 0, 0, 0] S2x8x128x128.size inb_S2x8x128x128_S2x8x128x128_0_0_0_0
/-- The rows of the accumulator that window `i` lands on: 8 rows from row 4·(window number). -/
abbrev rWin0 (i : grid0.Coords) : Rect S2x68x128x128 := Rect.unit (s := S2x68x128x128) (k0_off1 i) S2x8x128x128.size (k0_off1_inb i)

/-- One accumulation step: the rows of window `i` become their sum with the block, every other row is kept. -/
def step0 (i : grid0.Coords) (acc : Vec F S2x68x128x128 .f32) (x : Vec F S2x8x128x128 .f32) : Vec F S2x68x128x128 .f32 :=
  (rWin0 i).overlay acc (k0_pay2 (View.ld acc (rWin0 i)) (View.ld x rIn0))

/-! ## The body's triple, case by case -/

set_option maxHeartbeats 1000000 in
/-- A window that is neither first nor last: the accumulator steps, the output buffer is handed back untouched. -/
theorem runMid0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬isFirst0 i) (hc1 : ¬isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step0 i xs0 x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : isFirst0 i) (hc1 : ¬isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step0 i (k0_pay1 (F := F)) x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬isFirst0 i) (hc1 : isLast0 i)
    (x0 : Vec F S2x8x128x128 .f32) (xs0 : Vec F S2x68x128x128 .f32) (xi1 : Vec F S2x68x128x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step0 i xs0 x0) ∗ owns (c : Thread nD τ) arg4 fullShare (step0 i xs0 x0)) -∗ K ⟨⟩))
      ⊢ wp frame (wpE (defs₀ (F := F)) Variants.none c none) E (cc0__fold_kernel i arg2 harg2 arg3 harg3 arg4 harg4) K := by
  simp only [cc0__fold_kernel_eq_skeleton]; unfold cc0__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin0 i, k0_pay2 (View.readAt (Elt F) arg4.view (rWin0 i).toLoadRect (harg4.unread xs0)) (View.readAt (Elt F) arg2.view rIn0.toLoadRect (harg2.unread x0))⟩])
      = step0 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.KernelIdeal.Fold

end
-- ==== Proof.Fold0Frame.lean ====
/-
  Region 0 (the overlap-add along one axis): the pipeline's proof data, at the contents `V` the region is entered with.

  `accAt0 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.Fold0Run

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block, fetched there or not, for any proof data whose
    input array is `V`'s and whose body leaves the block in place. -/
theorem inFound0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The staging memrefs the pipeline calls the body with at point `t`, and the scratch accumulator. -/
abbrev mIn0 (t : Fin cfg0.N) : Memref sig .tc .vmem S2x8x128x128 .f32 := win0_0.stage (cfg0.slots t 0)
abbrev hIn0 (t : Fin cfg0.N) : (mIn0 t).IsWhole := hstage0_0 ((cfg0.slots t 0).cast nbuf0_0)
abbrev mOut0 (t : Fin cfg0.N) : Memref sig .tc .vmem S2x68x128x128 .f32 := win0_1.stage (cfg0.slots t 1)
abbrev hOut0 (t : Fin cfg0.N) : (mOut0 t).IsWhole := hstage0_1 ((cfg0.slots t 1).cast nbuf0_1)
abbrev mAcc0 : Memref sig .tc .vmem S2x68x128x128 .f32 := Memref.whole cc0_scratch0

/-! ## The accumulator after each point -/

/-- What the scratch accumulator holds after point `n`. -/
def accAt0 (c : Dev nD) : (n : ℕ) → n < cfg0.N → Vec F S2x68x128x128 .f32
  | 0, hn => step0 (grid0.coords ⟨0, hn⟩) (k0_pay1 (F := F)) (blk0 V c 0 ⟨0, hn⟩)
  | n + 1, hn =>
    if (n + 1) % 16 = 0 then step0 (grid0.coords ⟨n + 1, hn⟩) (k0_pay1 (F := F)) (blk0 V c 0 ⟨n + 1, hn⟩)
    else step0 (grid0.coords ⟨n + 1, hn⟩) (accAt0 c n (Nat.lt_of_succ_lt hn)) (blk0 V c 0 ⟨n + 1, hn⟩)

/-- At the first window of a channel block: from zeros. -/
theorem accAt0_first (c : Dev nD) (t : Fin cfg0.N) (h : t.val % 16 = 0) :
    accAt0 V c t.val t.isLt = step0 (grid0.coords t) (k0_pay1 (F := F)) (blk0 V c 0 t) := by
  obtain ⟨n, hn⟩ := t
  cases n with
  | zero => rfl
  | succ n => exact if_pos h

/-- At a later window: from what the previous point left. -/
theorem accAt0_next (c : Dev nD) (t : Fin cfg0.N) (h : ¬t.val % 16 = 0) :
    accAt0 V c t.val t.isLt = step0 (grid0.coords t) (accAt0 V c (t.val - 1) (Nat.lt_of_le_of_lt (Nat.sub_le _ _) t.isLt)) (blk0 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA0_eq (c : Dev nD) :
    (Pipeline.ΦA spec0 c : sProp 𝕄)
      = iprop(iprop((∃ d, owns (c : Thread nD τ) mAcc0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [mAcc0, owns_whole]; try rfl

/-- The invariant before position `n`: before the first point what the launch hands over; afterwards the accumulator
    at what point `n - 1` left. -/
def inv0 (c : Dev nD) : (n : ℕ) → n ≤ cfg0.N → sProp 𝕄
  | 0, _ => Pipeline.ΦA spec0 c
  | n + 1, hn => iprop(iprop(owns (c : Thread nD τ) mAcc0 fullShare (accAt0 V c n hn)
      ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop(iprop(owns (c : Thread nD τ) mAcc0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl

theorem inv0_pos (c : Dev nD) (n : ℕ) (h : n ≤ cfg0.N) (hz : n ≠ 0) :
    inv0 V c n h = iprop(iprop(owns (c : Thread nD τ) mAcc0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Pipeline 0's proof data on core `c`: the arrays as the region finds them; after the body the input's buffer at its
    block and the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => accAt0 V c t.val t.isLt
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_in (c : Dev nD) (t : Fin cfg0.N) : (dat0 V c).after 0 t = blk0 V c 0 t := by dsimp only [dat0]
theorem after0_out (c : Dev nD) (t : Fin cfg0.N) : (dat0 V c).after 1 t = accAt0 V c t.val t.isLt := by dsimp only [dat0]

theorem before0_in (c : Dev nD) (t : Fin cfg0.N) (d) : (dat0 V c).before 0 t d = blk0 V c 0 t :=
  inFound0 V (dat0 V c) (A_eq0 V c 0) (after0_in V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (mIn0 t) fullShare ((dat0 V c).before 0 t d))
    ∗ (∃ d, owns (c : Thread nD τ) (mOut0 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the window number: first, last or neither (a point cannot be both first and last). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (mIn0 t) fullShare ((dat0 V c).after 0 t) from by
    unfold Dat.leavesExact; rw [inLive0 t], after0_in]
  have hN : t.val < 128 := lt_of_lt_of_eq t.isLt (show cfg0.N = 128 from N_0)
  by_cases h0 : t.val % 16 = 0
  · have hc0 : isFirst0 (grid0.coords t) := (isFirst0_iff t).mpr h0
    have hc1 : ¬isLast0 (grid0.coords t) := fun h => by have := (isLast0_iff t).mp h; omega
    rw [Dat.leavesExact_idle (dat0 V c) 1 t (outIdle0 t hc1) (outNoFlush0 t hc1)]
    rw [accAt0_first V c t h0]
    by_cases hz : t.val = 0
    · rw [inv0_castSucc V c t, inv0_zero V c _ _ hz, phiA0_eq]
      iintro ⟨⟨⟨⟨%ds, HS⟩, HB⟩, Hg⟩, Ho, ⟨%d0, H0⟩, ⟨%d1, H1⟩⟩
      iapply (runFirst0 c (grid0.coords t) (mIn0 t) (hIn0 t) (mOut0 t) (hOut0 t) mAcc0 (Memref.isWhole_whole _) hc0 hc1 (blk0 V c 0 t) ds ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv0_castSucc V c t, inv0_pos V c _ _ hz]
      iintro ⟨⟨⟨HS, HB⟩, Hg⟩, Ho, ⟨%d0, H0⟩, ⟨%d1, H1⟩⟩
      iapply (runFirst0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst0 (grid0.coords t) := fun h => h0 ((isFirst0_iff t).mp h)
    have hz : t.val ≠ 0 := fun e => h0 (by rw [e])
    rw [accAt0_next V c t h0]
    rw [inv0_castSucc V c t, inv0_pos V c _ _ hz]
    by_cases h1 : t.val % 16 = 15
    · have hc1 : isLast0 (grid0.coords t) := (isLast0_iff t).mpr h1
      rw [show (dat0 V c).leavesExact 1 t = owns (c : Thread nD τ) (mOut0 t) fullShare ((dat0 V c).after 1 t) from by
        unfold Dat.leavesExact; rw [outLive0 t hc1], after0_out, accAt0_next V c t h0]
      iintro ⟨⟨⟨HS, HB⟩, Hg⟩, Ho, ⟨%d0, H0⟩, ⟨%d1, H1⟩⟩
      iapply (runLast0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast0 (grid0.coords t) := fun h => h1 ((isLast0_iff t).mp h)
      rw [Dat.leavesExact_idle (dat0 V c) 1 t (outIdle0 t hc1) (outNoFlush0 t hc1)]
      iintro ⟨⟨⟨HS, HB⟩, Hg⟩, Ho, ⟨%d0, H0⟩, ⟨%d1, H1⟩⟩
      iapply (runMid0 c (grid0.coords t) (mIn0 t) (hIn0 t) (mOut0 t) (hOut0 t) mAcc0 (Memref.isWhole_whole _) hc0 hc1 (blk0 V c 0 t) _ ((dat0 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives it back: the accumulator's contents are forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), phiA0_eq]
  iintro ⟨⟨HS, HB⟩, Hg⟩
  isplitl [HS HB]
  · isplitl [HS]
    · iexists _; iexact HS
    iexact HB
  iexact Hg

end Cert.KernelIdeal.Fold

end
-- ==== Proof.Fold1Run.lean ====
/-
  Region 1 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step1 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.KernelIdeal.Launch
import proofs.«130459_j45174466019398_2_alg».proof.Proof.Gen.KernelIdeal.Skeleton
import proofs.«130459_j45174466019398_2_alg».proof.Proof.Gen.KernelIdeal.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst1 (i : grid1.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst1_iff : ∀ t : Fin cfg1.N, isFirst1 (grid1.coords t) ↔ t.val % 16 = 0 :=
  (by decide +kernel : ∀ t : Fin grid1.N, isFirst1 (grid1.coords t) ↔ t.val % 16 = 0)

/-- "This is the last window of its channel block" (the body's second conditional). -/
abbrev isLast1 (i : grid1.Coords) : Prop := k1_cond2 i = 1#1
/-- The last window is at the points ≡ 15 (mod 16). -/
theorem isLast1_iff : ∀ t : Fin cfg1.N, isLast1 (grid1.coords t) ↔ t.val % 16 = 15 :=
  (by decide +kernel : ∀ t : Fin grid1.N, isLast1 (grid1.coords t) ↔ t.val % 16 = 15)

/-- The input window is live at every point. -/
theorem inLive1 : ∀ t : Fin cfg1.N, cfg1.idle 0 (grid1.coords t) = false := by decide +kernel
/-- Off the last window the output window is idle (the body stores nothing into it) -/
theorem outIdle1 : ∀ t : Fin cfg1.N, ¬isLast1 (grid1.coords t) → cfg1.idle 1 (grid1.coords t) = true := by decide +kernel
/-- and its block is not written back; -/
theorem outNoFlush1 : ∀ t : Fin cfg1.N, ¬isLast1 (grid1.coords t) → (cfg1.win 1).flush t = false := by decide +kernel
/-- at the last window it is live. -/
theorem outLive1 : ∀ t : Fin cfg1.N, isLast1 (grid1.coords t) → cfg1.idle 1 (grid1.coords t) = false := by decide +kernel

/-! ## The body's rectangles and the accumulation step -/

/-- The whole accumulator (and the whole output block). -/
abbrev rAll1 : Rect S4x68x68x128 := Rect.unit (s := S4x68x68x128) ![0, 0, 0, 0] S4x68x68x128.size inb_S4x68x68x128_S4x68x68x128_0_0_0_0
/-- The whole input block. -/
abbrev rIn1 : Rect S4x8x68x128 := Rect.unit (s := S4x8x68x128) ![0, 0, 0, 0] S4x8x68x128.size inb_S4x8x68x128_S4x8x68x128_0_0_0_0
/-- The rows of the accumulator that window `i` lands on: 8 rows from row 4·(window number). -/
abbrev rWin1 (i : grid1.Coords) : Rect S4x68x68x128 := Rect.unit (s := S4x68x68x128) (k1_off1 i) S4x8x68x128.size (k1_off1_inb i)

/-- One accumulation step: the rows of window `i` become their sum with the block, every other row is kept. -/
def step1 (i : grid1.Coords) (acc : Vec F S4x68x68x128 .f32) (x : Vec F S4x8x68x128 .f32) : Vec F S4x68x68x128 .f32 :=
  (rWin1 i).overlay acc (k1_pay2 (View.ld acc (rWin1 i)) (View.ld x rIn1))

/-! ## The body's triple, case by case -/

set_option maxHeartbeats 1000000 in
/-- A window that is neither first nor last: the accumulator steps, the output buffer is handed back untouched. -/
theorem runMid1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬isFirst1 i) (hc1 : ¬isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step1 i xs0 x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : isFirst1 i) (hc1 : ¬isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step1 i (k1_pay1 (F := F)) x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬isFirst1 i) (hc1 : isLast1 i)
    (x0 : Vec F S4x8x68x128 .f32) (xs0 : Vec F S4x68x68x128 .f32) (xi1 : Vec F S4x68x68x128 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step1 i xs0 x0) ∗ owns (c : Thread nD τ) arg4 fullShare (step1 i xs0 x0)) -∗ K ⟨⟩))
      ⊢ wp frame (wpE (defs₀ (F := F)) Variants.none c none) E (cc1__fold_kernel i arg2 harg2 arg3 harg3 arg4 harg4) K := by
  simp only [cc1__fold_kernel_eq_skeleton]; unfold cc1__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin1 i, k1_pay2 (View.readAt (Elt F) arg4.view (rWin1 i).toLoadRect (harg4.unread xs0)) (View.readAt (Elt F) arg2.view rIn1.toLoadRect (harg2.unread x0))⟩])
      = step1 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.KernelIdeal.Fold

end
-- ==== Proof.Fold1Frame.lean ====
/-
  Region 1 (the overlap-add along one axis): the pipeline's proof data, at the contents `V` the region is entered with.

  `accAt1 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.Fold1Run

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds the point's block, fetched there or not, for any proof data whose
    input array is `V`'s and whose body leaves the block in place. -/
theorem inFound1 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The staging memrefs the pipeline calls the body with at point `t`, and the scratch accumulator. -/
abbrev mIn1 (t : Fin cfg1.N) : Memref sig .tc .vmem S4x8x68x128 .f32 := win1_0.stage (cfg1.slots t 0)
abbrev hIn1 (t : Fin cfg1.N) : (mIn1 t).IsWhole := hstage1_0 ((cfg1.slots t 0).cast nbuf1_0)
abbrev mOut1 (t : Fin cfg1.N) : Memref sig .tc .vmem S4x68x68x128 .f32 := win1_1.stage (cfg1.slots t 1)
abbrev hOut1 (t : Fin cfg1.N) : (mOut1 t).IsWhole := hstage1_1 ((cfg1.slots t 1).cast nbuf1_1)
abbrev mAcc1 : Memref sig .tc .vmem S4x68x68x128 .f32 := Memref.whole cc1_scratch0

/-! ## The accumulator after each point -/

/-- What the scratch accumulator holds after point `n`. -/
def accAt1 (c : Dev nD) : (n : ℕ) → n < cfg1.N → Vec F S4x68x68x128 .f32
  | 0, hn => step1 (grid1.coords ⟨0, hn⟩) (k1_pay1 (F := F)) (blk1 V c 0 ⟨0, hn⟩)
  | n + 1, hn =>
    if (n + 1) % 16 = 0 then step1 (grid1.coords ⟨n + 1, hn⟩) (k1_pay1 (F := F)) (blk1 V c 0 ⟨n + 1, hn⟩)
    else step1 (grid1.coords ⟨n + 1, hn⟩) (accAt1 c n (Nat.lt_of_succ_lt hn)) (blk1 V c 0 ⟨n + 1, hn⟩)

/-- At the first window of a channel block: from zeros. -/
theorem accAt1_first (c : Dev nD) (t : Fin cfg1.N) (h : t.val % 16 = 0) :
    accAt1 V c t.val t.isLt = step1 (grid1.coords t) (k1_pay1 (F := F)) (blk1 V c 0 t) := by
  obtain ⟨n, hn⟩ := t
  cases n with
  | zero => rfl
  | succ n => exact if_pos h

/-- At a later window: from what the previous point left. -/
theorem accAt1_next (c : Dev nD) (t : Fin cfg1.N) (h : ¬t.val % 16 = 0) :
    accAt1 V c t.val t.isLt = step1 (grid1.coords t) (accAt1 V c (t.val - 1) (Nat.lt_of_le_of_lt (Nat.sub_le _ _) t.isLt)) (blk1 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA1_eq (c : Dev nD) :
    (Pipeline.ΦA spec1 c : sProp 𝕄)
      = iprop(iprop((∃ d, owns (c : Thread nD τ) mAcc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [mAcc1, owns_whole]; try rfl

/-- The invariant before position `n`: before the first point what the launch hands over; afterwards the accumulator
    at what point `n - 1` left. -/
def inv1 (c : Dev nD) : (n : ℕ) → n ≤ cfg1.N → sProp 𝕄
  | 0, _ => Pipeline.ΦA spec1 c
  | n + 1, hn => iprop(iprop(owns (c : Thread nD τ) mAcc1 fullShare (accAt1 V c n hn)
      ∗ Pipeline.scopedRestBut (Ix := Unit) (Name := ℕ) (U := UR sig nD τ) (Lvl := ℕ) (Val := Elt F) spec1 c [cc1_scratch0]) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(iprop(owns (c : Thread nD τ) mAcc1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl

theorem inv1_pos (c : Dev nD) (n : ℕ) (h : n ≤ cfg1.N) (hz : n ≠ 0) :
    inv1 V c n h = iprop(iprop(owns (c : Thread nD τ) mAcc1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- Pipeline 1's proof data on core `c`: the arrays as the region finds them; after the body the input's buffer at its
    block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => accAt1 V c t.val t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_in (c : Dev nD) (t : Fin cfg1.N) : (dat1 V c).after 0 t = blk1 V c 0 t := by dsimp only [dat1]
theorem after1_out (c : Dev nD) (t : Fin cfg1.N) : (dat1 V c).after 1 t = accAt1 V c t.val t.isLt := by dsimp only [dat1]

theorem before1_in (c : Dev nD) (t : Fin cfg1.N) (d) : (dat1 V c).before 0 t d = blk1 V c 0 t :=
  inFound1 V (dat1 V c) (A_eq1 V c 0) (after1_in V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (mIn1 t) fullShare ((dat1 V c).before 0 t d))
    ∗ (∃ d, owns (c : Thread nD τ) (mOut1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point, by the window number: first, last or neither (a point cannot be both first and last). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (mIn1 t) fullShare ((dat1 V c).after 0 t) from by
    unfold Dat.leavesExact; rw [inLive1 t], after1_in]
  have hN : t.val < 64 := lt_of_lt_of_eq t.isLt (show cfg1.N = 64 from N_1)
  by_cases h0 : t.val % 16 = 0
  · have hc0 : isFirst1 (grid1.coords t) := (isFirst1_iff t).mpr h0
    have hc1 : ¬isLast1 (grid1.coords t) := fun h => by have := (isLast1_iff t).mp h; omega
    rw [Dat.leavesExact_idle (dat1 V c) 1 t (outIdle1 t hc1) (outNoFlush1 t hc1)]
    rw [accAt1_first V c t h0]
    by_cases hz : t.val = 0
    · rw [inv1_castSucc V c t, inv1_zero V c _ _ hz, phiA1_eq]
      iintro ⟨⟨⟨⟨%ds, HS⟩, HB⟩, Hg⟩, Ho, ⟨%d0, H0⟩, ⟨%d1, H1⟩⟩
      iapply (runFirst1 c (grid1.coords t) (mIn1 t) (hIn1 t) (mOut1 t) (hOut1 t) mAcc1 (Memref.isWhole_whole _) hc0 hc1 (blk1 V c 0 t) ds ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv1_castSucc V c t, inv1_pos V c _ _ hz]
      iintro ⟨⟨⟨HS, HB⟩, Hg⟩, Ho, ⟨%d0, H0⟩, ⟨%d1, H1⟩⟩
      iapply (runFirst1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst1 (grid1.coords t) := fun h => h0 ((isFirst1_iff t).mp h)
    have hz : t.val ≠ 0 := fun e => h0 (by rw [e])
    rw [accAt1_next V c t h0]
    rw [inv1_castSucc V c t, inv1_pos V c _ _ hz]
    by_cases h1 : t.val % 16 = 15
    · have hc1 : isLast1 (grid1.coords t) := (isLast1_iff t).mpr h1
      rw [show (dat1 V c).leavesExact 1 t = owns (c : Thread nD τ) (mOut1 t) fullShare ((dat1 V c).after 1 t) from by
        unfold Dat.leavesExact; rw [outLive1 t hc1], after1_out, accAt1_next V c t h0]
      iintro ⟨⟨⟨HS, HB⟩, Hg⟩, Ho, ⟨%d0, H0⟩, ⟨%d1, H1⟩⟩
      iapply (runLast1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast1 (grid1.coords t) := fun h => h1 ((isLast1_iff t).mp h)
      rw [Dat.leavesExact_idle (dat1 V c) 1 t (outIdle1 t hc1) (outNoFlush1 t hc1)]
      iintro ⟨⟨⟨HS, HB⟩, Hg⟩, Ho, ⟨%d0, H0⟩, ⟨%d1, H1⟩⟩
      iapply (runMid1 c (grid1.coords t) (mIn1 t) (hIn1 t) (mOut1 t) (hOut1 t) mAcc1 (Memref.isWhole_whole _) hc0 hc1 (blk1 V c 0 t) _ ((dat1 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives it back: the accumulator's contents are forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 64 := N_1; omega), phiA1_eq]
  iintro ⟨⟨HS, HB⟩, Hg⟩
  isplitl [HS HB]
  · isplitl [HS]
    · iexists _; iexact HS
    iexact HB
  iexact Hg

end Cert.KernelIdeal.Fold

end
-- ==== Proof.Fold2Run.lean ====
/-
  Region 2 (the overlap-add along one axis): the kernel body at one grid point.

  The grid is (channel block, window). At a point with window number w the body (i) if w = 0 fills the scratch
  accumulator with zeros, (ii) adds the point's input block — window w, 8 rows — onto rows 4w … 4w+7 of the
  accumulator, (iii) if w = 15 copies the accumulator into the output block. `step2 i acc x` is (ii) as a function:
  the accumulator `acc` with the rows of window `i` replaced by their sum with the block `x`. The three runs below say
  what the body leaves in the scratch and the output buffers in terms of it: from zeros at the first window, from
  what the previous point left otherwise, and into the output at the last window.
-/
import proofs.«130459_j45174466019398_2_alg».proof.Proof.Gen.KernelIdeal.Launch
import proofs.«130459_j45174466019398_2_alg».proof.Proof.Gen.KernelIdeal.Skeleton
import proofs.«130459_j45174466019398_2_alg».proof.Proof.Gen.KernelIdeal.Points
import proofs.«130459_j45174466019398_2_alg».proof.Proof.LibOverlay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first window of its channel block" (the body's first conditional, its scalar chain substituted). -/
abbrev isFirst2 (i : grid2.Coords) : Prop := (Scalar.cmpi .ne (Scalar.extui (Scalar.cmpi .eq (BitVec.ofNat 32 (i 1).val) 0#32)) 0#32) = 1#1
/-- Points are numbered channel block × 16 + window: the first window is at the points ≡ 0 (mod 16). -/
theorem isFirst2_iff : ∀ t : Fin cfg2.N, isFirst2 (grid2.coords t) ↔ t.val % 16 = 0 :=
  (by decide +kernel : ∀ t : Fin grid2.N, isFirst2 (grid2.coords t) ↔ t.val % 16 = 0)

/-- "This is the last window of its channel block" (the body's second conditional). -/
abbrev isLast2 (i : grid2.Coords) : Prop := k2_cond2 i = 1#1
/-- The last window is at the points ≡ 15 (mod 16). -/
theorem isLast2_iff : ∀ t : Fin cfg2.N, isLast2 (grid2.coords t) ↔ t.val % 16 = 15 :=
  (by decide +kernel : ∀ t : Fin grid2.N, isLast2 (grid2.coords t) ↔ t.val % 16 = 15)

/-- The input window is live at every point. -/
theorem inLive2 : ∀ t : Fin cfg2.N, cfg2.idle 0 (grid2.coords t) = false := by decide +kernel
/-- Off the last window the output window is idle (the body stores nothing into it) -/
theorem outIdle2 : ∀ t : Fin cfg2.N, ¬isLast2 (grid2.coords t) → cfg2.idle 1 (grid2.coords t) = true := by decide +kernel
/-- and its block is not written back; -/
theorem outNoFlush2 : ∀ t : Fin cfg2.N, ¬isLast2 (grid2.coords t) → (cfg2.win 1).flush t = false := by decide +kernel
/-- at the last window it is live. -/
theorem outLive2 : ∀ t : Fin cfg2.N, isLast2 (grid2.coords t) → cfg2.idle 1 (grid2.coords t) = false := by decide +kernel

/-! ## The body's rectangles and the accumulation step -/

/-- The whole accumulator (and the whole output block). -/
abbrev rAll2 : Rect S4x68x68x68 := Rect.unit (s := S4x68x68x68) ![0, 0, 0, 0] S4x68x68x68.size inb_S4x68x68x68_S4x68x68x68_0_0_0_0
/-- The whole input block. -/
abbrev rIn2 : Rect S4x8x68x68 := Rect.unit (s := S4x8x68x68) ![0, 0, 0, 0] S4x8x68x68.size inb_S4x8x68x68_S4x8x68x68_0_0_0_0
/-- The rows of the accumulator that window `i` lands on: 8 rows from row 4·(window number). -/
abbrev rWin2 (i : grid2.Coords) : Rect S4x68x68x68 := Rect.unit (s := S4x68x68x68) (k2_off1 i) S4x8x68x68.size (k2_off1_inb i)

/-- One accumulation step: the rows of window `i` become their sum with the block, every other row is kept. -/
def step2 (i : grid2.Coords) (acc : Vec F S4x68x68x68 .f32) (x : Vec F S4x8x68x68 .f32) : Vec F S4x68x68x68 .f32 :=
  (rWin2 i).overlay acc (k2_pay2 (View.ld acc (rWin2 i)) (View.ld x rIn2))

/-! ## The body's triple, case by case -/

set_option maxHeartbeats 1000000 in
/-- A window that is neither first nor last: the accumulator steps, the output buffer is handed back untouched. -/
theorem runMid2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : ¬isFirst2 i) (hc1 : ¬isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step2 i xs0 x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [Cert.LibOverlay.read_writes_one, View.readAt_eq_ld, View.readAt_eq_ld, harg4.read_unread, harg2.read_unread]
  rfl

set_option maxHeartbeats 1000000 in
/-- The first window: whatever the accumulator held, it is zeroed and stepped; the output buffer is untouched. -/
theorem runFirst2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : isFirst2 i) (hc1 : ¬isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (step2 i (k2_pay1 (F := F)) x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [Cert.LibOverlay.read_writes_cons, Cert.LibOverlay.read_writes_cons_whole _ _ Cert.LibOverlay.zeros4, View.readAt_eq_ld, View.readAt_eq_ld,
    Cert.LibOverlay.read_writes_cons_whole _ _ Cert.LibOverlay.zeros4, harg2.read_unread]
  rfl

set_option maxHeartbeats 1000000 in
/-- The last window: the accumulator steps and the output buffer, whatever it held, receives the accumulator. -/
theorem runLast2 (c : Dev nD) (i : grid2.Coords) (arg2 : Memref sig .tc .vmem S4x8x68x68 .f32) (harg2 : arg2.IsWhole) (arg3 : Memref sig .tc .vmem S4x68x68x68 .f32) (harg3 : arg3.IsWhole) (arg4 : Memref sig .tc .vmem S4x68x68x68 .f32) (harg4 : arg4.IsWhole) (hc0 : ¬isFirst2 i) (hc1 : isLast2 i)
    (x0 : Vec F S4x8x68x68 .f32) (xs0 : Vec F S4x68x68x68 .f32) (xi1 : Vec F S4x68x68x68 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare (step2 i xs0 x0) ∗ owns (c : Thread nD τ) arg4 fullShare (step2 i xs0 x0)) -∗ K ⟨⟩))
      ⊢ wp frame (wpE (defs₀ (F := F)) Variants.none c none) E (cc2__fold_kernel i arg2 harg2 arg3 harg3 arg4 harg4) K := by
  simp only [cc2__fold_kernel_eq_skeleton]; unfold cc2__fold_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  have hacc : View.read (Elt F) arg4.view (arg4.view.writes (Elt F) (harg4.unread xs0)
      [⟨rWin2 i, k2_pay2 (View.readAt (Elt F) arg4.view (rWin2 i).toLoadRect (harg4.unread xs0)) (View.readAt (Elt F) arg2.view rIn2.toLoadRect (harg2.unread x0))⟩])
      = step2 i xs0 x0 := by
    rw [Cert.LibOverlay.read_writes_one, View.readAt_eq_ld, View.readAt_eq_ld, harg4.read_unread, harg2.read_unread]
    rfl
  iapply Hk
  isplitl [H0]
  · iexists _; isplitr; · ipureintro; exact harg2.read_unread _
    iexact H0
  isplitl [H1]
  · iexists _; isplitr
    swap; · iexact H1
    ipureintro
    sl_unfold_run_names
    rw [Cert.LibOverlay.read_writes_cons_whole _ _ Cert.LibOverlay.zeros4, View.readAt_eq_ld, View.ld_unit_zero Cert.LibOverlay.zeros4]
    exact hacc
  iexists _; isplitr
  swap; · iexact HS0
  ipureintro
  sl_unfold_run_names
  exact hacc

end Cert.KernelIdeal.Fold

end
-- ==== Proof.Fold2Frame.lean ====
/-
  Region 2 (the overlap-add along one axis): the pipeline's proof data, at the contents `V` the region is entered with.

  `accAt2 V c n` is what the scratch accumulator holds after grid point `n`: at the first window of a channel block
  the zero array stepped with the point's input block, otherwise what the previous point left, stepped. The region's
  invariant holds the accumulator at that value between points (before the first point: at anything), the other
  scoped buffers unopened and the generator register at some state. The output window's staging buffer holds the
  accumulator after the last window of a channel block — the only points where it is written back — and is handed
  back untouched at every other point. The body obligation is a case split on the window number.
-/
import proofs.«130459_j45174466019398_2_alg».proof.Proof.Fold2Run

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and memrefs -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds the point's block, fetched there or not, for any proof data whose
    input array is `V`'s and whose body leaves the block in place. -/
theorem inFound2 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The staging memrefs the pipeline calls the body with at point `t`, and the scratch accumulator. -/
abbrev mIn2 (t : Fin cfg2.N) : Memref sig .tc .vmem S4x8x68x68 .f32 := win2_0.stage (cfg2.slots t 0)
abbrev hIn2 (t : Fin cfg2.N) : (mIn2 t).IsWhole := hstage2_0 ((cfg2.slots t 0).cast nbuf2_0)
abbrev mOut2 (t : Fin cfg2.N) : Memref sig .tc .vmem S4x68x68x68 .f32 := win2_1.stage (cfg2.slots t 1)
abbrev hOut2 (t : Fin cfg2.N) : (mOut2 t).IsWhole := hstage2_1 ((cfg2.slots t 1).cast nbuf2_1)
abbrev mAcc2 : Memref sig .tc .vmem S4x68x68x68 .f32 := Memref.whole cc2_scratch0

/-! ## The accumulator after each point -/

/-- What the scratch accumulator holds after point `n`. -/
def accAt2 (c : Dev nD) : (n : ℕ) → n < cfg2.N → Vec F S4x68x68x68 .f32
  | 0, hn => step2 (grid2.coords ⟨0, hn⟩) (k2_pay1 (F := F)) (blk2 V c 0 ⟨0, hn⟩)
  | n + 1, hn =>
    if (n + 1) % 16 = 0 then step2 (grid2.coords ⟨n + 1, hn⟩) (k2_pay1 (F := F)) (blk2 V c 0 ⟨n + 1, hn⟩)
    else step2 (grid2.coords ⟨n + 1, hn⟩) (accAt2 c n (Nat.lt_of_succ_lt hn)) (blk2 V c 0 ⟨n + 1, hn⟩)

/-- At the first window of a channel block: from zeros. -/
theorem accAt2_first (c : Dev nD) (t : Fin cfg2.N) (h : t.val % 16 = 0) :
    accAt2 V c t.val t.isLt = step2 (grid2.coords t) (k2_pay1 (F := F)) (blk2 V c 0 t) := by
  obtain ⟨n, hn⟩ := t
  cases n with
  | zero => rfl
  | succ n => exact if_pos h

/-- At a later window: from what the previous point left. -/
theorem accAt2_next (c : Dev nD) (t : Fin cfg2.N) (h : ¬t.val % 16 = 0) :
    accAt2 V c t.val t.isLt = step2 (grid2.coords t) (accAt2 V c (t.val - 1) (Nat.lt_of_le_of_lt (Nat.sub_le _ _) t.isLt)) (blk2 V c 0 t) := by
  obtain ⟨n, hn⟩ := t
  cases n with
  | zero => exact absurd (Nat.zero_mod _) h
  | succ n => exact if_neg h

/-! ## The invariant -/

/-- What the launch hands the body beside the windows: the accumulator at some contents, the other scoped buffers
    unopened, the generator register at some state. -/
theorem phiA2_eq (c : Dev nD) :
    (Pipeline.ΦA spec2 c : sProp 𝕄)
      = iprop(iprop((∃ d, owns (c : Thread nD τ) mAcc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [mAcc2, owns_whole]; try rfl

/-- The invariant before position `n`: before the first point what the launch hands over; afterwards the accumulator
    at what point `n - 1` left. -/
def inv2 (c : Dev nD) : (n : ℕ) → n ≤ cfg2.N → sProp 𝕄
  | 0, _ => Pipeline.ΦA spec2 c
  | n + 1, hn => iprop(iprop(owns (c : Thread nD τ) mAcc2 fullShare (accAt2 V c n hn)
      ∗ Pipeline.scopedRestBut (Ix := Unit) (Name := ℕ) (U := UR sig nD τ) (Lvl := ℕ) (Val := Elt F) spec2 c [cc2_scratch0]) ∗ (∃ r, prngReg c r))

theorem inv2_zero (c : Dev nD) (n : ℕ) (h : n ≤ cfg2.N) (hz : n = 0) : inv2 V c n h = Pipeline.ΦA spec2 c := by
  subst hz; rfl

theorem inv2_succ (c : Dev nD) (n : ℕ) (hn : n < cfg2.N) :
    inv2 V c (n + 1) hn = iprop(iprop(owns (c : Thread nD τ) mAcc2 fullShare (accAt2 V c n hn)
      ∗ Pipeline.scopedRestBut (Ix := Unit) (Name := ℕ) (U := UR sig nD τ) (Lvl := ℕ) (Val := Elt F) spec2 c [cc2_scratch0]) ∗ (∃ r, prngReg c r)) := rfl

theorem inv2_pos (c : Dev nD) (n : ℕ) (h : n ≤ cfg2.N) (hz : n ≠ 0) :
    inv2 V c n h = iprop(iprop(owns (c : Thread nD τ) mAcc2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- Pipeline 2's proof data on core `c`: the arrays as the region finds them; after the body the input's buffer at its
    block and the output's at the accumulator; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => accAt2 V c t.val t.isLt
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_in (c : Dev nD) (t : Fin cfg2.N) : (dat2 V c).after 0 t = blk2 V c 0 t := by dsimp only [dat2]
theorem after2_out (c : Dev nD) (t : Fin cfg2.N) : (dat2 V c).after 1 t = accAt2 V c t.val t.isLt := by dsimp only [dat2]

theorem before2_in (c : Dev nD) (t : Fin cfg2.N) (d) : (dat2 V c).before 0 t d = blk2 V c 0 t :=
  inFound2 V (dat2 V c) (A_eq2 V c 0) (after2_in V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (mIn2 t) fullShare ((dat2 V c).before 0 t d))
    ∗ (∃ d, owns (c : Thread nD τ) (mOut2 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4000000 in
/-- The body at any point, by the window number: first, last or neither (a point cannot be both first and last). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in]
  rw [show (dat2 V c).owesAt () t.succ = (dat2 V c).owesAt () t.castSucc from rfl]
  rw [show (dat2 V c).Φ t.succ = inv2 V c (t.val + 1) t.isLt from rfl, inv2_succ]
  rw [show (dat2 V c).leavesExact 0 t = owns (c : Thread nD τ) (mIn2 t) fullShare ((dat2 V c).after 0 t) from by
    unfold Dat.leavesExact; rw [inLive2 t], after2_in]
  have hN : t.val < 64 := lt_of_lt_of_eq t.isLt (show cfg2.N = 64 from N_2)
  by_cases h0 : t.val % 16 = 0
  · have hc0 : isFirst2 (grid2.coords t) := (isFirst2_iff t).mpr h0
    have hc1 : ¬isLast2 (grid2.coords t) := fun h => by have := (isLast2_iff t).mp h; omega
    rw [Dat.leavesExact_idle (dat2 V c) 1 t (outIdle2 t hc1) (outNoFlush2 t hc1)]
    rw [accAt2_first V c t h0]
    by_cases hz : t.val = 0
    · rw [inv2_castSucc V c t, inv2_zero V c _ _ hz, phiA2_eq]
      iintro ⟨⟨⟨⟨%ds, HS⟩, HB⟩, Hg⟩, Ho, ⟨%d0, H0⟩, ⟨%d1, H1⟩⟩
      iapply (runFirst2 c (grid2.coords t) (mIn2 t) (hIn2 t) (mOut2 t) (hOut2 t) mAcc2 (Memref.isWhole_whole _) hc0 hc1 (blk2 V c 0 t) ds ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
    · rw [inv2_castSucc V c t, inv2_pos V c _ _ hz]
      iintro ⟨⟨⟨HS, HB⟩, Hg⟩, Ho, ⟨%d0, H0⟩, ⟨%d1, H1⟩⟩
      iapply (runFirst2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1
  · have hc0 : ¬isFirst2 (grid2.coords t) := fun h => h0 ((isFirst2_iff t).mp h)
    have hz : t.val ≠ 0 := fun e => h0 (by rw [e])
    rw [accAt2_next V c t h0]
    rw [inv2_castSucc V c t, inv2_pos V c _ _ hz]
    by_cases h1 : t.val % 16 = 15
    · have hc1 : isLast2 (grid2.coords t) := (isLast2_iff t).mpr h1
      rw [show (dat2 V c).leavesExact 1 t = owns (c : Thread nD τ) (mOut2 t) fullShare ((dat2 V c).after 1 t) from by
        unfold Dat.leavesExact; rw [outLive2 t hc1], after2_out, accAt2_next V c t h0]
      iintro ⟨⟨⟨HS, HB⟩, Hg⟩, Ho, ⟨%d0, H0⟩, ⟨%d1, H1⟩⟩
      iapply (runLast2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexact H1
    · have hc1 : ¬isLast2 (grid2.coords t) := fun h => h1 ((isLast2_iff t).mp h)
      rw [Dat.leavesExact_idle (dat2 V c) 1 t (outIdle2 t hc1) (outNoFlush2 t hc1)]
      iintro ⟨⟨⟨HS, HB⟩, Hg⟩, Ho, ⟨%d0, H0⟩, ⟨%d1, H1⟩⟩
      iapply (runMid2 c (grid2.coords t) (mIn2 t) (hIn2 t) (mOut2 t) (hOut2 t) mAcc2 (Memref.isWhole_whole _) hc0 hc1 (blk2 V c 0 t) _ ((dat2 V c).before 1 t d1) Set.univ _)
      isplitl [H0]; · iexact H0
      isplitl [H1]; · iexact H1
      isplitl [HS]; · iexact HS
      iintro ⟨H0, H1, HS⟩
      isplitl [HS HB Hg]
      · isplitl [HS HB]
        · isplitl [HS]; · iexact HS
          iexact HB
        iexact Hg
      isplitl [Ho]; · iexact Ho
      isplitl [H0]; · iexact H0
      iexists _; iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem enter2 (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives it back: the accumulator's contents are forgotten. -/
theorem leave2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 64 := N_2; omega), phiA2_eq]
  iintro ⟨⟨HS, HB⟩, Hg⟩
  isplitl [HS HB]
  · isplitl [HS]
    · iexists _; iexact HS
    iexact HB
  iexact Hg

end Cert.KernelIdeal.Fold

end
-- ==== Proof.FoldProgram.lean ====
/-
  The whole program as a run: @main is host operations, region 0, host operations, region 1, host operations, region 2,
  host operations. `at0 … at7` are the contents of the core's unscoped buffers at the eight boundaries, a fold from the
  launch memory: a stretch of host operations applies them (`StableHlo.after`); a region leaves its two arrays at what
  its write-backs leave and every other buffer as entered. Each region is entered with the proof data of its overlap-add
  at the contents it finds. The run ends with every unscoped buffer at `at7`: the argument as launched (no host
  operation and no region writes it), and the result buffer at the last stretch's value.
-/
import proofs.«130459_j45174466019398_2_alg».proof.Proof.Fold0Frame
import proofs.«130459_j45174466019398_2_alg».proof.Proof.Fold1Frame
import proofs.«130459_j45174466019398_2_alg».proof.Proof.Fold2Frame
import proofs.«130459_j45174466019398_2_alg».proof.Proof.Gen.KernelIdeal.Regions

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev at0 : Dev nD → Valuation τ sig (Elt F) := fun c b => m (c, b)
/-- After the first stretch (region 0's entry), and the same read at the TensorCore's references. -/
abbrev at1 : Dev nD → Valuation τ sig (Elt F) := fun c => StableHlo.after hostOps0 (at0 m c)
abbrev in0 : (c : Dev nD) → (b : Ref sig .tc) → Buf (Elt F) ((c : Thread nD τ).loc b) := fun c b => at1 m c b

/-- After region 0: its arrays at what the write-backs leave, every other buffer as entered. -/
def at2 (c : Dev nD) : Valuation τ sig (Elt F) :=
  Pipeline.withArrays spec0 c (at1 m c) fun w => (dat0 (in0 m) c).arrAt w cfg0.N
theorem at2_arr (c : Dev nD) (w : Fin cfg0.W) :
    at2 m c (Proc.devRef .tc (Pipeline.arrRef spec0 w)) = (dat0 (in0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
theorem exit0_arr (c : Dev nD) (w : Fin cfg0.W) : (dat0 (in0 m) c).arrAt w cfg0.N = at2 m c (Pipeline.arrRef spec0 w) :=
  (at2_arr m c w).symm
theorem exit0_rest (c : Dev nD) : ∀ b, b ∉ Finset.univ.image (Pipeline.arrRef spec0) → at2 m c b = in0 m c b :=
  fun b hb => at2_of_ne m c b fun w e => hb (Finset.mem_image.mpr ⟨w, Finset.mem_univ _, e⟩)

/-- After the second stretch (region 1's entry). -/
abbrev at3 : Dev nD → Valuation τ sig (Elt F) := fun c => StableHlo.after hostOps1 (at2 m c)
abbrev in1 : (c : Dev nD) → (b : Ref sig .tc) → Buf (Elt F) ((c : Thread nD τ).loc b) := fun c b => at3 m c b

/-- After region 1: its arrays at what the write-backs leave, every other buffer as entered. -/
def at4 (c : Dev nD) : Valuation τ sig (Elt F) :=
  Pipeline.withArrays spec1 c (at3 m c) fun w => (dat1 (in1 m) c).arrAt w cfg1.N
theorem at4_arr (c : Dev nD) (w : Fin cfg1.W) :
    at4 m c (Proc.devRef .tc (Pipeline.arrRef spec1 w)) = (dat1 (in1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
theorem exit1_arr (c : Dev nD) (w : Fin cfg1.W) : (dat1 (in1 m) c).arrAt w cfg1.N = at4 m c (Pipeline.arrRef spec1 w) :=
  (at4_arr m c w).symm
theorem exit1_rest (c : Dev nD) : ∀ b, b ∉ Finset.univ.image (Pipeline.arrRef spec1) → at4 m c b = in1 m c b :=
  fun b hb => at4_of_ne m c b fun w e => hb (Finset.mem_image.mpr ⟨w, Finset.mem_univ _, e⟩)

/-- After the third stretch (region 2's entry). -/
abbrev at5 : Dev nD → Valuation τ sig (Elt F) := fun c => StableHlo.after hostOps2 (at4 m c)
abbrev in2 : (c : Dev nD) → (b : Ref sig .tc) → Buf (Elt F) ((c : Thread nD τ).loc b) := fun c b => at5 m c b

/-- After region 2: its arrays at what the write-backs leave, every other buffer as entered. -/
def at6 (c : Dev nD) : Valuation τ sig (Elt F) :=
  Pipeline.withArrays spec2 c (at5 m c) fun w => (dat2 (in2 m) c).arrAt w cfg2.N
theorem at6_arr (c : Dev nD) (w : Fin cfg2.W) :
    at6 m c (Proc.devRef .tc (Pipeline.arrRef spec2 w)) = (dat2 (in2 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
theorem exit2_arr (c : Dev nD) (w : Fin cfg2.W) : (dat2 (in2 m) c).arrAt w cfg2.N = at6 m c (Pipeline.arrRef spec2 w) :=
  (at6_arr m c w).symm
theorem exit2_rest (c : Dev nD) : ∀ b, b ∉ Finset.univ.image (Pipeline.arrRef spec2) → at6 m c b = in2 m c b :=
  fun b hb => at6_of_ne m c b fun w e => hb (Finset.mem_image.mpr ⟨w, Finset.mem_univ _, e⟩)

/-- After the last stretch: the end. -/
abbrev at7 : Dev nD → Valuation τ sig (Elt F) := fun c => StableHlo.after hostOps3 (at6 m c)

/-! ## The argument ends as launched -/

theorem at7_main_arg0 (c : Dev nD) : at7 m c (Proc.devRef .tc main_arg0) = m ((c : Thread nD τ).loc main_arg0) :=
  calc at7 m c (Proc.devRef .tc main_arg0)
    _ = at6 m c (Proc.devRef .tc main_arg0) := StableHlo.after_of_writes_sub hostOps3 _ hostOps3_writes (r := main_arg0) (by decide)
    _ = at5 m c (Proc.devRef .tc main_arg0) := at6_of_ne m c main_arg0 (by decide)
    _ = at4 m c (Proc.devRef .tc main_arg0) := StableHlo.after_of_writes_sub hostOps2 _ hostOps2_writes (r := main_arg0) (by decide)
    _ = at3 m c (Proc.devRef .tc main_arg0) := at4_of_ne m c main_arg0 (by decide)
    _ = at2 m c (Proc.devRef .tc main_arg0) := StableHlo.after_of_writes_sub hostOps1 _ hostOps1_writes (r := main_arg0) (by decide)
    _ = at1 m c (Proc.devRef .tc main_arg0) := at2_of_ne m c main_arg0 (by decide)
    _ = at0 m c (Proc.devRef .tc main_arg0) := StableHlo.after_of_writes_sub hostOps0 _ hostOps0_writes (r := main_arg0) (by decide)
    _ = m ((c : Thread nD τ).loc main_arg0) := rfl

/-! ## The proof data family and the thread state -/

/-- No pipeline has a prefetched table. -/
abbrev tbl : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) tbl p) c
  | ⟨0, _⟩ => fun c => dat0 (in0 m) c
  | ⟨1, _⟩ => fun c => dat1 (in1 m) c
  | ⟨2, _⟩ => fun c => dat2 (in2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (at7 m c) ∗ ∃ r, prngReg c r)

/-! ## The regions as segments -/

-- a library lemma stated over the pinned configuration unifies with the printed one only when unification may unfold plain
-- definitions in a metavariable's type
set_option backward.isDefEq.respectTransparency.types false in
/-- Region 0 as a segment: entered with every unscoped buffer at `at1`, left with them at `at2`. Its two arrays are split
    out of the unscoped buffers and put back at the contents the write-backs leave; the scoped buffers and the generator
    register go into the region's invariant and come back; nothing is owed; the kernel has no semaphore of its own. -/
def reg0 : Pipeline.RegionSeg (pcfgs (F := F)) tbl (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) tbl (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (pdats m 0 c).Φ 0 := enter0 (in0 m) c
    iintro ⟨Hp, -, Hr⟩
    iapply h
    isplitl [Hr]; · iexact Hr
    iexact Hp
  hout c := by
    rw [Pipeline.ownSems0_none]
    have h : (pdats m 0 c).Φ (Fin.last cfg0.N)
        ⊢ (iprop(Pipeline.scopedRest (Ix := Unit) (Name := ℕ) (U := UR sig nD τ) (Lvl := ℕ) (Val := Elt F) spec0 c ∗ ∃ r, prngReg c r) : sProp 𝕄) :=
      leave0 (in0 m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) tbl (Ix := Unit) (Name := ℕ) (U := UR sig nD τ) (Lvl := ℕ)
      launch0.win launch0.arr_whole c (pdats m) ((pdats m 0 c).share_full fun _ => rfl)
      (in0 m c) (fun b => at2 m c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 as a segment: entered with every unscoped buffer at `at3`, left with them at `at4`. Its two arrays are split
    out of the unscoped buffers and put back at the contents the write-backs leave; the scoped buffers and the generator
    register go into the region's invariant and come back; nothing is owed; the kernel has no semaphore of its own. -/
def reg1 : Pipeline.RegionSeg (pcfgs (F := F)) tbl (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) tbl (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ (pdats m 1 c).Φ 0 := enter1 (in1 m) c
    iintro ⟨Hp, -, Hr⟩
    iapply h
    isplitl [Hr]; · iexact Hr
    iexact Hp
  hout c := by
    rw [Pipeline.ownSems0_none]
    have h : (pdats m 1 c).Φ (Fin.last cfg1.N)
        ⊢ (iprop(Pipeline.scopedRest (Ix := Unit) (Name := ℕ) (U := UR sig nD τ) (Lvl := ℕ) (Val := Elt F) spec1 c ∗ ∃ r, prngReg c r) : sProp 𝕄) :=
      leave1 (in1 m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) tbl (Ix := Unit) (Name := ℕ) (U := UR sig nD τ) (Lvl := ℕ)
      launch1.win launch1.arr_whole c (pdats m) ((pdats m 1 c).share_full fun _ => rfl)
      (in1 m c) (fun b => at4 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 as a segment: entered with every unscoped buffer at `at5`, left with them at `at6`. Its two arrays are split
    out of the unscoped buffers and put back at the contents the write-backs leave; the scoped buffers and the generator
    register go into the region's invariant and come back; nothing is owed; the kernel has no semaphore of its own. -/
def reg2 : Pipeline.RegionSeg (pcfgs (F := F)) tbl (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) tbl (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec2 c ∗ ∃ r, prngReg c r) : sProp 𝕄)
        ⊢ (pdats m 2 c).Φ 0 := enter2 (in2 m) c
    iintro ⟨Hp, -, Hr⟩
    iapply h
    isplitl [Hr]; · iexact Hr
    iexact Hp
  hout c := by
    rw [Pipeline.ownSems0_none]
    have h : (pdats m 2 c).Φ (Fin.last cfg2.N)
        ⊢ (iprop(Pipeline.scopedRest (Ix := Unit) (Name := ℕ) (U := UR sig nD τ) (Lvl := ℕ) (Val := Elt F) spec2 c ∗ ∃ r, prngReg c r) : sProp 𝕄) :=
      leave2 (in2 m) c
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) tbl (Ix := Unit) (Name := ℕ) (U := UR sig nD τ) (Lvl := ℕ)
      launch2.win launch2.arr_whole c (pdats m) ((pdats m 2 c).share_full fun _ => rfl)
      (in2 m c) (fun b => at6 m c b) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) tbl (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m),
    .host (hseg hostOps2 hostOps2_sub hostOps2_fresh (at4 m)),
    .region (reg2 m),
    .host (hseg hostOps3 hostOps3_sub hostOps3_fresh (at6 m)) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and every
    final memory holds each unscoped buffer at `at7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) tbl (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tend m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (at7 m c) ∗ R c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (at7_main_arg0 m c)) (run_all m ρ)

end Cert.KernelIdeal.Fold

end
-- ==== Proof.OverlapAdd.lean ====
/-
  The mathematics of the "fold": along one axis, 16 windows of width 8 laid at stride 4 are added where they
  overlap, giving 68 positions. The 128 merged (window, offset) positions are numbered j = 8·window + offset,
  and position j lands at 4·(j / 8) + j % 8.

  * `fold1`  — one axis overlap-added, as one finite sum: entry `a` is the sum of the positions landing on `a`.
  * `accSeq` — the same entry reached the way an accumulator reaches it: from zero, window n added onto rows
                4n … 4n+7, for n = 0 … 15 in order.
  * `fold3`  — the three axes overlap-added at once: one sum over the triples landing on (a, b, d).
  * `out5`   — `fold3` read on the arrays' shapes: the result [1,16,68,68,68] of the merged array [1,16,128,128,128].

  Sums are taken in the extended reals, where + is commutative and associative (so regrouping is free) and
  0 is neutral; nothing here needs the entries to be finite.
-/
import Idealize.ShloMosaic.PureOps.Ideal
import Idealize.ShloMosaic.Lib.ValueIdx

noncomputable section

open scoped BigOperators

namespace Cert.OverlapAdd

open Idealize.ShloMosaic Idealize.ShloMosaic.ValueIdx

/-- Where merged position `j` (window `j / 8`, offset `j % 8`) lands on the folded axis. -/
def land (j : Fin 128) : ℕ := 4 * (j.val / 8) + j.val % 8

theorem land_lt (j : Fin 128) : land j < 68 := by unfold land; omega

/-- One axis overlap-added: entry `a` is the sum of the merged positions that land on `a`. -/
def fold1 (A : Fin 128 → EReal) (a : Fin 68) : EReal :=
  ∑ j ∈ Finset.univ.filter (fun j : Fin 128 => land j = a.val), A j

/-- The accumulation along one axis: start from zero; step `n` adds window `n` (positions 8n … 8n+7 of the
    operand) onto rows 4n … 4n+7 and leaves every other row as it was. -/
def accSeq (A : Fin 128 → EReal) : ℕ → Fin 68 → EReal
  | 0 => fun _ => 0
  | n + 1 => fun a =>
      if h : 4 * n ≤ a.val ∧ a.val < 4 * n + 8 ∧ n < 16 then
        accSeq A n a + A ⟨8 * n + (a.val - 4 * n), by omega⟩
      else accSeq A n a

/-- The three axes overlap-added at once: the sum over the triples of merged positions landing on `(a, b, d)`. -/
def fold3 (X : Fin 128 → Fin 128 → Fin 128 → EReal) (a b d : Fin 68) : EReal :=
  ∑ j ∈ (Finset.univ : Finset (Fin 128 × Fin 128 × Fin 128)).filter
      (fun j => land j.1 = a.val ∧ land j.2.1 = b.val ∧ land j.2.2 = d.val), X j.1 j.2.1 j.2.2

/-- The folded array [1,16,68,68,68] of a merged array [1,16,128,128,128]: batch and channel kept, the three
    spatial axes overlap-added. -/
def out5 (XR : (⟨5, ![1, 16, 128, 128, 128]⟩ : Shape).Idx → EReal) :
    (⟨5, ![1, 16, 68, 68, 68]⟩ : Shape).Idx → EReal :=
  fun i => fold3 (fun j1 j2 j3 => XR (ix5 (i 0) (i 1) j1 j2 j3)) (i 2) (i 3) (i 4)

end Cert.OverlapAdd

end
-- ==== Proof.OverlapAddLaws.lean ====
/-
  Two laws of the one-axis overlap-add sum.

  * `accSeq_sixteen` — adding the sixteen windows one after another onto a zero row reaches the same entry as
    the single sum over the positions landing there: after n windows the accumulated entry is the sum over
    the landing positions whose window index is below n, and window n contributes exactly one new position
    (when 4n ≤ a < 4n + 8) or none.
  * `fold1_nested` — overlap-adding the three axes one at a time is the single sum over landing triples: the
    set of landing triples is a product of three one-axis landing sets, and a sum over a product is an
    iterated sum, in any order.

  Only commutativity and associativity of + and neutrality of 0 are used.
-/
import proofs.«130459_j45174466019398_2_alg».proof.Proof.OverlapAdd

noncomputable section

open scoped BigOperators

namespace Cert.OverlapAdd

/-- After `n ≤ 16` windows the accumulated entry is the sum over the positions landing on `a` whose window
    index is below `n`. -/
theorem accSeq_eq_partial (A : Fin 128 → EReal) (a : Fin 68) (n : ℕ) :
    accSeq A n a
      = ∑ j ∈ Finset.univ.filter (fun j : Fin 128 => land j = a.val ∧ j.val / 8 < n), A j := by
  induction n with
  | zero => simp [accSeq]
  | succ n ih =>
    rw [accSeq]
    beta_reduce
    by_cases h : 4 * n ≤ a.val ∧ a.val < 4 * n + 8 ∧ n < 16
    · rw [dif_pos h, ih]
      -- window n contributes exactly the position 8n + (a − 4n)
      have hset : Finset.univ.filter (fun j : Fin 128 => land j = a.val ∧ j.val / 8 < n + 1)
          = insert (⟨8 * n + (a.val - 4 * n), by omega⟩ : Fin 128)
              (Finset.univ.filter (fun j : Fin 128 => land j = a.val ∧ j.val / 8 < n)) := by
        ext j
        simp only [Finset.mem_filter, Finset.mem_univ, true_and, Finset.mem_insert, Fin.ext_iff]
        unfold land
        omega
      have hnot : (⟨8 * n + (a.val - 4 * n), by omega⟩ : Fin 128)
          ∉ Finset.univ.filter (fun j : Fin 128 => land j = a.val ∧ j.val / 8 < n) := by
        simp only [Finset.mem_filter, Finset.mem_univ, true_and]
        unfold land
        omega
      rw [hset, Finset.sum_insert hnot, add_comm]
    · rw [dif_neg h, ih]
      -- window n does not reach row a
      apply Finset.sum_congr _ (fun _ _ => rfl)
      ext j
      simp only [Finset.mem_filter, Finset.mem_univ, true_and]
      unfold land
      have := j.isLt
      omega

theorem accSeq_sixteen (A : Fin 128 → EReal) (a : Fin 68) : accSeq A 16 a = fold1 A a := by
  rw [accSeq_eq_partial, fold1]
  apply Finset.sum_congr _ (fun _ _ => rfl)
  ext j
  simp only [Finset.mem_filter, Finset.mem_univ, true_and]
  have := j.isLt
  omega

theorem fold1_nested (X : Fin 128 → Fin 128 → Fin 128 → EReal) (a b d : Fin 68) :
    fold1 (fun j3 => fold1 (fun j2 => fold1 (fun j1 => X j1 j2 j3) a) b) d = fold3 X a b d := by
  unfold fold1 fold3
  -- the landing triples form a product of three one-axis landing sets
  have hset : (Finset.univ : Finset (Fin 128 × Fin 128 × Fin 128)).filter
      (fun j => land j.1 = a.val ∧ land j.2.1 = b.val ∧ land j.2.2 = d.val)
      = (Finset.univ.filter (fun j : Fin 128 => land j = a.val)) ×ˢ
        ((Finset.univ.filter (fun j : Fin 128 => land j = b.val)) ×ˢ
         (Finset.univ.filter (fun j : Fin 128 => land j = d.val))) := by
    ext ⟨j1, j2, j3⟩
    simp only [Finset.mem_filter, Finset.mem_univ, true_and, Finset.mem_product]
  rw [hset, Finset.sum_product]
  simp only [Finset.sum_product]
  -- reorder the iterated sum
  calc ∑ j3 ∈ Finset.univ.filter (fun j : Fin 128 => land j = d.val),
        ∑ j2 ∈ Finset.univ.filter (fun j : Fin 128 => land j = b.val),
          ∑ j1 ∈ Finset.univ.filter (fun j : Fin 128 => land j = a.val), X j1 j2 j3
      = ∑ j3 ∈ Finset.univ.filter (fun j : Fin 128 => land j = d.val),
        ∑ j1 ∈ Finset.univ.filter (fun j : Fin 128 => land j = a.val),
          ∑ j2 ∈ Finset.univ.filter (fun j : Fin 128 => land j = b.val), X j1 j2 j3 :=
        Finset.sum_congr rfl (fun _ _ => Finset.sum_comm)
    _ = ∑ j1 ∈ Finset.univ.filter (fun j : Fin 128 => land j = a.val),
        ∑ j3 ∈ Finset.univ.filter (fun j : Fin 128 => land j = d.val),
          ∑ j2 ∈ Finset.univ.filter (fun j : Fin 128 => land j = b.val), X j1 j2 j3 :=
        Finset.sum_comm
    _ = ∑ j1 ∈ Finset.univ.filter (fun j : Fin 128 => land j = a.val),
        ∑ j2 ∈ Finset.univ.filter (fun j : Fin 128 => land j = b.val),
          ∑ j3 ∈ Finset.univ.filter (fun j : Fin 128 => land j = d.val), X j1 j2 j3 :=
        Finset.sum_congr rfl (fun _ _ => Finset.sum_comm)

end Cert.OverlapAdd

end
-- ==== Proof.Fold0Value.lean ====
/-
  Region 0 (the overlap-add along one axis): the value of its result array.

  The result array ends holding axis 1 of the operand overlap-added: entry (ch, a, y, z) is the sum of the operand's
  entries (ch, j, y, z) over the merged positions j = 8·window + offset that land on a = 4·window + offset.

  The road: one accumulation step read at an index (on the rows window w lands on it adds the block's row, off them
  it keeps the accumulator); the input block at an index (channels and merged positions of its point); by induction
  on the point, the accumulator after window w of a channel block holds, at each index, the accumulation of windows
  0 … w of that index's column; after the sixteenth window that accumulation is the one sum over the landing
  positions, which is what the write-back points write; and every index of the result lies in the block of its
  channel block's last window.
-/
import proofs.«130459_j45174466019398_2_alg».proof.Proof.Fold0Frame
import proofs.«130459_j45174466019398_2_alg».proof.Proof.OverlapAddLaws
import Idealize.ShloMosaic.Lib.Pipeline.Value
import Idealize.ShloMosaic.Lib.ValueIdx
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Generic: an overlay through a unit-stride rectangle, at an index; the accumulation's two steps -/

/-- Inside the rectangle the overlay reads the payload at the index's offset within it. -/
theorem overlay_unit_mem0 {s : Shape} {α : Type} {off size : Fin s.rank → Nat} {inb : ∀ a, off a + size a ≤ s.size a}
    (X : s.Idx → α) (G : (Rect.unit off size inb).shape.Idx → α) (y : s.Idx) (j : (Rect.unit off size inb).shape.Idx)
    (h : ∀ a, (y a : Nat) = off a + (j a : Nat)) :
    (Rect.unit off size inb).overlay X G y = G j := by
  have e : (Rect.unit off size inb).emb j = y := by
    funext a; apply Fin.ext; rw [Rect.emb_apply, h a]; simp
  rw [← e, Rect.overlay_emb]

/-- Window `n` reaches row `a`: the accumulated entry gains the window's position landing there. -/
theorem accSeq_succ_in0 (A : Fin 128 → EReal) (n : ℕ) (a : Fin 68) (h : 4 * n ≤ a.val ∧ a.val < 4 * n + 8) (hn : n < 16) :
    Cert.OverlapAdd.accSeq A (n + 1) a = Cert.OverlapAdd.accSeq A n a + A ⟨8 * n + (a.val - 4 * n), by omega⟩ := by
  rw [Cert.OverlapAdd.accSeq]; exact dif_pos ⟨h.1, h.2, hn⟩

/-- Window `n` does not reach row `a`: the accumulated entry is kept. -/
theorem accSeq_succ_out0 (A : Fin 128 → EReal) (n : ℕ) (a : Fin 68) (h : ¬(4 * n ≤ a.val ∧ a.val < 4 * n + 8)) :
    Cert.OverlapAdd.accSeq A (n + 1) a = Cert.OverlapAdd.accSeq A n a := by
  rw [Cert.OverlapAdd.accSeq]; exact dif_neg (fun hh => h ⟨hh.1, hh.2.1⟩)

/-! ## The grid's coordinates and the windows' block indices, decided over the grid -/

/-- Point `t` is (channel block `t / 16`, window `t % 16`); the input's block index is (channel block, window, 0, 0)
    and the output's (channel block, 0, 0, 0). -/
theorem gridFacts0 : ∀ t : Fin cfg0.N, (grid0.coords t 1).val = t.val % 16
    ∧ win0_0.index t (0 : Fin 4) = t.val / 16 ∧ win0_0.index t (1 : Fin 4) = t.val % 16
    ∧ win0_0.index t (2 : Fin 4) = 0 ∧ win0_0.index t (3 : Fin 4) = 0
    ∧ win0_1.index t (0 : Fin 4) = t.val / 16 ∧ win0_1.index t (1 : Fin 4) = 0
    ∧ win0_1.index t (2 : Fin 4) = 0 ∧ win0_1.index t (3 : Fin 4) = 0 :=
  (by decide +kernel : ∀ t : Fin grid0.N, _)

/-! ## One accumulation step, at an index -/

/-- On the rows window `w` lands on, the step adds the block's row `y1 - 4w`. -/
theorem step0_in (i : grid0.Coords) (w : ℕ) (hw : k0_off1 i = ![0, 4 * w, 0, 0])
    (acc : Vec Ideal S2x68x128x128 .f32) (x : Vec Ideal S2x8x128x128 .f32)
    (y0 : Fin 2) (y1 : Fin 68) (y2 y3 : Fin 128) (h : 4 * w ≤ y1.val ∧ y1.val < 4 * w + 8) :
    step0 i acc x (ix4 y0 y1 y2 y3) = acc (ix4 y0 y1 y2 y3) + x (ix4 y0 ⟨y1.val - 4 * w, by omega⟩ y2 y3) := by
  have h0 : k0_off1 i (0 : Fin 4) = 0 := by rw [hw]; rfl
  have h1 : k0_off1 i (1 : Fin 4) = 4 * w := by rw [hw]; rfl
  have h2 : k0_off1 i (2 : Fin 4) = 0 := by rw [hw]; rfl
  have h3 : k0_off1 i (3 : Fin 4) = 0 := by rw [hw]; rfl
  have e : (rWin0 i).emb (ix4 y0 ⟨y1.val - 4 * w, by omega⟩ y2 y3) = ix4 y0 y1 y2 y3 := by
    funext a; apply Fin.ext
    match a with
    | ⟨0, _⟩ => show k0_off1 i (0 : Fin 4) + 1 * y0.val = y0.val; rw [h0]; omega
    | ⟨1, _⟩ => show k0_off1 i (1 : Fin 4) + 1 * (y1.val - 4 * w) = y1.val; rw [h1]; omega
    | ⟨2, _⟩ => show k0_off1 i (2 : Fin 4) + 1 * y2.val = y2.val; rw [h2]; omega
    | ⟨3, _⟩ => show k0_off1 i (3 : Fin 4) + 1 * y3.val = y3.val; rw [h3]; omega
  unfold step0
  rw [← e, Rect.overlay_emb]
  unfold k0_pay2
  simp only [shapeCast_self]
  rw [View.ld_unit_zero Cert.LibOverlay.zeros4]
  rfl

/-- Off them it keeps the accumulator. -/
theorem step0_out (i : grid0.Coords) (w : ℕ) (hw : k0_off1 i = ![0, 4 * w, 0, 0])
    (acc : Vec Ideal S2x68x128x128 .f32) (x : Vec Ideal S2x8x128x128 .f32)
    (y0 : Fin 2) (y1 : Fin 68) (y2 y3 : Fin 128) (h : ¬(4 * w ≤ y1.val ∧ y1.val < 4 * w + 8)) :
    step0 i acc x (ix4 y0 y1 y2 y3) = acc (ix4 y0 y1 y2 y3) := by
  have h1 : k0_off1 i (1 : Fin 4) = 4 * w := by rw [hw]; rfl
  unfold step0
  apply Rect.overlay_of_not_mem
  intro hm
  have hm1 := Rect.mem_set_unit.mp hm (1 : Fin 4)
  rw [h1] at hm1
  exact h hm1

/-- The zero array the first window starts from. -/
theorem pay1_apply0 (y : S2x68x128x128.Idx) : k0_pay1 (F := Ideal) y = 0 := by
  unfold k0_pay1
  simp only [shapeCast_self]
  exact Ideal.ofBits_zero_f32

/-! ## The input block at an index -/

/-- Point `t`'s input block holds channels 2·(t/16) … +1 and positions 8·(t%16) … +7 of the merged axis. -/
theorem blk0_apply (V : (c : Dev nD) → (b : Ref sig .tc) → Buf (Elt Ideal) ((c : Thread nD τ).loc b)) (c : Dev nD)
    (t : Fin cfg0.N) (y0 : Fin 2) (y1 : Fin 8) (y2 y3 : Fin 128)
    (h0 : 2 * (t.val / 16) + y0.val < 16) (h1 : 8 * (t.val % 16) + y1.val < 128) :
    blk0 (F := Ideal) V c 0 t (ix4 y0 y1 y2 y3)
      = V c main_v3 (ix4 ⟨2 * (t.val / 16) + y0.val, h0⟩ ⟨8 * (t.val % 16) + y1.val, h1⟩ y2 y3) := by
  obtain ⟨-, e0, e1, e2, e3, -⟩ := gridFacts0 t
  unfold blk0
  rw [View.read_apply]
  show V c main_v3 _ = V c main_v3 _
  congr 1
  funext a; apply Fin.ext
  match a with
  | ⟨0, _⟩ => show win0_0.index t (0 : Fin 4) * 2 + 1 * y0.val = 2 * (t.val / 16) + y0.val; rw [e0]; omega
  | ⟨1, _⟩ => show win0_0.index t (1 : Fin 4) * 8 + 1 * y1.val = 8 * (t.val % 16) + y1.val; rw [e1]; omega
  | ⟨2, _⟩ => show win0_0.index t (2 : Fin 4) * 128 + 1 * y2.val = y2.val; rw [e2]; omega
  | ⟨3, _⟩ => show win0_0.index t (3 : Fin 4) * 128 + 1 * y3.val = y3.val; rw [e3]; omega

/-! ## The accumulator after each point, at an index -/

/-- After point `n` = (channel block `q`, window `m - 1`) the accumulator's entry is the accumulation of the first
    `m` windows of its column of the merged array. -/
theorem accAt0_apply (V : (c : Dev nD) → (b : Ref sig .tc) → Buf (Elt Ideal) ((c : Thread nD τ).loc b)) (c : Dev nD) :
    ∀ (n : ℕ) (hn : n < cfg0.N) (q m : ℕ), n / 16 = q → n % 16 + 1 = m →
      ∀ (y0 : Fin 2) (y1 : Fin 68) (y2 y3 : Fin 128) (hq : 2 * q + y0.val < 16),
      accAt0 (F := Ideal) V c n hn (ix4 y0 y1 y2 y3)
        = Cert.OverlapAdd.accSeq (fun j => V c main_v3 (ix4 ⟨2 * q + y0.val, hq⟩ j y2 y3)) m y1 := by
  intro n
  induction n using Nat.strong_induction_on with
  | _ n ih =>
    intro hn q m hq hm y0 y1 y2 y3 hq'
    subst hq hm
    have hN : n < 128 := lt_of_lt_of_eq hn N_0
    obtain ⟨ec, -⟩ := gridFacts0 ⟨n, hn⟩
    have hw : k0_off1 (grid0.coords ⟨n, hn⟩) = ![0, 4 * (n % 16), 0, 0] := by rw [k0_off1_eq, ec]
    have hstep : ∀ accPrev : Vec Ideal S2x68x128x128 .f32,
        accPrev (ix4 y0 y1 y2 y3)
          = Cert.OverlapAdd.accSeq (fun j => V c main_v3 (ix4 ⟨2 * (n / 16) + y0.val, hq'⟩ j y2 y3)) (n % 16) y1 →
        step0 (grid0.coords ⟨n, hn⟩) accPrev (blk0 V c 0 ⟨n, hn⟩) (ix4 y0 y1 y2 y3)
          = Cert.OverlapAdd.accSeq (fun j => V c main_v3 (ix4 ⟨2 * (n / 16) + y0.val, hq'⟩ j y2 y3)) (n % 16 + 1) y1 := by
      intro accPrev hp
      by_cases hin : 4 * (n % 16) ≤ y1.val ∧ y1.val < 4 * (n % 16) + 8
      · rw [step0_in _ _ hw _ _ _ _ _ _ hin, accSeq_succ_in0 _ _ _ hin (by omega), hp,
          blk0_apply V c ⟨n, hn⟩ y0 ⟨y1.val - 4 * (n % 16), by omega⟩ y2 y3 hq' (by show 8 * (n % 16) + (y1.val - 4 * (n % 16)) < 128; omega)]
      · rw [step0_out _ _ hw _ _ _ _ _ _ hin, accSeq_succ_out0 _ _ _ hin, hp]
    by_cases h0 : n % 16 = 0
    · rw [show accAt0 V c n hn = _ from accAt0_first V c ⟨n, hn⟩ h0]
      apply hstep
      rw [pay1_apply0, h0]
      rfl
    · rw [show accAt0 V c n hn = _ from accAt0_next V c ⟨n, hn⟩ h0]
      apply hstep
      exact ih (n - 1) (by omega) _ (n / 16) (n % 16) (by omega) (by omega) y0 y1 y2 y3 hq'

/-! ## The result -/

/-- Axis 1 overlap-added, on the arrays' shapes. -/
def foldArr0 (X : S16x128x128x128.Idx → EReal) : S16x68x128x128.Idx → EReal :=
  fun i => Cert.OverlapAdd.fold1 (fun j => X (ix4 (i 0) j (i 2) (i 3))) (i 1)

/-- What a write-back point (the last window of a channel block) writes is its block of the overlap-added array:
    the sixteen windows accumulated are the one sum over the landing positions. -/
theorem flushed0_eq (V : (c : Dev nD) → (b : Ref sig .tc) → Buf (Elt Ideal) ((c : Thread nD τ).loc b)) (c : Dev nD)
    (t : Fin cfg0.N) (hf : (cfg0.win 1).flush t = true) :
    (dat0 (F := Ideal) V c).flushed 1 t = ((cfg0.win 1).blk t).view.read (Elt Ideal) (foldArr0 (V c main_v3)) := by
  have h15 : t.val % 16 = 15 := (flush0_1 t).mp hf
  have hN : t.val < 128 := lt_of_lt_of_eq t.isLt N_0
  obtain ⟨-, -, -, -, -, f0, f1, f2, f3⟩ := gridFacts0 t
  refine funext fun (j : S2x68x128x128.Idx) => ?_
  obtain ⟨y0, y1, y2, y3, rfl⟩ : ∃ (y0 : Fin 2) (y1 : Fin 68) (y2 y3 : Fin 128), j = ix4 y0 y1 y2 y3 :=
    ⟨j 0, j 1, j 2, j 3, eq_ix4 j⟩
  have hy0 : y0.val < 2 := y0.isLt
  have e : ((cfg0.win 1).blk t).view.emb (ix4 y0 y1 y2 y3)
      = (ix4 ⟨2 * (t.val / 16) + y0.val, by omega⟩ y1 y2 y3 : S16x68x128x128.Idx) := by
    funext a; apply Fin.ext
    match a with
    | ⟨0, _⟩ => show win0_1.index t (0 : Fin 4) * 2 + 1 * y0.val = 2 * (t.val / 16) + y0.val; rw [f0]; omega
    | ⟨1, _⟩ => show win0_1.index t (1 : Fin 4) * 68 + 1 * y1.val = y1.val; rw [f1]; omega
    | ⟨2, _⟩ => show win0_1.index t (2 : Fin 4) * 128 + 1 * y2.val = y2.val; rw [f2]; omega
    | ⟨3, _⟩ => show win0_1.index t (3 : Fin 4) * 128 + 1 * y3.val = y3.val; rw [f3]; omega
  rw [View.read_apply]
  show (dat0 V c).after 1 t (ix4 y0 y1 y2 y3) = foldArr0 (V c main_v3) (((cfg0.win 1).blk t).view.emb (ix4 y0 y1 y2 y3))
  rw [e, after0_out,
    accAt0_apply V c t.val t.isLt (t.val / 16) 16 rfl (by omega) y0 y1 y2 y3 (by omega),
    Cert.OverlapAdd.accSeq_sixteen]
  rfl

/-- Every index of the result lies in the block of its channel block's last window. -/
theorem cover0 (i : S16x68x128x128.Idx) :
    ∃ t : Fin cfg0.N, (cfg0.win 1).flush t = true ∧ i ∈ ((cfg0.win 1).blk t).view.set := by
  have hi0 : (i 0).val < 16 := (i 0).isLt
  have hi1 : (i 1).val < 68 := (i 1).isLt
  have hi2 : (i 2).val < 128 := (i 2).isLt
  have hi3 : (i 3).val < 128 := (i 3).isLt
  have hN : 16 * ((i 0).val / 2) + 15 < cfg0.N := lt_of_lt_of_eq (by omega) N_0.symm
  obtain ⟨-, -, -, -, -, f0, f1, f2, f3⟩ := gridFacts0 ⟨16 * ((i 0).val / 2) + 15, hN⟩
  refine ⟨⟨16 * ((i 0).val / 2) + 15, hN⟩, (flush0_1 _).mpr (by show (16 * ((i 0).val / 2) + 15) % 16 = 15; omega), ?_⟩
  show i ∈ ((View.whole main_v4).slice (win0_1.rect ⟨16 * ((i 0).val / 2) + 15, hN⟩)).set
  rw [View.set_slice_whole, Rect.mem_set_unit]
  intro a
  match a with
  | ⟨0, _⟩ =>
    show win0_1.index ⟨16 * ((i 0).val / 2) + 15, hN⟩ (0 : Fin 4) * 2 ≤ (i 0).val
      ∧ (i 0).val < win0_1.index ⟨16 * ((i 0).val / 2) + 15, hN⟩ (0 : Fin 4) * 2 + 2
    rw [f0]; show (16 * ((i 0).val / 2) + 15) / 16 * 2 ≤ (i 0).val ∧ (i 0).val < (16 * ((i 0).val / 2) + 15) / 16 * 2 + 2; omega
  | ⟨1, _⟩ =>
    show win0_1.index ⟨16 * ((i 0).val / 2) + 15, hN⟩ (1 : Fin 4) * 68 ≤ (i 1).val
      ∧ (i 1).val < win0_1.index ⟨16 * ((i 0).val / 2) + 15, hN⟩ (1 : Fin 4) * 68 + 68
    rw [f1]; omega
  | ⟨2, _⟩ =>
    show win0_1.index ⟨16 * ((i 0).val / 2) + 15, hN⟩ (2 : Fin 4) * 128 ≤ (i 2).val
      ∧ (i 2).val < win0_1.index ⟨16 * ((i 0).val / 2) + 15, hN⟩ (2 : Fin 4) * 128 + 128
    rw [f2]; omega
  | ⟨3, _⟩ =>
    show win0_1.index ⟨16 * ((i 0).val / 2) + 15, hN⟩ (3 : Fin 4) * 128 ≤ (i 3).val
      ∧ (i 3).val < win0_1.index ⟨16 * ((i 0).val / 2) + 15, hN⟩ (3 : Fin 4) * 128 + 128
    rw [f3]; omega

/-- The region's result array: axis 1 of its operand overlap-added. -/
theorem out0_value (V : (c : Dev nD) → (b : Ref sig .tc) → Buf (Elt Ideal) ((c : Thread nD τ).loc b)) (c : Dev nD) :
    (dat0 (F := Ideal) V c).arrAt 1 cfg0.N = foldArr0 (V c main_v3) :=
  (dat0 (F := Ideal) V c).arrAt_eq_of_cover 1 (foldArr0 (V c main_v3)) (flushed0_eq V c) cover0

end Cert.KernelIdeal.Fold

end
-- ==== Proof.Fold1Value.lean ====
/-
  Region 1 (the overlap-add along one axis): the value of its result array.

  The result array ends holding axis 1 of the operand overlap-added: entry (ch, a, y, z) is the sum of the operand's
  entries (ch, j, y, z) over the merged positions j = 8·window + offset that land on a = 4·window + offset.

  The road: one accumulation step read at an index (on the rows window w lands on it adds the block's row, off them
  it keeps the accumulator); the input block at an index (channels and merged positions of its point); by induction
  on the point, the accumulator after window w of a channel block holds, at each index, the accumulation of windows
  0 … w of that index's column; after the sixteenth window that accumulation is the one sum over the landing
  positions, which is what the write-back points write; and every index of the result lies in the block of its
  channel block's last window.
-/
import proofs.«130459_j45174466019398_2_alg».proof.Proof.Fold1Frame
import proofs.«130459_j45174466019398_2_alg».proof.Proof.OverlapAddLaws
import Idealize.ShloMosaic.Lib.Pipeline.Value
import Idealize.ShloMosaic.Lib.ValueIdx
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Generic: an overlay through a unit-stride rectangle, at an index; the accumulation's two steps -/

/-- Inside the rectangle the overlay reads the payload at the index's offset within it. -/
theorem overlay_unit_mem1 {s : Shape} {α : Type} {off size : Fin s.rank → Nat} {inb : ∀ a, off a + size a ≤ s.size a}
    (X : s.Idx → α) (G : (Rect.unit off size inb).shape.Idx → α) (y : s.Idx) (j : (Rect.unit off size inb).shape.Idx)
    (h : ∀ a, (y a : Nat) = off a + (j a : Nat)) :
    (Rect.unit off size inb).overlay X G y = G j := by
  have e : (Rect.unit off size inb).emb j = y := by
    funext a; apply Fin.ext; rw [Rect.emb_apply, h a]; simp
  rw [← e, Rect.overlay_emb]

/-- Window `n` reaches row `a`: the accumulated entry gains the window's position landing there. -/
theorem accSeq_succ_in1 (A : Fin 128 → EReal) (n : ℕ) (a : Fin 68) (h : 4 * n ≤ a.val ∧ a.val < 4 * n + 8) (hn : n < 16) :
    Cert.OverlapAdd.accSeq A (n + 1) a = Cert.OverlapAdd.accSeq A n a + A ⟨8 * n + (a.val - 4 * n), by omega⟩ := by
  rw [Cert.OverlapAdd.accSeq]; exact dif_pos ⟨h.1, h.2, hn⟩

/-- Window `n` does not reach row `a`: the accumulated entry is kept. -/
theorem accSeq_succ_out1 (A : Fin 128 → EReal) (n : ℕ) (a : Fin 68) (h : ¬(4 * n ≤ a.val ∧ a.val < 4 * n + 8)) :
    Cert.OverlapAdd.accSeq A (n + 1) a = Cert.OverlapAdd.accSeq A n a := by
  rw [Cert.OverlapAdd.accSeq]; exact dif_neg (fun hh => h ⟨hh.1, hh.2.1⟩)

/-! ## The grid's coordinates and the windows' block indices, decided over the grid -/

/-- Point `t` is (channel block `t / 16`, window `t % 16`); the input's block index is (channel block, window, 0, 0)
    and the output's (channel block, 0, 0, 0). -/
theorem gridFacts1 : ∀ t : Fin cfg1.N, (grid1.coords t 1).val = t.val % 16
    ∧ win1_0.index t (0 : Fin 4) = t.val / 16 ∧ win1_0.index t (1 : Fin 4) = t.val % 16
    ∧ win1_0.index t (2 : Fin 4) = 0 ∧ win1_0.index t (3 : Fin 4) = 0
    ∧ win1_1.index t (0 : Fin 4) = t.val / 16 ∧ win1_1.index t (1 : Fin 4) = 0
    ∧ win1_1.index t (2 : Fin 4) = 0 ∧ win1_1.index t (3 : Fin 4) = 0 :=
  (by decide +kernel : ∀ t : Fin grid1.N, _)

/-! ## One accumulation step, at an index -/

/-- On the rows window `w` lands on, the step adds the block's row `y1 - 4w`. -/
theorem step1_in (i : grid1.Coords) (w : ℕ) (hw : k1_off1 i = ![0, 4 * w, 0, 0])
    (acc : Vec Ideal S4x68x68x128 .f32) (x : Vec Ideal S4x8x68x128 .f32)
    (y0 : Fin 4) (y1 : Fin 68) (y2 : Fin 68) (y3 : Fin 128) (h : 4 * w ≤ y1.val ∧ y1.val < 4 * w + 8) :
    step1 i acc x (ix4 y0 y1 y2 y3) = acc (ix4 y0 y1 y2 y3) + x (ix4 y0 ⟨y1.val - 4 * w, by omega⟩ y2 y3) := by
  have h0 : k1_off1 i (0 : Fin 4) = 0 := by rw [hw]; rfl
  have h1 : k1_off1 i (1 : Fin 4) = 4 * w := by rw [hw]; rfl
  have h2 : k1_off1 i (2 : Fin 4) = 0 := by rw [hw]; rfl
  have h3 : k1_off1 i (3 : Fin 4) = 0 := by rw [hw]; rfl
  have e : (rWin1 i).emb (ix4 y0 ⟨y1.val - 4 * w, by omega⟩ y2 y3) = ix4 y0 y1 y2 y3 := by
    funext a; apply Fin.ext
    match a with
    | ⟨0, _⟩ => show k1_off1 i (0 : Fin 4) + 1 * y0.val = y0.val; rw [h0]; omega
    | ⟨1, _⟩ => show k1_off1 i (1 : Fin 4) + 1 * (y1.val - 4 * w) = y1.val; rw [h1]; omega
    | ⟨2, _⟩ => show k1_off1 i (2 : Fin 4) + 1 * y2.val = y2.val; rw [h2]; omega
    | ⟨3, _⟩ => show k1_off1 i (3 : Fin 4) + 1 * y3.val = y3.val; rw [h3]; omega
  unfold step1
  rw [← e, Rect.overlay_emb]
  unfold k1_pay2
  simp only [shapeCast_self]
  rw [View.ld_unit_zero Cert.LibOverlay.zeros4]
  rfl

/-- Off them it keeps the accumulator. -/
theorem step1_out (i : grid1.Coords) (w : ℕ) (hw : k1_off1 i = ![0, 4 * w, 0, 0])
    (acc : Vec Ideal S4x68x68x128 .f32) (x : Vec Ideal S4x8x68x128 .f32)
    (y0 : Fin 4) (y1 : Fin 68) (y2 : Fin 68) (y3 : Fin 128) (h : ¬(4 * w ≤ y1.val ∧ y1.val < 4 * w + 8)) :
    step1 i acc x (ix4 y0 y1 y2 y3) = acc (ix4 y0 y1 y2 y3) := by
  have h1 : k1_off1 i (1 : Fin 4) = 4 * w := by rw [hw]; rfl
  unfold step1
  apply Rect.overlay_of_not_mem
  intro hm
  have hm1 := Rect.mem_set_unit.mp hm (1 : Fin 4)
  rw [h1] at hm1
  exact h hm1

/-- The zero array the first window starts from. -/
theorem pay1_apply1 (y : S4x68x68x128.Idx) : k1_pay1 (F := Ideal) y = 0 := by
  unfold k1_pay1
  simp only [shapeCast_self]
  exact Ideal.ofBits_zero_f32

/-! ## The input block at an index -/

/-- Point `t`'s input block holds channels 4·(t/16) … +3 and positions 8·(t%16) … +7 of the merged axis. -/
theorem blk1_apply (V : (c : Dev nD) → (b : Ref sig .tc) → Buf (Elt Ideal) ((c : Thread nD τ).loc b)) (c : Dev nD)
    (t : Fin cfg1.N) (y0 : Fin 4) (y1 : Fin 8) (y2 : Fin 68) (y3 : Fin 128)
    (h0 : 4 * (t.val / 16) + y0.val < 16) (h1 : 8 * (t.val % 16) + y1.val < 128) :
    blk1 (F := Ideal) V c 0 t (ix4 y0 y1 y2 y3)
      = V c main_v5 (ix4 ⟨4 * (t.val / 16) + y0.val, h0⟩ ⟨8 * (t.val % 16) + y1.val, h1⟩ y2 y3) := by
  obtain ⟨-, e0, e1, e2, e3, -⟩ := gridFacts1 t
  unfold blk1
  rw [View.read_apply]
  show V c main_v5 _ = V c main_v5 _
  congr 1
  funext a; apply Fin.ext
  match a with
  | ⟨0, _⟩ => show win1_0.index t (0 : Fin 4) * 4 + 1 * y0.val = 4 * (t.val / 16) + y0.val; rw [e0]; omega
  | ⟨1, _⟩ => show win1_0.index t (1 : Fin 4) * 8 + 1 * y1.val = 8 * (t.val % 16) + y1.val; rw [e1]; omega
  | ⟨2, _⟩ => show win1_0.index t (2 : Fin 4) * 68 + 1 * y2.val = y2.val; rw [e2]; omega
  | ⟨3, _⟩ => show win1_0.index t (3 : Fin 4) * 128 + 1 * y3.val = y3.val; rw [e3]; omega

/-! ## The accumulator after each point, at an index -/

/-- After point `n` = (channel block `q`, window `m - 1`) the accumulator's entry is the accumulation of the first
    `m` windows of its column of the merged array. -/
theorem accAt1_apply (V : (c : Dev nD) → (b : Ref sig .tc) → Buf (Elt Ideal) ((c : Thread nD τ).loc b)) (c : Dev nD) :
    ∀ (n : ℕ) (hn : n < cfg1.N) (q m : ℕ), n / 16 = q → n % 16 + 1 = m →
      ∀ (y0 : Fin 4) (y1 : Fin 68) (y2 : Fin 68) (y3 : Fin 128) (hq : 4 * q + y0.val < 16),
      accAt1 (F := Ideal) V c n hn (ix4 y0 y1 y2 y3)
        = Cert.OverlapAdd.accSeq (fun j => V c main_v5 (ix4 ⟨4 * q + y0.val, hq⟩ j y2 y3)) m y1 := by
  intro n
  induction n using Nat.strong_induction_on with
  | _ n ih =>
    intro hn q m hq hm y0 y1 y2 y3 hq'
    subst hq hm
    have hN : n < 64 := lt_of_lt_of_eq hn N_1
    obtain ⟨ec, -⟩ := gridFacts1 ⟨n, hn⟩
    have hw : k1_off1 (grid1.coords ⟨n, hn⟩) = ![0, 4 * (n % 16), 0, 0] := by rw [k1_off1_eq, ec]
    have hstep : ∀ accPrev : Vec Ideal S4x68x68x128 .f32,
        accPrev (ix4 y0 y1 y2 y3)
          = Cert.OverlapAdd.accSeq (fun j => V c main_v5 (ix4 ⟨4 * (n / 16) + y0.val, hq'⟩ j y2 y3)) (n % 16) y1 →
        step1 (grid1.coords ⟨n, hn⟩) accPrev (blk1 V c 0 ⟨n, hn⟩) (ix4 y0 y1 y2 y3)
          = Cert.OverlapAdd.accSeq (fun j => V c main_v5 (ix4 ⟨4 * (n / 16) + y0.val, hq'⟩ j y2 y3)) (n % 16 + 1) y1 := by
      intro accPrev hp
      by_cases hin : 4 * (n % 16) ≤ y1.val ∧ y1.val < 4 * (n % 16) + 8
      · rw [step1_in _ _ hw _ _ _ _ _ _ hin, accSeq_succ_in1 _ _ _ hin (by omega), hp,
          blk1_apply V c ⟨n, hn⟩ y0 ⟨y1.val - 4 * (n % 16), by omega⟩ y2 y3 hq' (by show 8 * (n % 16) + (y1.val - 4 * (n % 16)) < 128; omega)]
      · rw [step1_out _ _ hw _ _ _ _ _ _ hin, accSeq_succ_out1 _ _ _ hin, hp]
    by_cases h0 : n % 16 = 0
    · rw [show accAt1 V c n hn = _ from accAt1_first V c ⟨n, hn⟩ h0]
      apply hstep
      rw [pay1_apply1, h0]
      rfl
    · rw [show accAt1 V c n hn = _ from accAt1_next V c ⟨n, hn⟩ h0]
      apply hstep
      exact ih (n - 1) (by omega) _ (n / 16) (n % 16) (by omega) (by omega) y0 y1 y2 y3 hq'

/-! ## The result -/

/-- Axis 1 overlap-added, on the arrays' shapes. -/
def foldArr1 (X : S16x128x68x128.Idx → EReal) : S16x68x68x128.Idx → EReal :=
  fun i => Cert.OverlapAdd.fold1 (fun j => X (ix4 (i 0) j (i 2) (i 3))) (i 1)

/-- What a write-back point (the last window of a channel block) writes is its block of the overlap-added array:
    the sixteen windows accumulated are the one sum over the landing positions. -/
theorem flushed1_eq (V : (c : Dev nD) → (b : Ref sig .tc) → Buf (Elt Ideal) ((c : Thread nD τ).loc b)) (c : Dev nD)
    (t : Fin cfg1.N) (hf : (cfg1.win 1).flush t = true) :
    (dat1 (F := Ideal) V c).flushed 1 t = ((cfg1.win 1).blk t).view.read (Elt Ideal) (foldArr1 (V c main_v5)) := by
  have h15 : t.val % 16 = 15 := (flush1_1 t).mp hf
  have hN : t.val < 64 := lt_of_lt_of_eq t.isLt N_1
  obtain ⟨-, -, -, -, -, f0, f1, f2, f3⟩ := gridFacts1 t
  refine funext fun (j : S4x68x68x128.Idx) => ?_
  obtain ⟨y0, y1, y2, y3, rfl⟩ : ∃ (y0 : Fin 4) (y1 : Fin 68) (y2 : Fin 68) (y3 : Fin 128), j = ix4 y0 y1 y2 y3 :=
    ⟨j 0, j 1, j 2, j 3, eq_ix4 j⟩
  have hy0 : y0.val < 4 := y0.isLt
  have e : ((cfg1.win 1).blk t).view.emb (ix4 y0 y1 y2 y3)
      = (ix4 ⟨4 * (t.val / 16) + y0.val, by omega⟩ y1 y2 y3 : S16x68x68x128.Idx) := by
    funext a; apply Fin.ext
    match a with
    | ⟨0, _⟩ => show win1_1.index t (0 : Fin 4) * 4 + 1 * y0.val = 4 * (t.val / 16) + y0.val; rw [f0]; omega
    | ⟨1, _⟩ => show win1_1.index t (1 : Fin 4) * 68 + 1 * y1.val = y1.val; rw [f1]; omega
    | ⟨2, _⟩ => show win1_1.index t (2 : Fin 4) * 68 + 1 * y2.val = y2.val; rw [f2]; omega
    | ⟨3, _⟩ => show win1_1.index t (3 : Fin 4) * 128 + 1 * y3.val = y3.val; rw [f3]; omega
  rw [View.read_apply]
  show (dat1 V c).after 1 t (ix4 y0 y1 y2 y3) = foldArr1 (V c main_v5) (((cfg1.win 1).blk t).view.emb (ix4 y0 y1 y2 y3))
  rw [e, after1_out,
    accAt1_apply V c t.val t.isLt (t.val / 16) 16 rfl (by omega) y0 y1 y2 y3 (by omega),
    Cert.OverlapAdd.accSeq_sixteen]
  rfl

/-- Every index of the result lies in the block of its channel block's last window. -/
theorem cover1 (i : S16x68x68x128.Idx) :
    ∃ t : Fin cfg1.N, (cfg1.win 1).flush t = true ∧ i ∈ ((cfg1.win 1).blk t).view.set := by
  have hi0 : (i 0).val < 16 := (i 0).isLt
  have hi1 : (i 1).val < 68 := (i 1).isLt
  have hi2 : (i 2).val < 68 := (i 2).isLt
  have hi3 : (i 3).val < 128 := (i 3).isLt
  have hN : 16 * ((i 0).val / 4) + 15 < cfg1.N := lt_of_lt_of_eq (by omega) N_1.symm
  obtain ⟨-, -, -, -, -, f0, f1, f2, f3⟩ := gridFacts1 ⟨16 * ((i 0).val / 4) + 15, hN⟩
  refine ⟨⟨16 * ((i 0).val / 4) + 15, hN⟩, (flush1_1 _).mpr (by show (16 * ((i 0).val / 4) + 15) % 16 = 15; omega), ?_⟩
  show i ∈ ((View.whole main_v6).slice (win1_1.rect ⟨16 * ((i 0).val / 4) + 15, hN⟩)).set
  rw [View.set_slice_whole, Rect.mem_set_unit]
  intro a
  match a with
  | ⟨0, _⟩ =>
    show win1_1.index ⟨16 * ((i 0).val / 4) + 15, hN⟩ (0 : Fin 4) * 4 ≤ (i 0).val
      ∧ (i 0).val < win1_1.index ⟨16 * ((i 0).val / 4) + 15, hN⟩ (0 : Fin 4) * 4 + 4
    rw [f0]; show (16 * ((i 0).val / 4) + 15) / 16 * 4 ≤ (i 0).val ∧ (i 0).val < (16 * ((i 0).val / 4) + 15) / 16 * 4 + 4; omega
  | ⟨1, _⟩ =>
    show win1_1.index ⟨16 * ((i 0).val / 4) + 15, hN⟩ (1 : Fin 4) * 68 ≤ (i 1).val
      ∧ (i 1).val < win1_1.index ⟨16 * ((i 0).val / 4) + 15, hN⟩ (1 : Fin 4) * 68 + 68
    rw [f1]; omega
  | ⟨2, _⟩ =>
    show win1_1.index ⟨16 * ((i 0).val / 4) + 15, hN⟩ (2 : Fin 4) * 68 ≤ (i 2).val
      ∧ (i 2).val < win1_1.index ⟨16 * ((i 0).val / 4) + 15, hN⟩ (2 : Fin 4) * 68 + 68
    rw [f2]; omega
  | ⟨3, _⟩ =>
    show win1_1.index ⟨16 * ((i 0).val / 4) + 15, hN⟩ (3 : Fin 4) * 128 ≤ (i 3).val
      ∧ (i 3).val < win1_1.index ⟨16 * ((i 0).val / 4) + 15, hN⟩ (3 : Fin 4) * 128 + 128
    rw [f3]; omega

/-- The region's result array: axis 1 of its operand overlap-added. -/
theorem out1_value (V : (c : Dev nD) → (b : Ref sig .tc) → Buf (Elt Ideal) ((c : Thread nD τ).loc b)) (c : Dev nD) :
    (dat1 (F := Ideal) V c).arrAt 1 cfg1.N = foldArr1 (V c main_v5) :=
  (dat1 (F := Ideal) V c).arrAt_eq_of_cover 1 (foldArr1 (V c main_v5)) (flushed1_eq V c) cover1

end Cert.KernelIdeal.Fold

end
-- ==== Proof.Fold2Value.lean ====
/-
  Region 2 (the overlap-add along one axis): the value of its result array.

  The result array ends holding axis 1 of the operand overlap-added: entry (ch, a, y, z) is the sum of the operand's
  entries (ch, j, y, z) over the merged positions j = 8·window + offset that land on a = 4·window + offset.

  The road: one accumulation step read at an index (on the rows window w lands on it adds the block's row, off them
  it keeps the accumulator); the input block at an index (channels and merged positions of its point); by induction
  on the point, the accumulator after window w of a channel block holds, at each index, the accumulation of windows
  0 … w of that index's column; after the sixteenth window that accumulation is the one sum over the landing
  positions, which is what the write-back points write; and every index of the result lies in the block of its
  channel block's last window.
-/
import proofs.«130459_j45174466019398_2_alg».proof.Proof.Fold2Frame
import proofs.«130459_j45174466019398_2_alg».proof.Proof.OverlapAddLaws
import Idealize.ShloMosaic.Lib.Pipeline.Value
import Idealize.ShloMosaic.Lib.ValueIdx
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Generic: an overlay through a unit-stride rectangle, at an index; the accumulation's two steps -/

/-- Inside the rectangle the overlay reads the payload at the index's offset within it. -/
theorem overlay_unit_mem2 {s : Shape} {α : Type} {off size : Fin s.rank → Nat} {inb : ∀ a, off a + size a ≤ s.size a}
    (X : s.Idx → α) (G : (Rect.unit off size inb).shape.Idx → α) (y : s.Idx) (j : (Rect.unit off size inb).shape.Idx)
    (h : ∀ a, (y a : Nat) = off a + (j a : Nat)) :
    (Rect.unit off size inb).overlay X G y = G j := by
  have e : (Rect.unit off size inb).emb j = y := by
    funext a; apply Fin.ext; rw [Rect.emb_apply, h a]; simp
  rw [← e, Rect.overlay_emb]

/-- Window `n` reaches row `a`: the accumulated entry gains the window's position landing there. -/
theorem accSeq_succ_in2 (A : Fin 128 → EReal) (n : ℕ) (a : Fin 68) (h : 4 * n ≤ a.val ∧ a.val < 4 * n + 8) (hn : n < 16) :
    Cert.OverlapAdd.accSeq A (n + 1) a = Cert.OverlapAdd.accSeq A n a + A ⟨8 * n + (a.val - 4 * n), by omega⟩ := by
  rw [Cert.OverlapAdd.accSeq]; exact dif_pos ⟨h.1, h.2, hn⟩

/-- Window `n` does not reach row `a`: the accumulated entry is kept. -/
theorem accSeq_succ_out2 (A : Fin 128 → EReal) (n : ℕ) (a : Fin 68) (h : ¬(4 * n ≤ a.val ∧ a.val < 4 * n + 8)) :
    Cert.OverlapAdd.accSeq A (n + 1) a = Cert.OverlapAdd.accSeq A n a := by
  rw [Cert.OverlapAdd.accSeq]; exact dif_neg (fun hh => h ⟨hh.1, hh.2.1⟩)

/-! ## The grid's coordinates and the windows' block indices, decided over the grid -/

/-- Point `t` is (channel block `t / 16`, window `t % 16`); the input's block index is (channel block, window, 0, 0)
    and the output's (channel block, 0, 0, 0). -/
theorem gridFacts2 : ∀ t : Fin cfg2.N, (grid2.coords t 1).val = t.val % 16
    ∧ win2_0.index t (0 : Fin 4) = t.val / 16 ∧ win2_0.index t (1 : Fin 4) = t.val % 16
    ∧ win2_0.index t (2 : Fin 4) = 0 ∧ win2_0.index t (3 : Fin 4) = 0
    ∧ win2_1.index t (0 : Fin 4) = t.val / 16 ∧ win2_1.index t (1 : Fin 4) = 0
    ∧ win2_1.index t (2 : Fin 4) = 0 ∧ win2_1.index t (3 : Fin 4) = 0 :=
  (by decide +kernel : ∀ t : Fin grid2.N, _)

/-! ## One accumulation step, at an index -/

/-- On the rows window `w` lands on, the step adds the block's row `y1 - 4w`. -/
theorem step2_in (i : grid2.Coords) (w : ℕ) (hw : k2_off1 i = ![0, 4 * w, 0, 0])
    (acc : Vec Ideal S4x68x68x68 .f32) (x : Vec Ideal S4x8x68x68 .f32)
    (y0 : Fin 4) (y1 : Fin 68) (y2 y3 : Fin 68) (h : 4 * w ≤ y1.val ∧ y1.val < 4 * w + 8) :
    step2 i acc x (ix4 y0 y1 y2 y3) = acc (ix4 y0 y1 y2 y3) + x (ix4 y0 ⟨y1.val - 4 * w, by omega⟩ y2 y3) := by
  have h0 : k2_off1 i (0 : Fin 4) = 0 := by rw [hw]; rfl
  have h1 : k2_off1 i (1 : Fin 4) = 4 * w := by rw [hw]; rfl
  have h2 : k2_off1 i (2 : Fin 4) = 0 := by rw [hw]; rfl
  have h3 : k2_off1 i (3 : Fin 4) = 0 := by rw [hw]; rfl
  have e : (rWin2 i).emb (ix4 y0 ⟨y1.val - 4 * w, by omega⟩ y2 y3) = ix4 y0 y1 y2 y3 := by
    funext a; apply Fin.ext
    match a with
    | ⟨0, _⟩ => show k2_off1 i (0 : Fin 4) + 1 * y0.val = y0.val; rw [h0]; omega
    | ⟨1, _⟩ => show k2_off1 i (1 : Fin 4) + 1 * (y1.val - 4 * w) = y1.val; rw [h1]; omega
    | ⟨2, _⟩ => show k2_off1 i (2 : Fin 4) + 1 * y2.val = y2.val; rw [h2]; omega
    | ⟨3, _⟩ => show k2_off1 i (3 : Fin 4) + 1 * y3.val = y3.val; rw [h3]; omega
  unfold step2
  rw [← e, Rect.overlay_emb]
  unfold k2_pay2
  simp only [shapeCast_self]
  rw [View.ld_unit_zero Cert.LibOverlay.zeros4]
  rfl

/-- Off them it keeps the accumulator. -/
theorem step2_out (i : grid2.Coords) (w : ℕ) (hw : k2_off1 i = ![0, 4 * w, 0, 0])
    (acc : Vec Ideal S4x68x68x68 .f32) (x : Vec Ideal S4x8x68x68 .f32)
    (y0 : Fin 4) (y1 : Fin 68) (y2 y3 : Fin 68) (h : ¬(4 * w ≤ y1.val ∧ y1.val < 4 * w + 8)) :
    step2 i acc x (ix4 y0 y1 y2 y3) = acc (ix4 y0 y1 y2 y3) := by
  have h1 : k2_off1 i (1 : Fin 4) = 4 * w := by rw [hw]; rfl
  unfold step2
  apply Rect.overlay_of_not_mem
  intro hm
  have hm1 := Rect.mem_set_unit.mp hm (1 : Fin 4)
  rw [h1] at hm1
  exact h hm1

/-- The zero array the first window starts from. -/
theorem pay1_apply2 (y : S4x68x68x68.Idx) : k2_pay1 (F := Ideal) y = 0 := by
  unfold k2_pay1
  simp only [shapeCast_self]
  exact Ideal.ofBits_zero_f32

/-! ## The input block at an index -/

/-- Point `t`'s input block holds channels 4·(t/16) … +3 and positions 8·(t%16) … +7 of the merged axis. -/
theorem blk2_apply (V : (c : Dev nD) → (b : Ref sig .tc) → Buf (Elt Ideal) ((c : Thread nD τ).loc b)) (c : Dev nD)
    (t : Fin cfg2.N) (y0 : Fin 4) (y1 : Fin 8) (y2 y3 : Fin 68)
    (h0 : 4 * (t.val / 16) + y0.val < 16) (h1 : 8 * (t.val % 16) + y1.val < 128) :
    blk2 (F := Ideal) V c 0 t (ix4 y0 y1 y2 y3)
      = V c main_v7 (ix4 ⟨4 * (t.val / 16) + y0.val, h0⟩ ⟨8 * (t.val % 16) + y1.val, h1⟩ y2 y3) := by
  obtain ⟨-, e0, e1, e2, e3, -⟩ := gridFacts2 t
  unfold blk2
  rw [View.read_apply]
  show V c main_v7 _ = V c main_v7 _
  congr 1
  funext a; apply Fin.ext
  match a with
  | ⟨0, _⟩ => show win2_0.index t (0 : Fin 4) * 4 + 1 * y0.val = 4 * (t.val / 16) + y0.val; rw [e0]; omega
  | ⟨1, _⟩ => show win2_0.index t (1 : Fin 4) * 8 + 1 * y1.val = 8 * (t.val % 16) + y1.val; rw [e1]; omega
  | ⟨2, _⟩ => show win2_0.index t (2 : Fin 4) * 68 + 1 * y2.val = y2.val; rw [e2]; omega
  | ⟨3, _⟩ => show win2_0.index t (3 : Fin 4) * 68 + 1 * y3.val = y3.val; rw [e3]; omega

/-! ## The accumulator after each point, at an index -/

/-- After point `n` = (channel block `q`, window `m - 1`) the accumulator's entry is the accumulation of the first
    `m` windows of its column of the merged array. -/
theorem accAt2_apply (V : (c : Dev nD) → (b : Ref sig .tc) → Buf (Elt Ideal) ((c : Thread nD τ).loc b)) (c : Dev nD) :
    ∀ (n : ℕ) (hn : n < cfg2.N) (q m : ℕ), n / 16 = q → n % 16 + 1 = m →
      ∀ (y0 : Fin 4) (y1 : Fin 68) (y2 y3 : Fin 68) (hq : 4 * q + y0.val < 16),
      accAt2 (F := Ideal) V c n hn (ix4 y0 y1 y2 y3)
        = Cert.OverlapAdd.accSeq (fun j => V c main_v7 (ix4 ⟨4 * q + y0.val, hq⟩ j y2 y3)) m y1 := by
  intro n
  induction n using Nat.strong_induction_on with
  | _ n ih =>
    intro hn q m hq hm y0 y1 y2 y3 hq'
    subst hq hm
    have hN : n < 64 := lt_of_lt_of_eq hn N_2
    obtain ⟨ec, -⟩ := gridFacts2 ⟨n, hn⟩
    have hw : k2_off1 (grid2.coords ⟨n, hn⟩) = ![0, 4 * (n % 16), 0, 0] := by rw [k2_off1_eq, ec]
    have hstep : ∀ accPrev : Vec Ideal S4x68x68x68 .f32,
        accPrev (ix4 y0 y1 y2 y3)
          = Cert.OverlapAdd.accSeq (fun j => V c main_v7 (ix4 ⟨4 * (n / 16) + y0.val, hq'⟩ j y2 y3)) (n % 16) y1 →
        step2 (grid2.coords ⟨n, hn⟩) accPrev (blk2 V c 0 ⟨n, hn⟩) (ix4 y0 y1 y2 y3)
          = Cert.OverlapAdd.accSeq (fun j => V c main_v7 (ix4 ⟨4 * (n / 16) + y0.val, hq'⟩ j y2 y3)) (n % 16 + 1) y1 := by
      intro accPrev hp
      by_cases hin : 4 * (n % 16) ≤ y1.val ∧ y1.val < 4 * (n % 16) + 8
      · rw [step2_in _ _ hw _ _ _ _ _ _ hin, accSeq_succ_in2 _ _ _ hin (by omega), hp,
          blk2_apply V c ⟨n, hn⟩ y0 ⟨y1.val - 4 * (n % 16), by omega⟩ y2 y3 hq' (by show 8 * (n % 16) + (y1.val - 4 * (n % 16)) < 128; omega)]
      · rw [step2_out _ _ hw _ _ _ _ _ _ hin, accSeq_succ_out2 _ _ _ hin, hp]
    by_cases h0 : n % 16 = 0
    · rw [show accAt2 V c n hn = _ from accAt2_first V c ⟨n, hn⟩ h0]
      apply hstep
      rw [pay1_apply2, h0]
      rfl
    · rw [show accAt2 V c n hn = _ from accAt2_next V c ⟨n, hn⟩ h0]
      apply hstep
      exact ih (n - 1) (by omega) _ (n / 16) (n % 16) (by omega) (by omega) y0 y1 y2 y3 hq'

/-! ## The result -/

/-- Axis 1 overlap-added, on the arrays' shapes. -/
def foldArr2 (X : S16x128x68x68.Idx → EReal) : S16x68x68x68.Idx → EReal :=
  fun i => Cert.OverlapAdd.fold1 (fun j => X (ix4 (i 0) j (i 2) (i 3))) (i 1)

/-- What a write-back point (the last window of a channel block) writes is its block of the overlap-added array:
    the sixteen windows accumulated are the one sum over the landing positions. -/
theorem flushed2_eq (V : (c : Dev nD) → (b : Ref sig .tc) → Buf (Elt Ideal) ((c : Thread nD τ).loc b)) (c : Dev nD)
    (t : Fin cfg2.N) (hf : (cfg2.win 1).flush t = true) :
    (dat2 (F := Ideal) V c).flushed 1 t = ((cfg2.win 1).blk t).view.read (Elt Ideal) (foldArr2 (V c main_v7)) := by
  have h15 : t.val % 16 = 15 := (flush2_1 t).mp hf
  have hN : t.val < 64 := lt_of_lt_of_eq t.isLt N_2
  obtain ⟨-, -, -, -, -, f0, f1, f2, f3⟩ := gridFacts2 t
  refine funext fun (j : S4x68x68x68.Idx) => ?_
  obtain ⟨y0, y1, y2, y3, rfl⟩ : ∃ (y0 : Fin 4) (y1 : Fin 68) (y2 y3 : Fin 68), j = ix4 y0 y1 y2 y3 :=
    ⟨j 0, j 1, j 2, j 3, eq_ix4 j⟩
  have hy0 : y0.val < 4 := y0.isLt
  have e : ((cfg2.win 1).blk t).view.emb (ix4 y0 y1 y2 y3)
      = (ix4 ⟨4 * (t.val / 16) + y0.val, by omega⟩ y1 y2 y3 : S16x68x68x68.Idx) := by
    funext a; apply Fin.ext
    match a with
    | ⟨0, _⟩ => show win2_1.index t (0 : Fin 4) * 4 + 1 * y0.val = 4 * (t.val / 16) + y0.val; rw [f0]; omega
    | ⟨1, _⟩ => show win2_1.index t (1 : Fin 4) * 68 + 1 * y1.val = y1.val; rw [f1]; omega
    | ⟨2, _⟩ => show win2_1.index t (2 : Fin 4) * 68 + 1 * y2.val = y2.val; rw [f2]; omega
    | ⟨3, _⟩ => show win2_1.index t (3 : Fin 4) * 68 + 1 * y3.val = y3.val; rw [f3]; omega
  rw [View.read_apply]
  show (dat2 V c).after 1 t (ix4 y0 y1 y2 y3) = foldArr2 (V c main_v7) (((cfg2.win 1).blk t).view.emb (ix4 y0 y1 y2 y3))
  rw [e, after2_out,
    accAt2_apply V c t.val t.isLt (t.val / 16) 16 rfl (by omega) y0 y1 y2 y3 (by omega),
    Cert.OverlapAdd.accSeq_sixteen]
  rfl

/-- Every index of the result lies in the block of its channel block's last window. -/
theorem cover2 (i : S16x68x68x68.Idx) :
    ∃ t : Fin cfg2.N, (cfg2.win 1).flush t = true ∧ i ∈ ((cfg2.win 1).blk t).view.set := by
  have hi0 : (i 0).val < 16 := (i 0).isLt
  have hi1 : (i 1).val < 68 := (i 1).isLt
  have hi2 : (i 2).val < 68 := (i 2).isLt
  have hi3 : (i 3).val < 68 := (i 3).isLt
  have hN : 16 * ((i 0).val / 4) + 15 < cfg2.N := lt_of_lt_of_eq (by omega) N_2.symm
  obtain ⟨-, -, -, -, -, f0, f1, f2, f3⟩ := gridFacts2 ⟨16 * ((i 0).val / 4) + 15, hN⟩
  refine ⟨⟨16 * ((i 0).val / 4) + 15, hN⟩, (flush2_1 _).mpr (by show (16 * ((i 0).val / 4) + 15) % 16 = 15; omega), ?_⟩
  show i ∈ ((View.whole main_v8).slice (win2_1.rect ⟨16 * ((i 0).val / 4) + 15, hN⟩)).set
  rw [View.set_slice_whole, Rect.mem_set_unit]
  intro a
  match a with
  | ⟨0, _⟩ =>
    show win2_1.index ⟨16 * ((i 0).val / 4) + 15, hN⟩ (0 : Fin 4) * 4 ≤ (i 0).val
      ∧ (i 0).val < win2_1.index ⟨16 * ((i 0).val / 4) + 15, hN⟩ (0 : Fin 4) * 4 + 4
    rw [f0]; show (16 * ((i 0).val / 4) + 15) / 16 * 4 ≤ (i 0).val ∧ (i 0).val < (16 * ((i 0).val / 4) + 15) / 16 * 4 + 4; omega
  | ⟨1, _⟩ =>
    show win2_1.index ⟨16 * ((i 0).val / 4) + 15, hN⟩ (1 : Fin 4) * 68 ≤ (i 1).val
      ∧ (i 1).val < win2_1.index ⟨16 * ((i 0).val / 4) + 15, hN⟩ (1 : Fin 4) * 68 + 68
    rw [f1]; omega
  | ⟨2, _⟩ =>
    show win2_1.index ⟨16 * ((i 0).val / 4) + 15, hN⟩ (2 : Fin 4) * 68 ≤ (i 2).val
      ∧ (i 2).val < win2_1.index ⟨16 * ((i 0).val / 4) + 15, hN⟩ (2 : Fin 4) * 68 + 68
    rw [f2]; omega
  | ⟨3, _⟩ =>
    show win2_1.index ⟨16 * ((i 0).val / 4) + 15, hN⟩ (3 : Fin 4) * 68 ≤ (i 3).val
      ∧ (i 3).val < win2_1.index ⟨16 * ((i 0).val / 4) + 15, hN⟩ (3 : Fin 4) * 68 + 68
    rw [f3]; omega

/-- The region's result array: axis 1 of its operand overlap-added. -/
theorem out2_value (V : (c : Dev nD) → (b : Ref sig .tc) → Buf (Elt Ideal) ((c : Thread nD τ).loc b)) (c : Dev nD) :
    (dat2 (F := Ideal) V c).arrAt 1 cfg2.N = foldArr2 (V c main_v7) :=
  (dat2 (F := Ideal) V c).arrAt_eq_of_cover 1 (foldArr2 (V c main_v7)) (flushed2_eq V c) cover2

end Cert.KernelIdeal.Fold

end
-- ==== Proof.OverlapAddChain.lean ====
/-
  The kernel's road from the merged array to the result, as arrays: drop the unit batch axis, overlap-add axis 1,
  swap axes 1 and 2, overlap-add axis 1, swap axes 1 and 3, overlap-add axis 1, move axis 1 last, put the batch
  axis back. Read at the entry (0, c, a, b, d) each swap only renames coordinates, so the result is the first axis
  folded at a, inside the second folded at b, inside the third folded at d — the nested single-axis sums, which are
  the one sum over triples (`fold1_nested`): `out5` of the merged array.
-/
import proofs.«130459_j45174466019398_2_alg».proof.Proof.OverlapAddLaws
import Idealize.ShloMosaic.Lib.Pipeline.Value
import Idealize.ShloMosaic.Lib.ValueIdx

noncomputable section

open scoped BigOperators

namespace Cert.OverlapAdd

open Idealize.ShloMosaic Idealize.ShloMosaic.ValueIdx

/-- Axis 1 of a rank-4 array overlap-added: [C,128,P,Q] to [C,68,P,Q]. -/
def foldAxis1 {C P Q : ℕ} (X : (⟨4, ![C, 128, P, Q]⟩ : Shape).Idx → EReal) : (⟨4, ![C, 68, P, Q]⟩ : Shape).Idx → EReal :=
  fun i => fold1 (fun j => X (ix4 (i 0) j (i 2) (i 3))) (i 1)

theorem foldAxis1_apply {C P Q : ℕ} (X : (⟨4, ![C, 128, P, Q]⟩ : Shape).Idx → EReal) (c : Fin C) (a : Fin 68) (p : Fin P) (q : Fin Q) :
    foldAxis1 X (ix4 c a p q) = fold1 (fun j => X (ix4 c j p q)) a := rfl

section Layout
variable {α : Type}

/-- Moving axis 1 last: entry (c, a, b, d) of the result is entry (c, d, a, b) of the operand. -/
theorem move1last_apply (X : (⟨4, ![16, 68, 68, 68]⟩ : Shape).Idx → α)
    (h : (⟨4, ![16, 68, 68, 68]⟩ : Shape).Transposes [0, 2, 3, 1] ⟨4, ![16, 68, 68, 68]⟩) (c : Fin 16) (a b d : Fin 68) :
    transpose ⟨4, ![16, 68, 68, 68]⟩ [0, 2, 3, 1] X h (ix4 c a b d) = X (ix4 c d a b) :=
  transpose_apply _ X h _ (ix4 c d a b) fun e => by
    match e with
    | ⟨0, _⟩ => rfl
    | ⟨1, _⟩ => rfl
    | ⟨2, _⟩ => rfl
    | ⟨3, _⟩ => rfl

/-- Swapping axes 1 and 3: entry (c, j, a, b) of the result is entry (c, b, a, j) of the operand. -/
theorem swap13_apply (X : (⟨4, ![16, 68, 68, 128]⟩ : Shape).Idx → α)
    (h : (⟨4, ![16, 68, 68, 128]⟩ : Shape).Transposes [0, 3, 2, 1] ⟨4, ![16, 128, 68, 68]⟩) (c : Fin 16) (j : Fin 128) (a b : Fin 68) :
    transpose ⟨4, ![16, 128, 68, 68]⟩ [0, 3, 2, 1] X h (ix4 c j a b) = X (ix4 c b a j) :=
  transpose_apply _ X h _ (ix4 c b a j) fun e => by
    match e with
    | ⟨0, _⟩ => rfl
    | ⟨1, _⟩ => rfl
    | ⟨2, _⟩ => rfl
    | ⟨3, _⟩ => rfl

/-- Swapping axes 1 and 2: entry (c, j, a, q) of the result is entry (c, a, j, q) of the operand. -/
theorem swap12_apply (X : (⟨4, ![16, 68, 128, 128]⟩ : Shape).Idx → α)
    (h : (⟨4, ![16, 68, 128, 128]⟩ : Shape).Transposes [0, 2, 1, 3] ⟨4, ![16, 128, 68, 128]⟩) (c : Fin 16) (j : Fin 128) (a : Fin 68) (q : Fin 128) :
    transpose ⟨4, ![16, 128, 68, 128]⟩ [0, 2, 1, 3] X h (ix4 c j a q) = X (ix4 c a j q) :=
  transpose_apply _ X h _ (ix4 c a j q) fun e => by
    match e with
    | ⟨0, _⟩ => rfl
    | ⟨1, _⟩ => rfl
    | ⟨2, _⟩ => rfl
    | ⟨3, _⟩ => rfl

/-- Dropping the unit batch axis. -/
theorem dropBatch_apply (X : (⟨5, ![1, 16, 128, 128, 128]⟩ : Shape).Idx → α)
    (h : (⟨5, ![1, 16, 128, 128, 128]⟩ : Shape).ShapeCasts ⟨4, ![16, 128, 128, 128]⟩) (c : Fin 16) (j1 j2 j3 : Fin 128) :
    shapeCast ⟨4, ![16, 128, 128, 128]⟩ X h (ix4 c j1 j2 j3) = X (ix5 (0 : Fin 1) c j1 j2 j3) := by
  rw [shapeCast_dropUnit_apply]
  refine congrArg X (funext fun e => ?_)
  match e with
  | ⟨0, _⟩ => rfl
  | ⟨1, _⟩ => rfl
  | ⟨2, _⟩ => rfl
  | ⟨3, _⟩ => rfl
  | ⟨4, _⟩ => rfl

/-- Putting the unit batch axis back. -/
theorem addBatch_apply (Y : (⟨4, ![16, 68, 68, 68]⟩ : Shape).Idx → α)
    (h : (⟨4, ![16, 68, 68, 68]⟩ : Shape).ShapeCasts ⟨5, ![1, 16, 68, 68, 68]⟩) (z : Fin 1) (c : Fin 16) (a b d : Fin 68) :
    shapeCast ⟨5, ![1, 16, 68, 68, 68]⟩ Y h (ix5 z c a b d) = Y (ix4 c a b d) := by
  rw [shapeCast_addUnit_apply]
  refine congrArg Y (funext fun e => ?_)
  match e with
  | ⟨0, _⟩ => rfl
  | ⟨1, _⟩ => rfl
  | ⟨2, _⟩ => rfl
  | ⟨3, _⟩ => rfl

end Layout

/-- The kernel's chain of layout changes and single-axis overlap-adds is the three-axis overlap-add. -/
theorem chain_eq (XR : (⟨5, ![1, 16, 128, 128, 128]⟩ : Shape).Idx → EReal)
    (h0 : (⟨5, ![1, 16, 128, 128, 128]⟩ : Shape).ShapeCasts ⟨4, ![16, 128, 128, 128]⟩)
    (h1 : (⟨4, ![16, 68, 128, 128]⟩ : Shape).Transposes [0, 2, 1, 3] ⟨4, ![16, 128, 68, 128]⟩)
    (h2 : (⟨4, ![16, 68, 68, 128]⟩ : Shape).Transposes [0, 3, 2, 1] ⟨4, ![16, 128, 68, 68]⟩)
    (h3 : (⟨4, ![16, 68, 68, 68]⟩ : Shape).Transposes [0, 2, 3, 1] ⟨4, ![16, 68, 68, 68]⟩)
    (h4 : (⟨4, ![16, 68, 68, 68]⟩ : Shape).ShapeCasts ⟨5, ![1, 16, 68, 68, 68]⟩) :
    shapeCast ⟨5, ![1, 16, 68, 68, 68]⟩ (transpose ⟨4, ![16, 68, 68, 68]⟩ [0, 2, 3, 1]
      (foldAxis1 (transpose ⟨4, ![16, 128, 68, 68]⟩ [0, 3, 2, 1]
        (foldAxis1 (transpose ⟨4, ![16, 128, 68, 128]⟩ [0, 2, 1, 3]
          (foldAxis1 (shapeCast ⟨4, ![16, 128, 128, 128]⟩ XR h0)) h1)) h2)) h3) h4
      = out5 XR := by
  funext i
  obtain ⟨z, c, a, b, d, rfl⟩ : ∃ (z : Fin 1) (c : Fin 16) (a b d : Fin 68), i = ix5 z c a b d :=
    ⟨i 0, i 1, i 2, i 3, i 4, eq_ix5 i⟩
  have hz : z = 0 := Subsingleton.elim _ _
  subst hz
  rw [addBatch_apply, move1last_apply, foldAxis1_apply]
  refine (congrArg (fun A => fold1 A d) (funext fun j3 => ?_)).trans
    (fold1_nested (fun j1 j2 j3 => XR (ix5 (0 : Fin 1) c j1 j2 j3)) a b d)
  rw [swap13_apply, foldAxis1_apply]
  refine congrArg (fun A => fold1 A b) (funext fun j2 => ?_)
  rw [swap12_apply, foldAxis1_apply]
  refine congrArg (fun A => fold1 A a) (funext fun j1 => ?_)
  rw [dropBatch_apply]

end Cert.OverlapAdd

end
-- ==== Proof.KernelValue.lean ====
/-
  What the idealized kernel's program leaves in its result buffer, as a function of its argument.

  Between the regions the contents are read off the stretches of host operations: the first stretch writes the merged
  array (a reshape, a transpose and a reshape of the argument) and drops its unit batch axis; after each region its
  output array is the overlap-add along axis 1 of the array it was entered with; the stretches in between swap axes;
  the last moves axis 1 to the end and puts the batch axis back. Composed, this is the chain of
  `Cert.OverlapAdd.chain_eq`: the three-axis overlap-add `out5` of the merged array.
-/
import proofs.«130459_j45174466019398_2_alg».proof.Proof.FoldProgram
import proofs.«130459_j45174466019398_2_alg».proof.Proof.Fold0Value
import proofs.«130459_j45174466019398_2_alg».proof.Proof.Fold1Value
import proofs.«130459_j45174466019398_2_alg».proof.Proof.Fold2Value
import proofs.«130459_j45174466019398_2_alg».proof.Proof.OverlapAddChain
import Idealize.ShloMosaic.Lib.StableHlo.Run

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The merged array [1,16,128,128,128] the first stretch computes from the argument. -/
def merged (x : FVec Ideal S1x16x8x8x8x4096 .f32) : FVec Ideal S1x16x128x128x128 .f32 :=
  shapeCast S1x16x128x128x128
    (transpose S1x16x16x8x16x8x16x8 [0, 1, 5, 2, 6, 3, 7, 4]
      (shapeCast S1x16x8x8x8x16x16x16 x shapeCasts_S1x16x8x8x8x4096_S1x16x8x8x8x16x16x16)
      transposes_S1x16x8x8x8x16x16x16_S1x16x16x8x16x8x16x8_0_1_5_2_6_3_7_4)
    shapeCasts_S1x16x16x8x16x8x16x8_S1x16x128x128x128

/-- Region 0 is entered with the merged array, its batch axis dropped. -/
theorem entry0 (c : Dev nD) :
    (in0 m c main_v3 : S16x128x128x128.Idx → EReal)
      = shapeCast S16x128x128x128 (merged (m ((c : Thread nD τ).loc main_arg0))) shapeCasts_S1x16x128x128x128_S16x128x128x128 := by
  show StableHlo.after hostOps0 (at0 m c) (Proc.devRef .tc main_v3) = _
  after_results; rfl

/-- Region 1 is entered with region 0's output, axes 1 and 2 swapped. -/
theorem entry1 (c : Dev nD) :
    (in1 m c main_v5 : S16x128x68x128.Idx → EReal)
      = transpose S16x128x68x128 [0, 2, 1, 3] (at2 m c (Proc.devRef .tc main_v4) : S16x68x128x128.Idx → EReal) transposes_S16x68x128x128_S16x128x68x128_0_2_1_3 := by
  show StableHlo.after hostOps1 (at2 m c) (Proc.devRef .tc main_v5) = _
  after_results

/-- Region 2 is entered with region 1's output, axes 1 and 3 swapped. -/
theorem entry2 (c : Dev nD) :
    (in2 m c main_v7 : S16x128x68x68.Idx → EReal)
      = transpose S16x128x68x68 [0, 3, 2, 1] (at4 m c (Proc.devRef .tc main_v6) : S16x68x68x128.Idx → EReal) transposes_S16x68x68x128_S16x128x68x68_0_3_2_1 := by
  show StableHlo.after hostOps2 (at4 m c) (Proc.devRef .tc main_v7) = _
  after_results

/-- The result buffer: region 2's output with axis 1 moved last and the batch axis put back. -/
theorem result_of_out2 (c : Dev nD) :
    (at7 m c (Proc.devRef .tc main_v10) : S1x16x68x68x68.Idx → EReal)
      = shapeCast S1x16x68x68x68
          (transpose S16x68x68x68 [0, 2, 3, 1] (at6 m c (Proc.devRef .tc main_v8) : S16x68x68x68.Idx → EReal) transposes_S16x68x68x68_S16x68x68x68_0_2_3_1)
          shapeCasts_S16x68x68x68_S1x16x68x68x68 := by
  show StableHlo.after hostOps3 (at6 m c) (Proc.devRef .tc main_v10) = _
  after_results; rfl

/-- Each region's output array is the overlap-add of what it was entered with. -/
theorem out0 (c : Dev nD) : (at2 m c (Proc.devRef .tc main_v4) : S16x68x128x128.Idx → EReal) = foldArr0 (in0 m c main_v3) :=
  (at2_arr m c 1).trans (out0_value (in0 m) c)
theorem out1 (c : Dev nD) : (at4 m c (Proc.devRef .tc main_v6) : S16x68x68x128.Idx → EReal) = foldArr1 (in1 m c main_v5) :=
  (at4_arr m c 1).trans (out1_value (in1 m) c)
theorem out2 (c : Dev nD) : (at6 m c (Proc.devRef .tc main_v8) : S16x68x68x68.Idx → EReal) = foldArr2 (in2 m c main_v7) :=
  (at6_arr m c 1).trans (out2_value (in2 m) c)

/-- THE VALUE: the result buffer ends at the three-axis overlap-add of the merged array. -/
theorem result_value (c : Dev nD) :
    (at7 m c (Proc.devRef .tc main_v10) : S1x16x68x68x68.Idx → EReal)
      = Cert.OverlapAdd.out5 (merged (m ((c : Thread nD τ).loc main_arg0))) := by
  rw [result_of_out2, out2, entry2, out1, entry1, out0, entry0]
  exact Cert.OverlapAdd.chain_eq _ _ _ _ _ _

end Cert.KernelIdeal.Fold

end
-- ==== Proof.RefScatter.lean ====
/-
  The reference's scatter-add read at an index: it is `Cert.OverlapAdd.out5` of the merged array.

  The scatter adds, onto an array of zeros [1,16,68,68,68], every element of the merged array [1,16,128,128,128]
  at the place its start index names. The start index of the element at (a, b, c, d, e) has the three components
  land c, land d, land e (land j = 4·(j / 8) + j % 8, built by the program from two iotas), batch and channel are
  window axes and keep their coordinates. So the element lands on (a, b, land c, land d, land e), always inside
  the operand, and the result at i is the sum of the merged array over the triples of positions landing on
  (i 2, i 3, i 4), at batch i 0 and channel i 1: the three-axis overlap-add.
-/
import proofs.«130459_j45174466019398_2_alg».proof.Proof.Gen.ReferenceIdeal.Read
import proofs.«130459_j45174466019398_2_alg».proof.Proof.OverlapAdd
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Cert.OverlapAdd

/-- An update index lands on the operand index whose every coordinate is start plus window coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    constructor
    · intro he a
      have he' := Option.some.inj he
      have := congrArg (fun f => (f a).val) he'
      simp only at this
      have h0 := (h a).1
      omega
    · intro hall
      congr 1
      funext a
      apply Fin.ext
      show (d.start j idx a + (d.window j a : Int)).toNat = (i a).val
      rw [hall a]; exact Int.toNat_natCast _
  · next h =>
    constructor
    · intro he; cases he
    · intro hall
      exfalso; apply h; intro a
      rw [hall a]
      exact ⟨Int.natCast_nonneg _, by exact_mod_cast (i a).isLt⟩

abbrev sd := scatter_S1x16x68x68x68_S128x128x128x3_S1x16x128x128x128_01_234_234_3

section
variable {w : Nat} (a : Fin 1) (b : Fin 16) (c d e : Fin 128) (idx : IVec S128x128x128x3 w)

theorem start0 : sd.start (ix5 a b c d e) idx 0 = 0 := by
  unfold ScatterDims.start; rw [dif_neg (by decide)]
theorem start1 : sd.start (ix5 a b c d e) idx 1 = 0 := by
  unfold ScatterDims.start; rw [dif_neg (by decide)]
theorem start2 : sd.start (ix5 a b c d e) idx 2 = (idx (ix4 c d e 0)).toInt := by
  unfold ScatterDims.start; rw [dif_pos (by decide)]
  congr 2
  funext k
  match k with
  | ⟨0, _⟩ => rfl
  | ⟨1, _⟩ => rfl
  | ⟨2, _⟩ => rfl
  | ⟨3, _⟩ => rfl
theorem start3 : sd.start (ix5 a b c d e) idx 3 = (idx (ix4 c d e 1)).toInt := by
  unfold ScatterDims.start; rw [dif_pos (by decide)]
  congr 2
  funext k
  match k with
  | ⟨0, _⟩ => rfl
  | ⟨1, _⟩ => rfl
  | ⟨2, _⟩ => rfl
  | ⟨3, _⟩ => rfl
theorem start4 : sd.start (ix5 a b c d e) idx 4 = (idx (ix4 c d e 2)).toInt := by
  unfold ScatterDims.start; rw [dif_pos (by decide)]
  congr 2
  funext k
  match k with
  | ⟨0, _⟩ => rfl
  | ⟨1, _⟩ => rfl
  | ⟨2, _⟩ => rfl
  | ⟨3, _⟩ => rfl
theorem window0 : sd.window (ix5 a b c d e) 0 = a.val := by
  unfold ScatterDims.window; rw [dif_pos (by decide)]; rfl
theorem window1 : sd.window (ix5 a b c d e) 1 = b.val := by
  unfold ScatterDims.window; rw [dif_pos (by decide)]; rfl
theorem window2 : sd.window (ix5 a b c d e) 2 = 0 := by
  unfold ScatterDims.window; rw [dif_neg (by decide)]
theorem window3 : sd.window (ix5 a b c d e) 3 = 0 := by
  unfold ScatterDims.window; rw [dif_neg (by decide)]
theorem window4 : sd.window (ix5 a b c d e) 4 = 0 := by
  unfold ScatterDims.window; rw [dif_neg (by decide)]

/-- The update at (a, b, c, d, e) lands on i exactly when i keeps batch and channel and its three spatial
    coordinates are the three start-index components read at (c, d, e). -/
theorem lands_iff (i : S1x16x68x68x68.Idx) :
    sd.resultIdx? (ix5 a b c d e) idx = some i ↔
      (i 0).val = a.val ∧ (i 1).val = b.val ∧ (idx (ix4 c d e 0)).toInt = ((i 2).val : Int)
        ∧ (idx (ix4 c d e 1)).toInt = ((i 3).val : Int) ∧ (idx (ix4 c d e 2)).toInt = ((i 4).val : Int) := by
  rw [resultIdx?_eq_some_iff]
  constructor
  · intro h
    have h0 := h 0; have h1 := h 1; have h2 := h 2; have h3 := h 3; have h4 := h 4
    rw [start0, window0] at h0
    rw [start1, window1] at h1
    rw [start2, window2] at h2
    rw [start3, window3] at h3
    rw [start4, window4] at h4
    refine ⟨by omega, by omega, by simpa using h2, by simpa using h3, by simpa using h4⟩
  · rintro ⟨h0, h1, h2, h3, h4⟩ k
    match k with
    | ⟨0, _⟩ => show sd.start (ix5 a b c d e) idx 0 + (sd.window (ix5 a b c d e) 0 : Int) = (((i 0).val : Nat) : Int); rw [start0, window0]; omega
    | ⟨1, _⟩ => show sd.start (ix5 a b c d e) idx 1 + (sd.window (ix5 a b c d e) 1 : Int) = (((i 1).val : Nat) : Int); rw [start1, window1]; omega
    | ⟨2, _⟩ => show sd.start (ix5 a b c d e) idx 2 + (sd.window (ix5 a b c d e) 2 : Int) = (((i 2).val : Nat) : Int); rw [start2, window2, h2]; simp
    | ⟨3, _⟩ => show sd.start (ix5 a b c d e) idx 3 + (sd.window (ix5 a b c d e) 3 : Int) = (((i 3).val : Nat) : Int); rw [start3, window3, h3]; simp
    | ⟨4, _⟩ => show sd.start (ix5 a b c d e) idx 4 + (sd.window (ix5 a b c d e) 4 : Int) = (((i 4).val : Nat) : Int); rw [start4, window4, h4]; simp
end

/-- The updates landing on i, summed: re-indexed from the merged array's indices to the triples of spatial
    positions (batch and channel are forced to i's). -/
theorem sum_lands (XR : S1x16x128x128x128.Idx → EReal) (i : S1x16x68x68x68.Idx)
    (P : S1x16x128x128x128.Idx → Prop) [DecidablePred P]
    (hP : ∀ (a : Fin 1) (b : Fin 16) (c d e : Fin 128), P (ix5 a b c d e) ↔
      (i 0).val = a.val ∧ (i 1).val = b.val ∧ land c = (i 2).val ∧ land d = (i 3).val ∧ land e = (i 4).val) :
    ∑ j ∈ Finset.univ.filter P, XR j = out5 XR i := by
  unfold out5 fold3
  refine Finset.sum_bij' (fun j _ => ((j 2 : Fin 128), (j 3 : Fin 128), (j 4 : Fin 128)))
    (fun t _ => ix5 (i 0) (i 1) t.1 t.2.1 t.2.2) ?_ ?_ ?_ ?_ ?_
  · intro j hj
    obtain ⟨a, b, c, d, e, rfl⟩ : ∃ a b c d e, j = ix5 a b c d e := ⟨_, _, _, _, _, eq_ix5 j⟩
    have h := (hP a b c d e).1 (Finset.mem_filter.1 hj).2
    exact Finset.mem_filter.2 ⟨Finset.mem_univ _, h.2.2.1, h.2.2.2.1, h.2.2.2.2⟩
  · intro t ht
    have h := (Finset.mem_filter.1 ht).2
    exact Finset.mem_filter.2 ⟨Finset.mem_univ _, (hP (i 0) (i 1) t.1 t.2.1 t.2.2).2 ⟨rfl, rfl, h.1, h.2.1, h.2.2⟩⟩
  · intro j hj
    obtain ⟨a, b, c, d, e, rfl⟩ : ∃ a b c d e, j = ix5 a b c d e := ⟨_, _, _, _, _, eq_ix5 j⟩
    have h := (hP a b c d e).1 (Finset.mem_filter.1 hj).2
    have ha : (i 0 : Fin 1) = a := Fin.ext h.1
    have hb : (i 1 : Fin 16) = b := Fin.ext h.2.1
    show ix5 (i 0) (i 1) c d e = ix5 a b c d e
    rw [ha, hb]
    rfl
  · intro t _
    rfl
  · intro j hj
    obtain ⟨a, b, c, d, e, rfl⟩ : ∃ a b c d e, j = ix5 a b c d e := ⟨_, _, _, _, _, eq_ix5 j⟩
    have h := (hP a b c d e).1 (Finset.mem_filter.1 hj).2
    have ha : (i 0 : Fin 1) = a := Fin.ext h.1
    have hb : (i 1 : Fin 16) = b := Fin.ext h.2.1
    show XR (ix5 a b c d e) = XR (ix5 (i 0) (i 1) c d e)
    rw [ha, hb]

/-- The start-index word of merged position c, as the program computes it (window times 4 plus offset, then the
    wrap of a negative value, which never fires), read signed: the landing position. -/
theorem word_land : ∀ c : Fin 128,
    (Scalar.select
      (IntOp.cmpi .slt (IntOp.addi (IntOp.muli (BitVec.ofNat 32 (c.val / 8)) 4#32) (BitVec.ofNat 32 (c.val % 8))) 0#32)
      (IntOp.addi (IntOp.addi (IntOp.muli (BitVec.ofNat 32 (c.val / 8)) 4#32) (BitVec.ofNat 32 (c.val % 8))) 68#32)
      (IntOp.addi (IntOp.muli (BitVec.ofNat 32 (c.val / 8)) 4#32) (BitVec.ofNat 32 (c.val % 8)))).toInt
      = (land c : Int) := by
  decide

/-! ## The index tensor at an index -/

/-- The index vector [128] at position c: window times 4 plus offset, as words. -/
theorem v12_at (c : Fin 128) : val_main_v12 (F := Ideal) (ix1 c)
    = IntOp.addi (IntOp.muli (BitVec.ofNat 32 (c.val / 8)) 4#32) (BitVec.ofNat 32 (c.val % 8)) := by
  rw [val_main_v12_apply, val_main_v11_apply, val_main_v9_apply, val_main_v10_apply, val_main_v6_apply,
    val_main_v8_apply, val_main_v4_apply, val_main_v5_apply, val_main_v3_apply, val_main_v7_apply, val_main_c_apply]
theorem v22_at (c : Fin 128) : val_main_v22 (F := Ideal) (ix1 c)
    = IntOp.addi (IntOp.muli (BitVec.ofNat 32 (c.val / 8)) 4#32) (BitVec.ofNat 32 (c.val % 8)) := by
  rw [val_main_v22_apply, val_main_v21_apply, val_main_v19_apply, val_main_v20_apply, val_main_v16_apply,
    val_main_v18_apply, val_main_v14_apply, val_main_v15_apply, val_main_v13_apply, val_main_v17_apply, val_main_c_0_apply]
theorem v32_at (c : Fin 128) : val_main_v32 (F := Ideal) (ix1 c)
    = IntOp.addi (IntOp.muli (BitVec.ofNat 32 (c.val / 8)) 4#32) (BitVec.ofNat 32 (c.val % 8)) := by
  rw [val_main_v32_apply, val_main_v31_apply, val_main_v29_apply, val_main_v30_apply, val_main_v26_apply,
    val_main_v28_apply, val_main_v24_apply, val_main_v25_apply, val_main_v23_apply, val_main_v27_apply, val_main_c_1_apply]

/-- The three pieces of the index tensor, each with its shape. -/
abbrev pieces : List ((s : Shape) × (s.Idx → BitVec 32)) :=
  [⟨S128x128x128x1, val_main_v55 (F := Ideal)⟩, ⟨S128x128x128x1, val_main_v56 (F := Ideal)⟩,
    ⟨S128x128x128x1, val_main_v57 (F := Ideal)⟩]

/-- The concatenation along the last axis, read at last coordinate 0, 1, 2: the first, second, third piece. -/
theorem v58_0 (c d e : Fin 128) :
    val_main_v58 (F := Ideal) (ix4 c d e 0) = val_main_v55 (F := Ideal) (ix4 c d e 0) := by
  unfold val_main_v58
  refine concatenate_apply_piece (t := S128x128x128x3) 3 pieces
    concatenates_S128x128x128x1_S128x128x128x1_S128x128x128x1_S128x128x128x3_d3 (ix4 c d e 0) 0 (by decide)
    S128x128x128x1 (val_main_v55 (F := Ideal)) rfl rfl 0 ?_ (ix4 c d e 0) ?_ ?_
  · decide
  · intro b hb
    match b with
    | ⟨0, _⟩ => rfl
    | ⟨1, _⟩ => rfl
    | ⟨2, _⟩ => rfl
    | ⟨3, _⟩ => exact (hb rfl).elim
  · rfl
theorem v58_1 (c d e : Fin 128) :
    val_main_v58 (F := Ideal) (ix4 c d e 1) = val_main_v56 (F := Ideal) (ix4 c d e 0) := by
  unfold val_main_v58
  refine concatenate_apply_piece (t := S128x128x128x3) 3 pieces
    concatenates_S128x128x128x1_S128x128x128x1_S128x128x128x1_S128x128x128x3_d3 (ix4 c d e 1) 1 (by decide)
    S128x128x128x1 (val_main_v56 (F := Ideal)) rfl rfl 1 ?_ (ix4 c d e 0) ?_ ?_
  · decide
  · intro b hb
    match b with
    | ⟨0, _⟩ => rfl
    | ⟨1, _⟩ => rfl
    | ⟨2, _⟩ => rfl
    | ⟨3, _⟩ => exact (hb rfl).elim
  · rfl
theorem v58_2 (c d e : Fin 128) :
    val_main_v58 (F := Ideal) (ix4 c d e 2) = val_main_v57 (F := Ideal) (ix4 c d e 0) := by
  unfold val_main_v58
  refine concatenate_apply_piece (t := S128x128x128x3) 3 pieces
    concatenates_S128x128x128x1_S128x128x128x1_S128x128x128x1_S128x128x128x3_d3 (ix4 c d e 2) 2 (by decide)
    S128x128x128x1 (val_main_v57 (F := Ideal)) rfl rfl 2 ?_ (ix4 c d e 0) ?_ ?_
  · decide
  · intro b hb
    match b with
    | ⟨0, _⟩ => rfl
    | ⟨1, _⟩ => rfl
    | ⟨2, _⟩ => rfl
    | ⟨3, _⟩ => exact (hb rfl).elim
  · rfl

/-- Component 0 of the start index at (c, d, e), read signed: where c lands. -/
theorem idx_0 (c d e : Fin 128) : (val_main_v58 (F := Ideal) (ix4 c d e 0)).toInt = (land c : Int) := by
  rw [v58_0, val_main_v55_apply, val_main_v52_apply, val_main_v41_apply, val_main_v38_apply, val_main_v40_apply,
    val_main_v34_apply, val_main_v37_apply, val_main_v39_apply, val_main_c_2_apply, val_main_c_3_apply]
  rw [show idx_main_v34 (idx_main_v52 (idx_main_v55 (ix4 c d e 0))) = ix1 c from by
    funext k; match k with | ⟨0, _⟩ => rfl]
  rw [v12_at]
  exact word_land c
/-- Component 1: where d lands. -/
theorem idx_1 (c d e : Fin 128) : (val_main_v58 (F := Ideal) (ix4 c d e 1)).toInt = (land d : Int) := by
  rw [v58_1, val_main_v56_apply, val_main_v53_apply, val_main_v46_apply, val_main_v43_apply, val_main_v45_apply,
    val_main_v35_apply, val_main_v42_apply, val_main_v44_apply, val_main_c_4_apply, val_main_c_5_apply]
  rw [show idx_main_v35 (idx_main_v53 (idx_main_v56 (ix4 c d e 0))) = ix1 d from by
    funext k; match k with | ⟨0, _⟩ => rfl]
  rw [v22_at]
  exact word_land d
/-- Component 2: where e lands. -/
theorem idx_2 (c d e : Fin 128) : (val_main_v58 (F := Ideal) (ix4 c d e 2)).toInt = (land e : Int) := by
  rw [v58_2, val_main_v57_apply, val_main_v54_apply, val_main_v51_apply, val_main_v48_apply, val_main_v50_apply,
    val_main_v36_apply, val_main_v47_apply, val_main_v49_apply, val_main_c_6_apply, val_main_c_7_apply]
  rw [show idx_main_v36 (idx_main_v54 (idx_main_v57 (ix4 c d e 0))) = ix1 e from by
    funext k; match k with | ⟨0, _⟩ => rfl]
  rw [v32_at]
  exact word_land e

/-! ## The scatter -/

/-- The operand the scatter adds onto is zero everywhere. -/
theorem v33_zero (i : S1x16x68x68x68.Idx) : val_main_v33 (F := Ideal) i = 0 := by
  rw [val_main_v33_apply, val_main_cst_apply]
  exact Ideal.ofBits_zero_f32

theorem scatter_eq (x0 : FVec Ideal Cert.ReferenceIdeal.S1x16x8x8x8x4096 .f32) :
    Cert.ReferenceIdeal.Read.val_main_v59 (F := Ideal) x0
      = Cert.OverlapAdd.out5 (Cert.ReferenceIdeal.Read.val_main_v2 (F := Ideal) x0) := by
  funext i
  unfold val_main_v59
  generalize val_main_v2 (F := Ideal) x0 = XR
  show val_main_v33 (F := Ideal) i
      + ∑ j ∈ Finset.univ.filter (fun j => sd.resultIdx? j (val_main_v58 (F := Ideal)) = some i), XR j = out5 XR i
  rw [v33_zero, zero_add]
  apply sum_lands
  intro a b c d e
  rw [lands_iff, idx_0, idx_1, idx_2]
  simp only [Nat.cast_inj]

end Cert.ReferenceIdeal.RefValue

end
-- ==== Proof.lean ====
/-
  The 3-D "fold": 16 × 16 × 16 windows of 8 × 8 × 8 values, laid at stride 4 along each of three axes, are added where
  they overlap, giving a 68 × 68 × 68 result per channel.

  The reference adds every window element onto its landing position in one scatter-add from zeros: entry (a, b, d)
  is the sum of the merged array over the triples of positions landing on (a, b, d). The kernel does the same one
  axis at a time: three pallas regions, each overlap-adding axis 1 of its operand with an accumulator kept across the
  windows of a channel block, with axis swaps in between. Over the extended reals addition is commutative and
  associative with neutral 0, so the nested single-axis sums are the one sum over triples, whatever the entries
  (no finiteness is used: the precondition is never opened).

  * the frames: each region's body, run at a grid point, steps the accumulator and at the last window of a channel
    block copies it to the output block; the launch composes the regions and the host operations between them and
    ends with every buffer at a named value, the argument untouched (both for the word-level program and its
    idealization);
  * the kernel's value: after each region the output array is the axis-1 overlap-add of the array it entered with;
  * the reference's value: the scatter-add read at an index;
  * the two meet at `Cert.OverlapAdd.out5` of the same merged array.
-/
import proofs.«130459_j45174466019398_2_alg».proof.Defs
import proofs.«130459_j45174466019398_2_alg».proof.Proof.Gen.Kernel
import proofs.«130459_j45174466019398_2_alg».proof.Proof.Gen.KernelIdeal
import proofs.«130459_j45174466019398_2_alg».proof.Proof.Gen.ReferenceIdeal
import proofs.«130459_j45174466019398_2_alg».proof.Proof.Gen.Pre_finite_inputs
import proofs.«130459_j45174466019398_2_alg».proof.Proof.Gen.ReferenceIdeal.Run
import proofs.«130459_j45174466019398_2_alg».proof.Proof.Gen.ReferenceIdeal.Read
import proofs.«130459_j45174466019398_2_alg».proof.Proof.BitsFoldProgram
import proofs.«130459_j45174466019398_2_alg».proof.Proof.KernelValue
import proofs.«130459_j45174466019398_2_alg».proof.Proof.RefScatter

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.Fold.frame m ρ

/-- So does its idealization. -/
theorem frame_kernelIdeal : Cert.frame_KernelIdeal := fun m ρ _ => Cert.KernelIdeal.Fold.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs compute the merged array by the same reshape, transpose, reshape of the argument. -/
theorem merged_same (x : FVec Ideal Cert.KernelIdeal.S1x16x8x8x8x4096 .f32) :
    Cert.ReferenceIdeal.Read.val_main_v2 (F := Ideal) x = Cert.KernelIdeal.Fold.merged x := rfl

/-- From memories agreeing on the argument both programs end with the three-axis overlap-add of the merged array. -/
theorem algebraic : Cert.algebraic_KernelIdeal_ReferenceIdeal := by
  intro m ρ m' ρ' _ hagree
  refine ⟨fun c => Cert.OverlapAdd.out5 (Cert.KernelIdeal.Fold.merged (m ((c.tc : Thread Cert.KernelIdeal.nD Cert.KernelIdeal.τ).loc Cert.KernelIdeal.main_arg0))), ?_, ?_⟩
  · refine (θ_run Cert.KernelIdeal.defs _ _).mono (fun r h c => ⟨?_, ?_⟩) (Cert.KernelIdeal.Fold.run_all (F := Ideal) m ρ)
    · exact (h c _ (Cert.KernelIdeal.Fold.mem_uc Cert.KernelIdeal.main_v10 (by decide))).trans (Cert.KernelIdeal.Fold.result_value m c)
    · exact (h c _ (Cert.KernelIdeal.Fold.mem_uc Cert.KernelIdeal.main_arg0 (by decide))).trans (Cert.KernelIdeal.Fold.at7_main_arg0 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, Cert.ReferenceIdeal.RefValue.scatter_eq, hagree c, merged_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
